-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.truncf_extf.Statement Cert.KernelIdeal.S256x128 .f32 .bf16
  ∧ IdealRules.truncf_extf.Statement Cert.KernelIdeal.S1024x128 .f32 .bf16
  ∧ IdealRules.truncf_extf.Statement Cert.KernelIdeal.S256x128 .f32 .bf16
  ∧ IdealRules.truncf_extf.Statement Cert.KernelIdeal.S1024x128 .f32 .bf16
  ∧ IdealRules.truncf_extf.Statement Cert.KernelIdeal.S256x128 .f32 .bf16
  ∧ IdealRules.truncf_extf.Statement Cert.KernelIdeal.S1024x128 .f32 .bf16
  ∧ IdealRules.truncf_extf.Statement Cert.KernelIdeal.S256x128 .f32 .bf16
  ∧ IdealRules.truncf_extf.Statement Cert.KernelIdeal.S1024x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x512 : Shape := ⟨3, ![16, 1024, 512]⟩
abbrev S512x512 : Shape := ⟨2, ![512, 512]⟩
abbrev S512 : Shape := ⟨1, ![512]⟩
abbrev S2048x512 : Shape := ⟨2, ![2048, 512]⟩
abbrev S2048 : Shape := ⟨1, ![2048]⟩
abbrev S_ : Shape := ⟨0, ![]⟩

class Facts : Prop where
  bcast_S_S16x1024x512 : S_.BroadcastsInDim S16x1024x512 (![] : Fin 0 → Fin S16x1024x512.rank)
  reducesTo_S16x1024x512_S_d0_1_2 : S16x1024x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S512 .f32) (main_arg8 : FVec F S2048x512 .f32) (main_arg9 : FVec F S2048 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S2048x512 .f32 := Host.absf main_arg8
  let main_cst_14 : FVec F S_ .f32 := constant S_ .f32 0x7F800000#32
  let main_v40 : FVec F S2048x512 .f32 := broadcastInDim S2048x512 ![] bcast_S_S2048x512 main_cst_14
  let main_v41 : IVec S2048x512 1 := cmpf .olt main_v39 main_v40
  let main_c_15 : IVec S_ 1 := constantI S_ 1 1#1
  let main_v42 : IVec S_ 1 := (fun x v => Host.reduce IntOp.andi x v reducesTo_S2048x512_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  main_v48

def fn_part1 {F : FTy → Type} [FloatOps F] (main_arg4 : FVec F S512x512 .f32) (main_arg5 : FVec F S512 .f32) (main_arg6 : FVec F S512x512 .f32) (main_arg7 : FVec F S512 .f32) (main_arg8 : FVec F S2048x512 .f32) (main_arg9 : FVec F S2048 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S16x1024x512 .f32) (main_arg1 : FVec F S16x1024x512 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) (main_arg8 : FVec F S2048x512 .f32) (main_arg9 : FVec F S2048 .f32) : IVec S_ 1 :=
  let main_v0 : FVec F S16x1024x512 .f32 := Host.absf main_arg0
  let main_cst : FVec F S_ .f32 := constant S_ .f32 0x7F800000#32
  let main_v1 : FVec F S16x1024x512 .f32 := broadcastInDim S16x1024x512 ![] bcast_S_S16x1024x512 main_cst
  let main_v2 : IVec S16x1024x512 1 := cmpf .olt main_v0 main_v1
  let main_c : IVec S_ 1 := constantI S_ 1 1#1
  let main_v3 : IVec S_ 1 := (fun x v => Host.reduce IntOp.andi x v reducesTo_S16x1024x512_S_d0_1_2 h_S_) main_v2 main_c
  let main_v4 : FVec F S16x1024x512 .f32 := Host.absf main_arg1
  let main_cst_0 : FVec F S_ .f32 := constant S_ .f32 0x7F800000#32
  let main_v5 : FVec F S16x1024x512 .f32 := broadcastInDim S16x1024x512 ![] bcast_S_S16x1024x512 main_cst_0
  let main_v6 : IVec S16x1024x512 1 := cmpf .olt main_v4 main_v5
  let main_c_1 : IVec S_ 1 := constantI S_ 1 1#1
  let main_v7 : IVec S_ 1 := (fun x v => Host.reduce IntOp.andi x v reducesTo_S16x1024x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_v13 main_v16
-- ==== Kernel.lean ====
abbrev S16x1024x512 : Shape := ⟨3, ![16, 1024, 512]⟩
abbrev S512x512 : Shape := ⟨2, ![512, 512]⟩
abbrev S512 : Shape := ⟨1, ![512]⟩
abbrev S2048x512 : Shape := ⟨2, ![2048, 512]⟩
abbrev S2048 : Shape := ⟨1, ![2048]⟩
abbrev S_ : Shape := ⟨0, ![]⟩
abbrev S1x512 : Shape := ⟨2, ![1, 512]⟩
abbrev S1x2048 : Shape := ⟨2, ![1, 2048]⟩
abbrev S16x1024x2048 : Shape := ⟨3, ![16, 1024, 2048]⟩
abbrev S1x1024x512 : Shape := ⟨3, ![1, 1024, 512]⟩
abbrev S1x1024x2048 : Shape := ⟨3, ![1, 1024, 2048]⟩
abbrev S1024x2048 : Shape := ⟨2, ![1024, 2048]⟩
abbrev S1024x512 : Shape := ⟨2, ![1024, 512]⟩
abbrev S128x512 : Shape := ⟨2, ![128, 512]⟩
abbrev S1x128 : Shape := ⟨2, ![1, 128]⟩
abbrev S128 : Shape := ⟨1, ![128]⟩
abbrev S2048x128 : Shape := ⟨2, ![2048, 128]⟩
abbrev S1024x128 : Shape := ⟨2, ![1024, 128]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S1x256x2048 : Shape := ⟨3, ![1, 256, 2048]⟩

abbrev nBuf : Space → Nat
  | .hbm => 27
  | .vmem => 14
  | .smem => 0
  | _ => 0

abbrev bufTy : (tb : Table) → Fin (tcTables nBuf tb) → BufTy
  | .hbm, ⟨0, _⟩ => ⟨S16x1024x512, .f32⟩
  | .hbm, ⟨1, _⟩ => ⟨S16x1024x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S2048x512, .f32⟩
  | .hbm, ⟨9, _⟩ => ⟨S2048, .f32⟩
  | .hbm, ⟨10, _⟩ => ⟨S_, .f32⟩
  | .hbm, ⟨11, _⟩ => ⟨S512x512, .f32⟩
  | .hbm, ⟨12, _⟩ => ⟨S512x512, .f32⟩
  | .hbm, ⟨13, _⟩ => ⟨S_, .f32⟩
  | .hbm, ⟨14, _⟩ => ⟨S512x512, .f32⟩
  | .hbm, ⟨15, _⟩ => ⟨S512x512, .f32⟩
  | .hbm, ⟨16, _⟩ => ⟨S_, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x2048, .f32⟩
  | .hbm, ⟨26, _⟩ => ⟨S16x1024x2048, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S512x512, .f32⟩
  | .local _ .vmem, ⟨9, _⟩ => ⟨S1x512, .f32⟩
  | .local _ .vmem, ⟨10, _⟩ => ⟨S2048x512, .f32⟩
  | .local _ .vmem, ⟨11, _⟩ => ⟨S1x2048, .f32⟩
  | .local _ .vmem, ⟨12, _⟩ => ⟨S1x1024x2048, .f32⟩
  | .local _ .vmem, ⟨13, _⟩ => ⟨S1x1024x2048, .f32⟩
  | _, _ => ⟨S16x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c128_i32 : BitVec 32 := 128#32
  let v3 : BitVec 32 := Scalar.muli arg1 c128_i32
  v3
def k0_off1 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let v11 : Index := Scalar.indexCast v4
  let c0_6 : Index := 0#32
  ![v11.toNat, 0]
def k0_off2 (i : grid0.Coords) : Fin 2 → Nat :=
  let c0_9 : Index := 0#32
  let arg1 : BitVec 32 := BitVec.ofNat 32 (i 1).val
  let c128_i32 : BitVec 32 := 128#32
  let v3 : BitVec 32 := Scalar.muli arg1 c128_i32
  let v4 : BitVec 32 := v3
  let v20 : Index := Scalar.indexCast v4
  ![0, v20.toNat]
def k0_off3 (i : grid0.Coords) : Fin 2 → Nat :=
  let c0_12 : Index := 0#32
  let arg1 : BitVec 32 := BitVec.ofNat 32 (i 1).val
  let c128_i32 : BitVec 32 := 128#32
  let v3 : BitVec 32 := Scalar.muli arg1 c128_i32
  let v4 : BitVec 32 := v3
  let v29 : Index := Scalar.indexCast v4
  ![0, v29.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  bcast_S_S512x512 : S_.BroadcastsInDim S512x512 (![] : Fin 0 → Fin S512x512.rank)
  bcast_S_S2048x512 : S_.BroadcastsInDim S2048x512 (![] : Fin 0 → Fin S2048x512.rank)
  bcast_S512_S1x512_1 : S512.BroadcastsInDim S1x512 (![1] : Fin 1 → Fin S1x512.rank)
  bcast_S2048_S1x2048_1 : S2048.BroadcastsInDim S1x2048 (![1] : Fin 1 → Fin S1x2048.rank)
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  h_S128x512 : 0 < S128x512.numel
  shapeCasts_S128x512_S128x512 : S128x512.ShapeCasts S128x512
  h_S1x128 : 0 < S1x128.numel
  shapeCasts_S1x128_S128 : S1x128.ShapeCasts S128
  h_S2048x128 : 0 < S2048x128.numel
  shapeCasts_S2048x128_S2048x128 : S2048x128.ShapeCasts S2048x128
  shapeCasts_S128_S1x128 : S128.ShapeCasts S1x128
  broadcasts_S1x128_S1024x128 : S1x128.Broadcasts S1024x128
  slices_S1024x128_o0_0_S256x128 : S1024x128.Slices ![0, 0] S256x128
  reduces_S256x1024_S256 : S256x1024.Reduces [1] S256
  shapeCasts_S256_S256x1 : S256.ShapeCasts S256x1
  broadcasts_S256x1_S256x1024 : S256x1.Broadcasts S256x1024
  inb_S1x1024x2048_S1x256x2048_0_0_0 : ∀ a, (![0, 0, 0] : Fin 3 → Nat) a + S1x256x2048.size a ≤ S1x1024x2048.size a
  h_S1x256x2048 : 0 < S1x256x2048.numel
  shapeCasts_S1x256x2048_S256x2048 : S1x256x2048.ShapeCasts S256x2048
  shapeCasts_S256x2048_S1x256x2048 : S256x2048.ShapeCasts S1x256x2048
  slices_S1024x128_o256_0_S256x128 : S1024x128.Slices ![256, 0] S256x128
  inb_S1x1024x2048_S1x256x2048_0_256_0 : ∀ a, (![0, 256, 0] : Fin 3 → Nat) a + S1x256x2048.size a ≤ S1x1024x2048.size a
  slices_S1024x128_o512_0_S256x128 : S1024x128.Slices ![512, 0] S256x128
  inb_S1x1024x2048_S1x256x2048_0_512_0 : ∀ a, (![0, 512, 0] : Fin 3 → Nat) a + S1x256x2048.size a ≤ S1x1024x2048.size a
  slices_S1024x128_o768_0_S256x128 : S1024x128.Slices ![768, 0] S256x128
  inb_S1x1024x2048_S1x256x2048_0_768_0 : ∀ a, (![0, 768, 0] : Fin 3 → Nat) a + S1x256x2048.size a ≤ S1x1024x2048.size a
  inb_S1x2048_S1x2048_0_0 : ∀ a, (![0, 0] : Fin 2 → Nat) a + S1x2048.size a ≤ S1x2048.size a
  h_S1x2048 : 0 < S1x2048.numel
  shapeCasts_S1x2048_S2048 : S1x2048.ShapeCasts S2048
  shapeCasts_S2048_S1x2048 : S2048.ShapeCasts S1x2048
  broadcasts_S1x2048_S1024x2048 : S1x2048.Broadcasts S1024x2048
  dot_S1024x512_S128x512_S1024x128_1_1_0_0_n_n_wf : DotDims.WF S1024x512 S128x512 S1024x128 [1] [1] [0] [0] [] []
  dot_S256x128_S1024x128_S256x1024_1_1_0_0_n_n_wf : DotDims.WF S256x128 S1024x128 S256x1024 [1] [1] [0] [0] [] []
  dot_S256x1024_S1024x128_S256x128_1_0_0_1_n_n_wf : DotDims.WF S256x1024 S1024x128 S256x128 [1] [0] [0] [1] [] []
  dot_S256x128_S2048x128_S256x2048_1_1_0_0_n_n_wf : DotDims.WF S256x128 S2048x128 S256x2048 [1] [1] [0] [0] [] []
  hrank0 : 0 < grid0.rank
  k0_mult1_dvd : ∀ i : grid0.Coords, 128 ∣ (k0_mult1 i).toNat
  k0_off1_inb : ∀ i : grid0.Coords, ∀ a, (k0_off1 i) a + S128x512.size a ≤ S512x512.size a
  k0_off2_inb : ∀ i : grid0.Coords, ∀ a, (k0_off2 i) a + S1x128.size a ≤ S1x512.size a
  k0_off3_inb : ∀ i : grid0.Coords, ∀ a, (k0_off3 i) a + S2048x128.size a ≤ S2048x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S16x1024x512.size a
  hwx0_0 : ∀ i : grid0.Coords, EltTy.bits .f32 = 32 ∨ (Rect.block (s := S16x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S16x1024x512.size a
  hwx0_1 : ∀ i : grid0.Coords, EltTy.bits .f32 = 32 ∨ (Rect.block (s := S16x1024x512) S1x1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x512.size a ≤ S2048x512.size a
  hwx0_8 : ∀ i : grid0.Coords, EltTy.bits .f32 = 32 ∨ (Rect.block (s := S2048x512) S2048x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024x2048.size a ≤ S16x1024x2048.size a
  hwx0_10 : ∀ i : grid0.Coords, EltTy.bits .f32 = 32 ∨ (Rect.block (s := S16x1024x2048) S1x1024x2048.size (cc0_transform_10 i) (hinb0_10 i)).WholeWords (EltTy.packing .f32)

variable [Facts₀]

def dot_S1024x512_S128x512_S1024x128_1_1_0_0_n_n : DotDims S1024x512 S128x512 S1024x128 where
  lhsContracting := [1]
  rhsContracting := [1]
  lhsNonContracting := [0]
  rhsNonContracting := [0]
  lhsBatch := []
  rhsBatch := []
  wf := dot_S1024x512_S128x512_S1024x128_1_1_0_0_n_n_wf
def dot_S256x128_S1024x128_S256x1024_1_1_0_0_n_n : DotDims S256x128 S1024x128 S256x1024 where
  lhsContracting := [1]
  rhsContracting := [1]
  lhsNonContracting := [0]
  rhsNonContracting := [0]
  lhsBatch := []
  rhsBatch := []
  wf := dot_S256x128_S1024x128_S256x1024_1_1_0_0_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf

abbrev win0_0 : Pipeline.Window sig grid0 :=
  Pipeline.Window.ofSpec (Memref.whole main_arg1) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S2048x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1x1024x2048.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16x1024x512 : Shape := ⟨3, ![16, 1024, 512]⟩
abbrev S512x512 : Shape := ⟨2, ![512, 512]⟩
abbrev S512 : Shape := ⟨1, ![512]⟩
abbrev S2048x512 : Shape := ⟨2, ![2048, 512]⟩
abbrev S2048 : Shape := ⟨1, ![2048]⟩
abbrev S_ : Shape := ⟨0, ![]⟩
abbrev S1x1x512 : Shape := ⟨3, ![1, 1, 512]⟩
abbrev S16x1024x4x128 : Shape := ⟨4, ![16, 1024, 4, 128]⟩
abbrev S16x4x128x1024 : Shape := ⟨4, ![16, 4, 128, 1024]⟩
abbrev S16x4x1024x1024 : Shape := ⟨4, ![16, 4, 1024, 1024]⟩
abbrev S16x4x1024 : Shape := ⟨3, ![16, 4, 1024]⟩
abbrev S16x4x1024x1 : Shape := ⟨4, ![16, 4, 1024, 1]⟩
abbrev S16x512x1024 : Shape := ⟨3, ![16, 512, 1024]⟩
abbrev S16x1024x2048 : Shape := ⟨3, ![16, 1024, 2048]⟩
abbrev S1x1x2048 : Shape := ⟨3, ![1, 1, 2048]⟩

abbrev nBuf : Space → Nat
  | .hbm => 65
  | .vmem => 0
  | .smem => 0
  | _ => 0

abbrev bufTy : (tb : Table) → Fin (tcTables nBuf tb) → BufTy
  | .hbm, ⟨0, _⟩ => ⟨S16x1024x512, .f32⟩
  | .hbm, ⟨1, _⟩ => ⟨S16x1024x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S2048x512, .f32⟩
  | .hbm, ⟨9, _⟩ => ⟨S2048, .f32⟩
  | .hbm, ⟨10, _⟩ => ⟨S_, .f32⟩
  | .hbm, ⟨11, _⟩ => ⟨S512x512, .f32⟩
  | .hbm, ⟨12, _⟩ => ⟨S512x512, .f32⟩
  | .hbm, ⟨13, _⟩ => ⟨S16x1024x512, .f32⟩
  | .hbm, ⟨14, _⟩ => ⟨S1x1x512, .f32⟩
  | .hbm, ⟨15, _⟩ => ⟨S16x1024x512, .f32⟩
  | .hbm, ⟨16, _⟩ => ⟨S16x1024x512, .f32⟩
  | .hbm, ⟨17, _⟩ => ⟨S16x1024x4x128, .f32⟩
  | .hbm, ⟨18, _⟩ => ⟨S16x4x128x1024, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S16x1024x512, .f32⟩
  | .hbm, ⟨23, _⟩ => ⟨S1x1x512, .f32⟩
  | .hbm, ⟨24, _⟩ => ⟨S16x1024x512, .f32⟩
  | .hbm, ⟨25, _⟩ => ⟨S16x1024x512, .f32⟩
  | .hbm, ⟨26, _⟩ => ⟨S16x1024x4x128, .f32⟩
  | .hbm, ⟨27, _⟩ => ⟨S16x4x128x1024, .f32⟩
  | .hbm, ⟨28, _⟩ => ⟨S_, .f32⟩
  | .hbm, ⟨29, _⟩ => ⟨S512x512, .f32⟩
  | .hbm, ⟨30, _⟩ => ⟨S512x512, .f32⟩
  | .hbm, ⟨31, _⟩ => ⟨S16x1024x512, .f32⟩
  | .hbm, ⟨32, _⟩ => ⟨S1x1x512, .f32⟩
  | .hbm, ⟨33, _⟩ => ⟨S16x1024x512, .f32⟩
  | .hbm, ⟨34, _⟩ => ⟨S16x1024x512, .f32⟩
  | .hbm, ⟨35, _⟩ => ⟨S16x1024x4x128, .f32⟩
  | .hbm, ⟨36, _⟩ => ⟨S16x4x128x1024, .f32⟩
  | .hbm, ⟨37, _⟩ => ⟨S16x4x1024x1024, .f32⟩
  | .hbm, ⟨38, _⟩ => ⟨S_, .f32⟩
  | .hbm, ⟨39, _⟩ => ⟨S16x4x1024x1024, .f32⟩
  | .hbm, ⟨40, _⟩ => ⟨S16x4x1024x1024, .f32⟩
  | .hbm, ⟨41, _⟩ => ⟨S_, .f32⟩
  | .hbm, ⟨42, _⟩ => ⟨S16x4x1024, .f32⟩
  | .hbm, ⟨43, _⟩ => ⟨S_, .f32⟩
  | .hbm, ⟨44, _⟩ => ⟨S16x4x1024, .f32⟩
  | .hbm, ⟨45, _⟩ => ⟨S16x4x1024, .f32⟩
  | .hbm, ⟨46, _⟩ => ⟨S16x4x1024x1, .f32⟩
  | .hbm, ⟨47, _⟩ => ⟨S16x4x1024x1024, .f32⟩
  | .hbm, ⟨48, _⟩ => ⟨S16x4x1024x1024, .f32⟩
  | .hbm, ⟨49, _⟩ => ⟨S16x4x1024x1024, .f32⟩
  | .hbm, ⟨50, _⟩ => ⟨S_, .f32⟩
  | .hbm, ⟨51, _⟩ => ⟨S16x4x1024, .f32⟩
  | .hbm, ⟨52, _⟩ => ⟨S16x4x1024x1, .f32⟩
  | .hbm, ⟨53, _⟩ => ⟨S16x4x1024x1024, .f32⟩
  | .hbm, ⟨54, _⟩ => ⟨S16x4x1024x1024, .f32⟩
  | .hbm, ⟨55, _⟩ => ⟨S16x4x128x1024, .f32⟩
  | .hbm, ⟨56, _⟩ => ⟨S16x512x1024, .f32⟩
  | .hbm, ⟨57, _⟩ => ⟨S16x1024x512, .f32⟩
  | .hbm, ⟨58, _⟩ => ⟨S_, .f32⟩
  | .hbm, ⟨59, _⟩ => ⟨S2048x512, .f32⟩
  | .hbm, ⟨60, _⟩ => ⟨S2048x512, .f32⟩
  | .hbm, ⟨61, _⟩ => ⟨S16x1024x2048, .f32⟩
  | .hbm, ⟨62, _⟩ => ⟨S1x1x2048, .f32⟩
  | .hbm, ⟨63, _⟩ => ⟨S16x1024x2048, .f32⟩
  | .hbm, ⟨64, _⟩ => ⟨S16x1024x2048, .f32⟩
  | _, _ => ⟨S16x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S512_S1x1x512_2 : S512.BroadcastsInDim S1x1x512 (![2] : Fin 1 → Fin S1x1x512.rank)
  bcast_S1x1x512_S16x1024x512_0_1_2 : S1x1x512.BroadcastsInDim S16x1024x512 (![0, 1, 2] : Fin 3 → Fin S16x1024x512.rank)
  shapeCasts_S16x1024x512_S16x1024x4x128 : S16x1024x512.ShapeCasts S16x1024x4x128
  transposes_S16x1024x4x128_S16x4x128x1024_0_2_3_1 : S16x1024x4x128.Transposes [0, 2, 3, 1] S16x4x128x1024
  bcast_S_S16x4x1024x1024 : S_.BroadcastsInDim S16x4x1024x1024 (![] : Fin 0 → Fin S16x4x1024x1024.rank)
  reducesTo_S16x4x1024x1024_S16x4x1024_d3 : S16x4x1024x1024.ReducesTo [3] S16x4x1024
  h_S_ : 0 < S_.numel
  bcast_S_S16x4x1024 : S_.BroadcastsInDim S16x4x1024 (![] : Fin 0 → Fin S16x4x1024.rank)
  bcast_S16x4x1024_S16x4x1024x1_0_1_2 : S16x4x1024.BroadcastsInDim S16x4x1024x1 (![0, 1, 2] : Fin 3 → Fin S16x4x1024x1.rank)
  bcast_S16x4x1024x1_S16x4x1024x1024_0_1_2_3 : S16x4x1024x1.BroadcastsInDim S16x4x1024x1024 (![0, 1, 2, 3] : Fin 4 → Fin S16x4x1024x1024.rank)
  shapeCasts_S16x4x128x1024_S16x512x1024 : S16x4x128x1024.ShapeCasts S16x512x1024
  transposes_S16x512x1024_S16x1024x512_0_2_1 : S16x512x1024.Transposes [0, 2, 1] S16x1024x512
  bcast_S_S2048x512 : S_.BroadcastsInDim S2048x512 (![] : Fin 0 → Fin S2048x512.rank)
  bcast_S2048_S1x1x2048_2 : S2048.BroadcastsInDim S1x1x2048 (![2] : Fin 1 → Fin S1x1x2048.rank)
  bcast_S1x1x2048_S16x1024x2048_0_1_2 : S1x1x2048.BroadcastsInDim S16x1024x2048 (![0, 1, 2] : Fin 3 → Fin S16x1024x2048.rank)
  dot_S16x1024x512_S512x512_S16x1024x512_2_1_01_0_n_n_wf : DotDims.WF S16x1024x512 S512x512 S16x1024x512 [2] [1] [0, 1] [0] [] []
  dot_S16x4x128x1024_S16x4x128x1024_S16x4x1024x1024_2_2_3_3_01_01_wf : DotDims.WF S16x4x128x1024 S16x4x128x1024 S16x4x1024x1024 [2] [2] [3] [3] [0, 1] [0, 1]
  dot_S16x4x128x1024_S16x4x1024x1024_S16x4x128x1024_3_3_2_2_01_01_wf : DotDims.WF S16x4x128x1024 S16x4x1024x1024 S16x4x128x1024 [3] [3] [2] [2] [0, 1] [0, 1]
  dot_S16x1024x512_S2048x512_S16x1024x2048_2_1_01_0_n_n_wf : DotDims.WF S16x1024x512 S2048x512 S16x1024x2048 [2] [1] [0, 1] [0] [] []

variable [Facts₀]

def dot_S16x1024x512_S512x512_S16x1024x512_2_1_01_0_n_n : DotDims S16x1024x512 S512x512 S16x1024x512 where
  lhsContracting := [2]
  rhsContracting := [1]
  lhsNonContracting := [0, 1]
  rhsNonContracting := [0]
  lhsBatch := []
  rhsBatch := []
  wf := dot_S16x1024x512_S512x512_S16x1024x512_2_1_01_0_n_n_wf
def dot_S16x4x128x1024_S16x4x128x1024_S16x4x1024x1024_2_2_3_3_01_01 : DotDims S16x4x128x1024 S16x4x128x1024 S16x4x1024x1024 where
  lhsContracting := [2]
  rhsContracting := [2]
  lhsNonContracting := [3]
  rhsNonContracting := [3]
  lhsBatch := [0, 1]
  rhsBatch := [0, 1]
  wf := dot_S16x4x128x1024_S16x4x128x1024_S16x4x1024x1024_2_2_3_3_01_01_wf
def dot_S16x4x128x1024_S16x4x1024x1024_S16x4x128x1024_3_3_2_2_01_01 : DotDims S16x4x128x1024 S16x4x1024x1024 S16x4x128x1024 where
  lhsContracting := [3]
  rhsContracting := [3]
  lhsNonContracting := [2]
  rhsNonContracting := [2]
  lhsBatch := [0, 1]
  rhsBatch := [0, 1]
  wf := dot_S16x4x128x1024_S16x4x1024x1024_S16x4x128x1024_3_3_2_2_01_01_wf
def dot_S16x1024x512_S2048x512_S16x1024x2048_2_1_01_0_n_n : DotDims S16x1024x512 S2048x512 S16x1024x2048 where
  lhsContracting := [2]
  rhsContracting := [1]
  lhsNonContracting := [0, 1]
  rhsNonContracting := [0]
  lhsBatch := []
  rhsBatch := []
  wf := dot_S16x1024x512_S2048x512_S16x1024x2048_2_1_01_0_n_n_wf

class Facts : Prop extends Facts₀ where

variable [Facts]
-- ==== Proof.Spec.lean ====
/-
  Grouped attention with an output projection, as one function of the argument arrays, on the extended reals.

  Three linear layers give q (from the first activation array), k and v (from the second), each entry a row of the
  activations against a row of the weights scaled by the word for 1/√512, plus a bias. The 512 channels split into four
  groups of 128 consecutive ones. Within a group, the score of query row m against key row l is the product of their
  128 channels, scaled by the same word; a row of scores is turned into weights by the usual shift by the row maximum,
  exponential and division by the row sum; the weighted sum of the value rows gives 128 channels per group; and the
  512 channels of all groups, against a row of the scaled projection weights, plus a bias, give one output entry.
-/
import Idealize.ShloMosaic.PureOps.Ideal
import Idealize.ShloMosaic.Lib.ValueIdx

noncomputable section

namespace Cert.GroupAttn

open Idealize.ShloMosaic Idealize.ShloMosaic.ValueIdx
open scoped BigOperators

/-- The single-precision word both programs carry for 1/√512. -/
abbrev sc : EReal := Ideal.ofBits .f32 0x3D3504F3#32

/-- The value a row maximum starts from: the word for −∞. -/
abbrev lowest : EReal := Ideal.ofBits .f32 0xFF800000#32

/-- Activations [16, 1024, 512], square weights [512, 512], their biases [512], projection weights [2048, 512] and
    bias [2048], and the result [16, 1024, 2048]. -/
abbrev Act := (⟨3, ![16, 1024, 512]⟩ : Shape).Idx → EReal
abbrev Wt := (⟨2, ![512, 512]⟩ : Shape).Idx → EReal
abbrev Bs := (⟨1, ![512]⟩ : Shape).Idx → EReal
abbrev PWt := (⟨2, ![2048, 512]⟩ : Shape).Idx → EReal
abbrev PBs := (⟨1, ![2048]⟩ : Shape).Idx → EReal
abbrev Res := (⟨3, ![16, 1024, 2048]⟩ : Shape).Idx → EReal

/-- Channel d of group g among the 512: groups are consecutive runs of 128. -/
def ch (g : Fin 4) (d : Fin 128) : Fin 512 := ⟨128 * g.val + d.val, by have := g.isLt; have := d.isLt; omega⟩

/-- A linear layer: row t of batch n against row c of the scaled weights, plus the bias. -/
def lin (x : Act) (w : Wt) (b : Bs) (n : Fin 16) (t : Fin 1024) (c : Fin 512) : EReal :=
  (∑ j : Fin 512, x (ix3 n t j) * (w (ix2 c j) * sc)) + b (ix1 c)

/-- The score of query row m against key row l in group g: their 128 channels multiplied out, scaled. -/
def score (q k : Fin 16 → Fin 1024 → Fin 512 → EReal) (n : Fin 16) (g : Fin 4) (m l : Fin 1024) : EReal :=
  (∑ d : Fin 128, q n m (ch g d) * k n l (ch g d)) * sc

/-- The maximum of a row of scores, taken from −∞. -/
def rowMax (s : Fin 1024 → EReal) : EReal := (Finset.univ : Finset (Fin 1024)).fold max lowest s

/-- The exponential of a score shifted by its row's maximum. -/
def expShift (s : Fin 1024 → EReal) (l : Fin 1024) : EReal := Ideal.exp (s l - rowMax s)

/-- The attention weight: the shifted exponential over the row's sum of them. -/
def weight (s : Fin 1024 → EReal) (l : Fin 1024) : EReal := Ideal.div (expShift s l) (∑ j : Fin 1024, expShift s j)

/-- Channel d of group g of the attended values at query row m: the weights of row m against the value rows. -/
def attended (q k v : Fin 16 → Fin 1024 → Fin 512 → EReal) (n : Fin 16) (g : Fin 4) (m : Fin 1024) (d : Fin 128) : EReal :=
  ∑ l : Fin 1024, weight (score q k n g m) l * v n l (ch g d)

/-- What group g adds to output entry (n, m, o): its 128 attended channels against the matching 128 columns of row o
    of the scaled projection weights. -/
def groupTerm (q k v : Fin 16 → Fin 1024 → Fin 512 → EReal) (pw : PWt) (n : Fin 16) (g : Fin 4) (m : Fin 1024) (o : Fin 2048) : EReal :=
  ∑ d : Fin 128, attended q k v n g m d * (pw (ix2 o (ch g d)) * sc)

/-- The whole result: the four groups' terms, plus the projection bias. The first activation array feeds k and v, the
    second feeds q. -/
def result (x0 x1 : Act) (x2 : Wt) (x3 : Bs) (x4 : Wt) (x5 : Bs) (x6 : Wt) (x7 : Bs) (x8 : PWt) (x9 : PBs) : Res :=
  fun i => (∑ g : Fin 4, groupTerm (lin x1 x2 x3) (lin x0 x4 x5) (lin x0 x6 x7) x8 (i 0) g (i 1) (i 2)) + x9 (ix1 (i 2))

end Cert.GroupAttn

end
-- ==== Proof.LibReals.lean ====
/-
  Extended reals that are real numbers. At the ideal float values every float is an extended real; a
  value is FINITE when it is the image of a real number. This module collects, with no reference to any
  program: the predicate "every entry of a family is a real" and its closure under the exact operations
  (sum, product, difference, maximum, finite sums, division by a nonzero real, reciprocal square root
  of a positive real); the coercion of a finite real sum; and the identity between the two textbook
  forms of the variance of a finite family, (1/N) Σ (xᵢ − μ)² = (1/N) Σ xᵢ² − μ² with μ = (1/N) Σ xᵢ,
  first over the reals and then over real-valued extended reals, where each quotient is the ideal
  division and each sum may carry a leading zero summand; the variance is a real and is not negative.
-/
import Idealize.ShloMosaic.PureOps.Ideal

noncomputable section

namespace Cert.Reals

open Idealize.ShloMosaic
open scoped BigOperators

/-- An extended real that is (the image of) a real number. -/
def IsRealS (x : EReal) : Prop := ∃ r : ℝ, x = (r : EReal)

/-- Every entry of a family of extended reals is a real number. -/
def IsReal {ι : Type*} (f : ι → EReal) : Prop := ∀ i, ∃ r : ℝ, f i = (r : EReal)

/-- A family is real exactly when each entry is. -/
theorem isReal_iff {ι : Type*} (f : ι → EReal) : IsReal f ↔ ∀ i, IsRealS (f i) := Iff.rfl

/-- An entry of a real family is a real. -/
theorem IsReal.apply {ι : Type*} {f : ι → EReal} (h : IsReal f) (i : ι) : IsRealS (f i) := h i

/-- A real family is the coercion of a family of reals. -/
theorem IsReal.exists_eq {ι : Type*} {f : ι → EReal} (h : IsReal f) : ∃ r : ι → ℝ, f = fun i => (r i : EReal) := by
  choose r hr using h
  exact ⟨r, funext hr⟩

/-- The coercion of a family of reals is a real family. -/
theorem isReal_coe {ι : Type*} (r : ι → ℝ) : IsReal (fun i => (r i : EReal)) := fun i => ⟨r i, rfl⟩

/-- Re-indexing a real family gives a real family. -/
theorem IsReal.comp {ι κ : Type*} {f : ι → EReal} (h : IsReal f) (g : κ → ι) : IsReal (fun k => f (g k)) :=
  fun k => h (g k)

/-- A real number is a real. -/
theorem isRealS_coe (r : ℝ) : IsRealS (r : EReal) := ⟨r, rfl⟩

/-- Zero is a real. -/
theorem isRealS_zero : IsRealS 0 := ⟨0, rfl⟩

/-- One is a real. -/
theorem isRealS_one : IsRealS 1 := ⟨1, rfl⟩

/-- A real is not the upper infinity. -/
theorem IsRealS.ne_top {x : EReal} (h : IsRealS x) : x ≠ ⊤ := by
  obtain ⟨r, rfl⟩ := h; exact EReal.coe_ne_top r

/-- A real is not the lower infinity. -/
theorem IsRealS.ne_bot {x : EReal} (h : IsRealS x) : x ≠ ⊥ := by
  obtain ⟨r, rfl⟩ := h; exact EReal.coe_ne_bot r

/-- An extended real that is neither infinity is a real. -/
theorem isRealS_of_ne {x : EReal} (ht : x ≠ ⊤) (hb : x ≠ ⊥) : IsRealS x := by
  induction x using EReal.rec with
  | bot => exact absurd rfl hb
  | top => exact absurd rfl ht
  | coe r => exact ⟨r, rfl⟩

/-- The sum of two reals is a real. -/
theorem IsRealS.add {x y : EReal} (hx : IsRealS x) (hy : IsRealS y) : IsRealS (x + y) := by
  obtain ⟨a, rfl⟩ := hx; obtain ⟨b, rfl⟩ := hy
  exact ⟨a + b, (EReal.coe_add a b).symm⟩

/-- The product of two reals is a real. -/
theorem IsRealS.mul {x y : EReal} (hx : IsRealS x) (hy : IsRealS y) : IsRealS (x * y) := by
  obtain ⟨a, rfl⟩ := hx; obtain ⟨b, rfl⟩ := hy
  exact ⟨a * b, (EReal.coe_mul a b).symm⟩

/-- The negation of a real is a real. -/
theorem IsRealS.neg {x : EReal} (hx : IsRealS x) : IsRealS (-x) := by
  obtain ⟨a, rfl⟩ := hx
  exact ⟨-a, (EReal.coe_neg a).symm⟩

/-- The difference of two reals (the extended reals' subtraction, which the ideal values' subtraction is)
    is a real. -/
theorem IsRealS.sub {x y : EReal} (hx : IsRealS x) (hy : IsRealS y) : IsRealS (x - y) := by
  obtain ⟨a, rfl⟩ := hx; obtain ⟨b, rfl⟩ := hy
  exact ⟨a - b, (EReal.coe_sub a b).symm⟩

/-- The maximum of two reals is a real. -/
theorem IsRealS.max {x y : EReal} (hx : IsRealS x) (hy : IsRealS y) : IsRealS (max x y) := by
  rcases max_choice x y with h | h <;> rw [h] <;> assumption

/-- The minimum of two reals is a real. -/
theorem IsRealS.min {x y : EReal} (hx : IsRealS x) (hy : IsRealS y) : IsRealS (min x y) := by
  rcases min_choice x y with h | h <;> rw [h] <;> assumption

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_fintype_sum {ι : Type*} [Fintype ι] (f : ι → ℝ) :
    ((∑ i, f i : ℝ) : EReal) = ∑ i, (f i : EReal) := coe_finset_sum Finset.univ f

/-- A finite sum of reals is a real. -/
theorem isRealS_sum {ι : Type*} (s : Finset ι) (f : ι → EReal) (h : ∀ i ∈ s, IsRealS (f i)) :
    IsRealS (∑ i ∈ s, f i) := by
  classical
  induction s using Finset.induction_on with
  | empty => simpa using isRealS_zero
  | insert a s ha ih =>
    rw [Finset.sum_insert ha]
    exact (h a (Finset.mem_insert_self a s)).add (ih fun i hi => h i (Finset.mem_insert_of_mem hi))

/-- A sum over a finite set of entries of a real family is a real. -/
theorem IsReal.sum {ι : Type*} {f : ι → EReal} (h : IsReal f) (s : Finset ι) : IsRealS (∑ i ∈ s, f i) :=
  isRealS_sum s f fun i _ => h i

/-- A sum over a whole finite type of entries of a real family is a real. -/
theorem IsReal.sum_univ {ι : Type*} [Fintype ι] {f : ι → EReal} (h : IsReal f) : IsRealS (∑ i, f i) :=
  h.sum Finset.univ

/-- A finite sum of extended reals that are not negative is not negative. -/
theorem sum_nonneg {ι : Type*} (s : Finset ι) (f : ι → EReal) (h : ∀ i ∈ s, 0 ≤ f i) : 0 ≤ ∑ i ∈ s, f i :=
  Finset.sum_nonneg h

/-- The ideal quotient of two reals, the divisor not zero, is the real quotient. -/
theorem div_coe_coe (a : ℝ) {n : ℝ} (hn : n ≠ 0) : Ideal.div (a : EReal) (n : EReal) = ((a / n : ℝ) : EReal) := by
  rw [Ideal.div_coe hn, ← EReal.coe_mul, mul_one_div]

/-- The ideal quotient of a real by a nonzero real number is a real. -/
theorem IsRealS.div_coe {x : EReal} (hx : IsRealS x) {n : ℝ} (hn : n ≠ 0) : IsRealS (Ideal.div x (n : EReal)) := by
  obtain ⟨a, rfl⟩ := hx
  exact ⟨a / n, div_coe_coe a hn⟩

/-- The ideal quotient of a real by a real that is not zero is a real. -/
theorem IsRealS.div {x y : EReal} (hx : IsRealS x) (hy : IsRealS y) (hy0 : y ≠ 0) : IsRealS (Ideal.div x y) := by
  obtain ⟨n, rfl⟩ := hy
  exact hx.div_coe (by rintro rfl; exact hy0 rfl)

/-- The ideal quotient of a real that is not negative by a positive real is not negative. -/
theorem div_coe_nonneg {a n : ℝ} (ha : 0 ≤ a) (hn : 0 < n) : (0 : EReal) ≤ Ideal.div (a : EReal) (n : EReal) := by
  rw [div_coe_coe a hn.ne']
  exact EReal.coe_nonneg.mpr (div_nonneg ha hn.le)

/-- The ideal reciprocal square root of a positive real is the real reciprocal of its square root. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The ideal reciprocal square root of a positive real is a real. -/
theorem IsRealS.rsqrt {x : EReal} (hx : IsRealS x) (hpos : 0 < x) : IsRealS (Ideal.rsqrt x) := by
  obtain ⟨r, rfl⟩ := hx
  exact ⟨_, rsqrt_coe_pos (EReal.coe_pos.mp hpos)⟩

/-- The host's reciprocal square root at the ideal values is the same function. -/
theorem IsRealS.hostRsqrt {φ : FTy} {x : Ideal φ} (hx : IsRealS x) (hpos : (0 : EReal) < x) :
    IsRealS (FloatOps.hostUnary (F := Ideal) .rsqrt x) := by
  rw [Ideal.hostUnary_rsqrt_def]; exact hx.rsqrt hpos

/-- The ideal reciprocal square root of a positive real is positive. -/
theorem rsqrt_pos {x : EReal} (hx : IsRealS x) (hpos : 0 < x) : 0 < Ideal.rsqrt x := by
  obtain ⟨r, rfl⟩ := hx
  have hr : 0 < r := EReal.coe_pos.mp hpos
  rw [rsqrt_coe_pos hr]
  exact EReal.coe_pos.mpr (inv_pos.mpr (Real.sqrt_pos.mpr hr))

/-- An extended real that is not negative plus a positive one is positive. -/
theorem add_pos_of_nonneg_of_pos {v e : EReal} (hv : 0 ≤ v) (he : 0 < e) : 0 < v + e := by
  calc (0 : EReal) < e := he
    _ = 0 + e := (zero_add e).symm
    _ ≤ v + e := add_le_add hv le_rfl

/-- An extended real that is not negative, plus one, is at least one. -/
theorem one_le_add_one_of_nonneg {c : EReal} (hc : 0 ≤ c) : 1 ≤ c + 1 := by
  calc (1 : EReal) = 0 + 1 := (zero_add 1).symm
    _ ≤ c + 1 := add_le_add hc le_rfl

/-- An extended real that is at least one is positive. -/
theorem pos_of_one_le {x : EReal} (h : 1 ≤ x) : 0 < x := lt_of_lt_of_le zero_lt_one h

/-! ## The variance identity -/

/-- THE VARIANCE IDENTITY over the reals: for a finite family of N reals, N not zero, the mean of the
    squared deviations from the mean is the mean of the squares minus the square of the mean. -/
theorem variance_real {ι : Type*} [Fintype ι] (f : ι → ℝ) (N : ℝ) (hN : N = Fintype.card ι) (hN0 : N ≠ 0) :
    (∑ i, (f i - (∑ j, f j) / N) * (f i - (∑ j, f j) / N)) / N
      = (∑ i, f i * f i) / N - ((∑ j, f j) / N) * ((∑ j, f j) / N) := by
  have h1 : ∑ i, (f i - (∑ j, f j) / N) * (f i - (∑ j, f j) / N)
      = (∑ i, f i * f i) - 2 * ((∑ j, f j) / N) * (∑ j, f j) + N * (((∑ j, f j) / N) * ((∑ j, f j) / N)) := by
    have h2 : ∀ i, (f i - (∑ j, f j) / N) * (f i - (∑ j, f j) / N)
        = f i * f i - 2 * ((∑ j, f j) / N) * f i + ((∑ j, f j) / N) * ((∑ j, f j) / N) := fun i => by ring
    simp only [h2]
    rw [Finset.sum_add_distrib, Finset.sum_sub_distrib, ← Finset.mul_sum, Finset.sum_const, Finset.card_univ,
      nsmul_eq_mul, ← hN]
  rw [h1]
  field_simp
  ring

/-- The mean of the squared deviations is not negative. -/
theorem variance_real_nonneg {ι : Type*} [Fintype ι] (f : ι → ℝ) (N : ℝ) (hN0 : 0 < N) :
    0 ≤ (∑ i, (f i - (∑ j, f j) / N) * (f i - (∑ j, f j) / N)) / N :=
  div_nonneg (Finset.sum_nonneg fun i _ => mul_self_nonneg _) hN0.le

/-- The variance of a family of reals, in the deviation form. -/
def varR {ι : Type*} [Fintype ι] (f : ι → ℝ) (N : ℝ) : ℝ :=
  (∑ i, (f i - (∑ j, f j) / N) * (f i - (∑ j, f j) / N)) / N

/-- It is not negative. -/
theorem varR_nonneg {ι : Type*} [Fintype ι] (f : ι → ℝ) {N : ℝ} (hN0 : 0 < N) : 0 ≤ varR f N :=
  variance_real_nonneg f N hN0

/-- The deviation form of the variance over real-valued extended reals, each quotient the ideal division
    and each difference the extended reals' subtraction, is the coercion of the real variance. -/
theorem variance_dev_coe {ι : Type*} [Fintype ι] (r : ι → ℝ) {N : ℝ} (hN0 : N ≠ 0) :
    Ideal.div (∑ i, ((r i : EReal) - Ideal.div (∑ j, (r j : EReal)) (N : EReal))
        * ((r i : EReal) - Ideal.div (∑ j, (r j : EReal)) (N : EReal))) (N : EReal)
      = ((varR r N : ℝ) : EReal) := by
  rw [← coe_fintype_sum, div_coe_coe _ hN0]
  simp only [← EReal.coe_sub, ← EReal.coe_mul]
  rw [← coe_fintype_sum, div_coe_coe _ hN0]
  rfl

/-- The moment form of the variance over real-valued extended reals is the coercion of the real variance,
    when the divisor is the number of entries. -/
theorem variance_mom_coe {ι : Type*} [Fintype ι] (r : ι → ℝ) {N : ℝ} (hN : N = Fintype.card ι) (hN0 : N ≠ 0) :
    Ideal.div (∑ i, (r i : EReal) * (r i : EReal)) (N : EReal)
        - Ideal.div (∑ j, (r j : EReal)) (N : EReal) * Ideal.div (∑ j, (r j : EReal)) (N : EReal)
      = ((varR r N : ℝ) : EReal) := by
  simp only [← EReal.coe_mul]
  rw [← coe_fintype_sum, ← coe_fintype_sum, div_coe_coe _ hN0, div_coe_coe _ hN0, ← EReal.coe_mul, ← EReal.coe_sub,
    varR, variance_real r N hN hN0]

/-- THE VARIANCE IDENTITY over real-valued extended reals: the deviation form (the mean of the squared
    differences from the mean) is the moment form (the mean of the squares minus the squared mean); every
    quotient is the ideal division by the real N, the number of entries. -/
theorem variance_ereal {ι : Type*} [Fintype ι] (x : ι → EReal) (hx : IsReal x) {N : ℝ} (hN : N = Fintype.card ι)
    (hN0 : N ≠ 0) :
    Ideal.div (∑ i, (x i - Ideal.div (∑ j, x j) (N : EReal)) * (x i - Ideal.div (∑ j, x j) (N : EReal))) (N : EReal)
      = Ideal.div (∑ i, x i * x i) (N : EReal) - Ideal.div (∑ j, x j) (N : EReal) * Ideal.div (∑ j, x j) (N : EReal) := by
  obtain ⟨r, rfl⟩ := hx.exists_eq
  rw [variance_dev_coe r hN0, variance_mom_coe r hN hN0]

/-- The same with every sum carrying the leading zero summand of a host reduction. -/
theorem variance_ereal_zero_add {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (0 + ∑ i, x i * x i) (N : EReal)
          - Ideal.div (0 + ∑ j, x j) (N : EReal) * Ideal.div (0 + ∑ j, x j) (N : EReal) := by
  simp only [zero_add]
  exact variance_ereal x hx hN hN0

/-- The deviation form with the host's leading zeros is the moment form without them. -/
theorem variance_ereal_zero_add_left {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (∑ i, x i * x i) (N : EReal) - Ideal.div (∑ j, x j) (N : EReal) * Ideal.div (∑ j, x j) (N : EReal) := by
  simp only [zero_add]
  exact variance_ereal x hx hN hN0

/-- The deviation form of the variance of a real family is a real that is not negative (N positive). -/
theorem variance_dev_real_nonneg {ι : Type*} [Fintype ι] (x : ι → EReal) (hx : IsReal x) {N : ℝ} (hN0 : 0 < N) :
    ∃ v : ℝ, 0 ≤ v ∧
      Ideal.div (∑ i, (x i - Ideal.div (∑ j, x j) (N : EReal)) * (x i - Ideal.div (∑ j, x j) (N : EReal))) (N : EReal)
        = (v : EReal) := by
  obtain ⟨r, rfl⟩ := hx.exists_eq
  exact ⟨varR r N, varR_nonneg r hN0, variance_dev_coe r hN0.ne'⟩

/-- The moment form likewise, when N is the number of entries. -/
theorem variance_mom_real_nonneg {ι : Type*} [Fintype ι] (x : ι → EReal) (hx : IsReal x) {N : ℝ}
    (hN : N = Fintype.card ι) (hN0 : 0 < N) :
    ∃ v : ℝ, 0 ≤ v ∧
      Ideal.div (∑ i, x i * x i) (N : EReal) - Ideal.div (∑ j, x j) (N : EReal) * Ideal.div (∑ j, x j) (N : EReal)
        = (v : EReal) := by
  obtain ⟨r, rfl⟩ := hx.exists_eq
  exact ⟨varR r N, varR_nonneg r hN0, variance_mom_coe r hN hN0.ne'⟩

/-- A real that is not negative, as the two facts a later step uses. -/
theorem isRealS_and_nonneg_of_exists {y : EReal} (h : ∃ v : ℝ, 0 ≤ v ∧ y = (v : EReal)) : IsRealS y ∧ 0 ≤ y := by
  obtain ⟨v, hv, rfl⟩ := h
  exact ⟨⟨v, rfl⟩, EReal.coe_nonneg.mpr hv⟩

end Cert.Reals

end
-- ==== Proof.LibFiniteWord.lean ====
/-
  Float words that denote real numbers.  At the ideal values a float word is read as the extended real its
  IEEE pattern denotes.  Only an all-ones exponent field denotes an infinity (or a not-a-number pattern); every
  other word — a zero, a subnormal, a normal — denotes a real number, a dyadic rational, and when its sign bit is
  clear that real is not negative.  So a literal of a program is a real as soon as its exponent field is seen not
  to be all ones, which is decided on the literal word without computing the value.
-/
import Idealize.ShloMosaic.PureOps.Ideal

noncomputable section

namespace Idealize.ShloMosaic.FiniteWord

open Idealize.ShloMosaic

/-- A word with `e` exponent and `m` significand bits whose exponent field is not all ones and whose sign bit is
    clear denotes a real number that is not negative. -/
theorem ieee_nonneg_real (e m : Nat) {w : Nat} (b : BitVec w)
    (hex : (b.extractLsb' m e).toNat ≠ 2 ^ e - 1) (hs : (b.extractLsb' (e + m) 1 == 1#1) = false) :
    ∃ r : ℝ, 0 ≤ r ∧ Ideal.ieee e m b = (r : EReal) := by
  unfold Ideal.ieee
  simp only [hs, if_neg hex, Bool.false_eq_true, if_false]
  split
  · exact ⟨_, by positivity, rfl⟩
  · exact ⟨_, by positivity, rfl⟩

/-- A word whose exponent field is not all ones denotes a real number, whatever its sign. -/
theorem ieee_real (e m : Nat) {w : Nat} (b : BitVec w) (hex : (b.extractLsb' m e).toNat ≠ 2 ^ e - 1) :
    ∃ r : ℝ, Ideal.ieee e m b = (r : EReal) := by
  unfold Ideal.ieee
  simp only [if_neg hex]
  split
  · exact ⟨_, rfl⟩
  · exact ⟨_, rfl⟩

/-- The single-precision case: exponent field bits 23–30 not all ones, sign bit 31 clear. -/
theorem f32_nonneg_real (b : BitVec 32) (hex : (b.extractLsb' 23 8).toNat ≠ 2 ^ 8 - 1)
    (hs : (b.extractLsb' (8 + 23) 1 == 1#1) = false) : ∃ r : ℝ, 0 ≤ r ∧ Ideal.ofBits .f32 b = (r : EReal) :=
  ieee_nonneg_real 8 23 b hex hs

/-- The single-precision case, any sign. -/
theorem f32_real (b : BitVec 32) (hex : (b.extractLsb' 23 8).toNat ≠ 2 ^ 8 - 1) :
    ∃ r : ℝ, Ideal.ofBits .f32 b = (r : EReal) :=
  ieee_real 8 23 b hex

end Idealize.ShloMosaic.FiniteWord

end
-- ==== Proof.Finite.lean ====
/-
  Under the precondition every argument array holds real numbers, and so do the linear layers built from them.

  The precondition is the conjunction, over the ten argument arrays, of "every entry's absolute value is below the
  word for +∞". That word denotes the upper infinity of the extended reals; an extended real x with max x (−x) < ⊤ is
  neither infinity, so it is the image of a real number. The scaling word for 1/√512 has an exponent field that is not
  all ones, so it denotes a real; a linear layer's entry is a finite sum of products of reals plus a real, hence a real.
-/
import proofs.«143225_j81793357185069_2_alg».proof.Pre_finite_inputs
import proofs.«143225_j81793357185069_2_alg».proof.Proof.Spec
import proofs.«143225_j81793357185069_2_alg».proof.Proof.LibReals
import proofs.«143225_j81793357185069_2_alg».proof.Proof.LibFiniteWord
import Idealize.ShloMosaic.Lib.ReduceAll
import Idealize.ShloMosaic.Lib.ValueIdx
import Idealize.ShloMosaic.PureOps.Ideal.Laws

noncomputable section

namespace Cert.GroupAttn.Finite

open Idealize.ShloMosaic Idealize.ShloMosaic.ValueIdx
open scoped BigOperators

/-- The single-precision word 0x7F800000 denotes the upper infinity. -/
theorem inf_word : Ideal.ofBits .f32 0x7F800000#32 = (⊤ : EReal) := by
  simp [Ideal.ofBits, Ideal.ieee]

/-- An extended real whose absolute value max x (−x) is below the upper infinity is a real number. -/
theorem isRealS_of_abs_lt_top (x : EReal) (h : max x (-x) < ⊤) : Cert.Reals.IsRealS x := by
  induction x using EReal.rec with
  | bot => simp at h
  | top => simp at h
  | coe r => exact ⟨r, rfl⟩

/-- The comparison word of "x below y" is 1 exactly when x < y. -/
theorem cmp_olt_eq_one (x y : EReal) (h : Ideal.cmp .olt x y = 1#1) : x < y := by
  unfold Ideal.cmp at h
  by_contra hn
  simp [hn] at h

/-- The shape with no axes has one index. -/
instance subsingleton_idx0 : Subsingleton (⟨0, ![]⟩ : Shape).Idx := ⟨fun a b => funext fun d => d.elim0⟩

/-- "All entries have absolute value below +∞", read back: when the conjunction over every axis of the comparison words
    of |x| against an array that holds the word for +∞ everywhere is 1, every entry of x is a real number. -/
theorem isReal_of_all {s u : Shape} {axes : List (Fin s.rank)} (x y : FVec Ideal s .f32)
    (hy : ∀ i, y i = Ideal.ofBits .f32 0x7F800000#32) (init : IVec u 1)
    (hr : s.ReducesTo axes (⟨0, ![]⟩ : Shape)) (hu : 0 < u.numel) (j : (⟨0, ![]⟩ : Shape).Idx)
    (e : Host.reduce IntOp.andi (cmpf .olt (Host.absf x) y) init hr hu j = 1#1) : Cert.Reals.IsReal x := by
  intro i
  have h1 := Host.reduce_andi_all (cmpf .olt (Host.absf x) y) init hr hu j e i
  have h2 : max (x i) (-(x i)) < y i := cmp_olt_eq_one _ _ h1
  rw [hy i, inf_word] at h2
  exact isRealS_of_abs_lt_top (x i) h2

/-- The array that broadcasts the word for +∞ holds that word at every index. -/
theorem bcast_inf {t : Shape} (h : (⟨0, ![]⟩ : Shape).BroadcastsInDim t (![] : Fin 0 → Fin t.rank)) (i : t.Idx) :
    broadcastInDim t ![] h (constant (F := Ideal) (⟨0, ![]⟩ : Shape) .f32 0x7F800000#32) i
      = Ideal.ofBits .f32 0x7F800000#32 := rfl

/-- THE PRECONDITION DECODED: when the conjunction of the ten "all entries finite" words is 1, the six arrays that feed
    the query and key layers (the two activation arrays, two square weights and their two biases) hold real numbers;
    so do the remaining four. -/
theorem real_of_pre_all [Cert.Pre_finite_inputs.Facts]
    (a0 a1 : FVec Ideal Cert.Pre_finite_inputs.S16x1024x512 .f32) (a2 : FVec Ideal Cert.Pre_finite_inputs.S512x512 .f32)
    (a3 : FVec Ideal Cert.Pre_finite_inputs.S512 .f32) (a4 : FVec Ideal Cert.Pre_finite_inputs.S512x512 .f32)
    (a5 : FVec Ideal Cert.Pre_finite_inputs.S512 .f32) (a6 : FVec Ideal Cert.Pre_finite_inputs.S512x512 .f32)
    (a7 : FVec Ideal Cert.Pre_finite_inputs.S512 .f32) (a8 : FVec Ideal Cert.Pre_finite_inputs.S2048x512 .f32)
    (a9 : FVec Ideal Cert.Pre_finite_inputs.S2048 .f32)
    (h : Cert.Pre_finite_inputs.fn (F := Ideal) a0 a1 a2 a3 a4 a5 a6 a7 a8 a9 = fun _ => 1#1) :
    Cert.Reals.IsReal a0 ∧ Cert.Reals.IsReal a1 ∧ Cert.Reals.IsReal a2 ∧ Cert.Reals.IsReal a3 ∧ Cert.Reals.IsReal a4
      ∧ Cert.Reals.IsReal a5 ∧ Cert.Reals.IsReal a6 ∧ Cert.Reals.IsReal a7 ∧ Cert.Reals.IsReal a8
      ∧ Cert.Reals.IsReal a9 := by
  have e := congrFun h ix0
  unfold Cert.Pre_finite_inputs.fn Cert.Pre_finite_inputs.fn_part1 Cert.Pre_finite_inputs.fn_part2 at e
  dsimp only at e
  simp only [andi, IntOp.andi_eq_one] at e
  obtain ⟨⟨⟨⟨⟨⟨⟨⟨⟨h0, h1⟩, h2⟩, h3⟩, h4⟩, h5⟩, h6⟩, h7⟩, h8⟩, h9⟩ := e
  exact ⟨isReal_of_all a0 _ (bcast_inf _) _ _ _ _ h0, isReal_of_all a1 _ (bcast_inf _) _ _ _ _ h1,
    isReal_of_all a2 _ (bcast_inf _) _ _ _ _ h2, isReal_of_all a3 _ (bcast_inf _) _ _ _ _ h3,
    isReal_of_all a4 _ (bcast_inf _) _ _ _ _ h4, isReal_of_all a5 _ (bcast_inf _) _ _ _ _ h5,
    isReal_of_all a6 _ (bcast_inf _) _ _ _ _ h6, isReal_of_all a7 _ (bcast_inf _) _ _ _ _ h7,
    isReal_of_all a8 _ (bcast_inf _) _ _ _ _ h8, isReal_of_all a9 _ (bcast_inf _) _ _ _ _ h9⟩

/-- The six arrays the query and key layers read hold real numbers under the precondition. -/
theorem real_of_pre [Cert.Pre_finite_inputs.Facts]
    (a0 a1 : FVec Ideal Cert.Pre_finite_inputs.S16x1024x512 .f32) (a2 : FVec Ideal Cert.Pre_finite_inputs.S512x512 .f32)
    (a3 : FVec Ideal Cert.Pre_finite_inputs.S512 .f32) (a4 : FVec Ideal Cert.Pre_finite_inputs.S512x512 .f32)
    (a5 : FVec Ideal Cert.Pre_finite_inputs.S512 .f32) (a6 : FVec Ideal Cert.Pre_finite_inputs.S512x512 .f32)
    (a7 : FVec Ideal Cert.Pre_finite_inputs.S512 .f32) (a8 : FVec Ideal Cert.Pre_finite_inputs.S2048x512 .f32)
    (a9 : FVec Ideal Cert.Pre_finite_inputs.S2048 .f32)
    (h : Cert.Pre_finite_inputs.fn (F := Ideal) a0 a1 a2 a3 a4 a5 a6 a7 a8 a9 = fun _ => 1#1) :
    Cert.Reals.IsReal a0 ∧ Cert.Reals.IsReal a1 ∧ Cert.Reals.IsReal a2 ∧ Cert.Reals.IsReal a3 ∧ Cert.Reals.IsReal a4
      ∧ Cert.Reals.IsReal a5 := by
  obtain ⟨r0, r1, r2, r3, r4, r5, -⟩ := real_of_pre_all a0 a1 a2 a3 a4 a5 a6 a7 a8 a9 h
  exact ⟨r0, r1, r2, r3, r4, r5⟩

/-- The scaling word for 1/√512 denotes a real number: its exponent field is not all ones. -/
theorem sc_real : Cert.Reals.IsRealS Cert.GroupAttn.sc :=
  Idealize.ShloMosaic.FiniteWord.f32_real _ (by decide)

/-- An entry of a linear layer over real activations, weights and biases is a real number: a finite sum of products of
    reals, plus a real. -/
theorem lin_real (x : Cert.GroupAttn.Act) (w : Cert.GroupAttn.Wt) (b : Cert.GroupAttn.Bs) (hx : Cert.Reals.IsReal x)
    (hw : Cert.Reals.IsReal w) (hb : Cert.Reals.IsReal b) (n : Fin 16) (t : Fin 1024) (c : Fin 512) :
    Cert.Reals.IsRealS (Cert.GroupAttn.lin x w b n t c) := by
  unfold Cert.GroupAttn.lin
  exact (Cert.Reals.isRealS_sum Finset.univ _ fun j _ => (hx.apply (ix3 n t j)).mul ((hw.apply (ix2 c j)).mul sc_real)).add
    (hb.apply (ix1 c))

end Cert.GroupAttn.Finite

end
-- ==== Proof.LibBlockSumGen.lean ====
/-
  A sum over n = K · B indices is the sum, over the K consecutive blocks of B indices taken in order from zero,
  of the sums inside each block — in any commutative additive monoid, for any K and B. (A contraction that a
  kernel accumulates block by block over a grid axis equals the whole contraction.)
-/
import Mathlib.Algebra.BigOperators.Fin
import Mathlib.Logic.Equiv.Fin.Basic

open scoped BigOperators

namespace Cert.LibBlockSumGen

/-- Index `l` of block `k` is below `K · B`. -/
theorem block_index_lt {K B : ℕ} (k : Fin K) (l : Fin B) : B * k.val + l.val < K * B := by
  have hk := k.isLt
  have hl := l.isLt
  calc B * k.val + l.val < B * k.val + B := by omega
    _ = B * (k.val + 1) := (Nat.mul_succ _ _).symm
    _ ≤ B * K := Nat.mul_le_mul_left _ hk
    _ = K * B := Nat.mul_comm _ _

/-- A sum over `n = K · B` indices as `K` block sums of `B` terms: block `k` holds the indices `B·k, …, B·k + B − 1`. -/
theorem sum_blocks {M : Type*} [AddCommMonoid M] {n K B : ℕ} (h : n = K * B) (f : Fin n → M) :
    ∑ p : Fin n, f p = ∑ k : Fin K, ∑ l : Fin B, f ⟨B * k.val + l.val, h ▸ block_index_lt k l⟩ := by
  subst h
  rw [← Fintype.sum_prod_type' (fun (k : Fin K) (l : Fin B) => f ⟨B * k.val + l.val, block_index_lt k l⟩)]
  refine Fintype.sum_equiv (finProdFinEquiv (m := K) (n := B)).symm _ _ (fun p => ?_)
  congr 1
  apply Fin.ext
  simp only [finProdFinEquiv, Equiv.coe_fn_symm_mk, Fin.coe_divNat, Fin.coe_modNat]
  exact (Nat.div_add_mod p.val B).symm

end Cert.LibBlockSumGen
-- ==== Proof.RefIsSpec.lean ====
/-
  The reference program computes the specification.

  The reference is a chain of array operations: three linear layers, a split of the 512 channels into four
  groups of 128, scores, a shift by the row maximum, an exponential, a division by the row sum, a weighted sum of the
  value rows, a regrouping of the four groups' channels into 512, and an output projection with a bias. Read at one
  entry, each array of the chain is one of the functions of the specification at that entry; the last one is the result.
-/
import proofs.«143225_j81793357185069_2_alg».proof.Proof.Gen.ReferenceIdeal.Read
import proofs.«143225_j81793357185069_2_alg».proof.Proof.Spec
import proofs.«143225_j81793357185069_2_alg».proof.Proof.LibBlockSumGen
import Idealize.ShloMosaic.Lib.ValueIdx
import Idealize.ShloMosaic.PureOps.Ideal.Laws

noncomputable section

namespace Cert.ReferenceIdeal.RefValue

open Cert.ReferenceIdeal Cert.ReferenceIdeal.Read Cert.GroupAttn Idealize.ShloMosaic Idealize.ShloMosaic.ValueIdx
open scoped BigOperators

/-- An activation array. -/
abbrev TAct := (⟨S16x1024x512, .f32⟩ : BufTy).Contents (Elt Ideal)
/-- A square weight array. -/
abbrev TWt := (⟨S512x512, .f32⟩ : BufTy).Contents (Elt Ideal)
/-- A bias of a linear layer. -/
abbrev TBs := (⟨S512, .f32⟩ : BufTy).Contents (Elt Ideal)

/-! ## The linear layers, and their split into four groups of 128 channels -/

/-- The first linear layer (the queries) at (n, t, c): the row of activations against the row of scaled weights, plus the bias. -/
theorem v5_at (x1 : TAct) (x2 : TWt) (x3 : TBs) (n : Fin 16) (t : Fin 1024) (c : Fin 512) :
    val_main_v5 (F := Ideal) x1 x2 x3 (ix3 n t c) = lin x1 x2 x3 n t c := by
  rw [val_main_v5_apply, val_main_v2_apply, val_main_v4_apply, val_main_v3_apply]
  unfold lin
  rw [Ideal.addf_def]
  congr 1
  · refine Finset.sum_congr rfl fun k _ => ?_
    rw [val_main_v1_apply, val_main_v0_apply, val_main_cst_apply, Ideal.mulf_def, Ideal.ofBits_def]
    have e1 : lidx_main_v2 (ix3 n t c) k = ix3 n t k :=
      funext fun a => Fin.ext (by match a with | ⟨0, _⟩ => rfl | ⟨1, _⟩ => rfl | ⟨2, _⟩ => rfl)
    have e2 : ridx_main_v2 (ix3 n t c) k = ix2 c k :=
      funext fun a => Fin.ext (by match a with | ⟨0, _⟩ => rfl | ⟨1, _⟩ => rfl)
    rw [e1, e2]
  · exact congrArg x3 (funext fun a => Fin.ext (by match a with | ⟨0, _⟩ => rfl))

/-- Entry (n, g, d, t) of the array split into groups and transposed comes from entry (n, t, 128·g + d). -/
theorem split_v7 (n : Fin 16) (g : Fin 4) (d : Fin 128) (t : Fin 1024) :
    idx_main_v6 (idx_main_v7 (ix4 n g d t)) = ix3 n t (ch g d) := by
  have hn := n.isLt; have hg := g.isLt; have hd := d.isLt; have ht := t.isLt
  refine funext fun a => Fin.ext ?_
  match a with
  | ⟨0, _⟩ =>
    show (((n.val * 1024 + t.val) * 4 + g.val) * 128 + d.val) / 524288 = n.val
    omega
  | ⟨1, _⟩ =>
    show (((n.val * 1024 + t.val) * 4 + g.val) * 128 + d.val) / 512 % 1024 = t.val
    omega
  | ⟨2, _⟩ =>
    show (((n.val * 1024 + t.val) * 4 + g.val) * 128 + d.val) % 512 = 128 * g.val + d.val
    omega

/-- The first linear layer (the queries), split into groups and transposed, at (n, g, d, t). -/
theorem v7_at (x1 : TAct) (x2 : TWt) (x3 : TBs) (n : Fin 16) (g : Fin 4) (d : Fin 128) (t : Fin 1024) :
    val_main_v7 (F := Ideal) x1 x2 x3 (ix4 n g d t) = lin x1 x2 x3 n t (ch g d) := by
  rw [val_main_v7_apply, val_main_v6_apply, split_v7, v5_at]

/-- The second linear layer (the keys) at (n, t, c): the row of activations against the row of scaled weights, plus the bias. -/
theorem v13_at (x0 : TAct) (x4 : TWt) (x5 : TBs) (n : Fin 16) (t : Fin 1024) (c : Fin 512) :
    val_main_v13 (F := Ideal) x0 x4 x5 (ix3 n t c) = lin x0 x4 x5 n t c := by
  rw [val_main_v13_apply, val_main_v10_apply, val_main_v12_apply, val_main_v11_apply]
  unfold lin
  rw [Ideal.addf_def]
  congr 1
  · refine Finset.sum_congr rfl fun k _ => ?_
    rw [val_main_v9_apply, val_main_v8_apply, val_main_cst_0_apply, Ideal.mulf_def, Ideal.ofBits_def]
    have e1 : lidx_main_v10 (ix3 n t c) k = ix3 n t k :=
      funext fun a => Fin.ext (by match a with | ⟨0, _⟩ => rfl | ⟨1, _⟩ => rfl | ⟨2, _⟩ => rfl)
    have e2 : ridx_main_v10 (ix3 n t c) k = ix2 c k :=
      funext fun a => Fin.ext (by match a with | ⟨0, _⟩ => rfl | ⟨1, _⟩ => rfl)
    rw [e1, e2]
  · exact congrArg x5 (funext fun a => Fin.ext (by match a with | ⟨0, _⟩ => rfl))

/-- Entry (n, g, d, t) of the array split into groups and transposed comes from entry (n, t, 128·g + d). -/
theorem split_v15 (n : Fin 16) (g : Fin 4) (d : Fin 128) (t : Fin 1024) :
    idx_main_v14 (idx_main_v15 (ix4 n g d t)) = ix3 n t (ch g d) := by
  have hn := n.isLt; have hg := g.isLt; have hd := d.isLt; have ht := t.isLt
  refine funext fun a => Fin.ext ?_
  match a with
  | ⟨0, _⟩ =>
    show (((n.val * 1024 + t.val) * 4 + g.val) * 128 + d.val) / 524288 = n.val
    omega
  | ⟨1, _⟩ =>
    show (((n.val * 1024 + t.val) * 4 + g.val) * 128 + d.val) / 512 % 1024 = t.val
    omega
  | ⟨2, _⟩ =>
    show (((n.val * 1024 + t.val) * 4 + g.val) * 128 + d.val) % 512 = 128 * g.val + d.val
    omega

/-- The second linear layer (the keys), split into groups and transposed, at (n, g, d, t). -/
theorem v15_at (x0 : TAct) (x4 : TWt) (x5 : TBs) (n : Fin 16) (g : Fin 4) (d : Fin 128) (t : Fin 1024) :
    val_main_v15 (F := Ideal) x0 x4 x5 (ix4 n g d t) = lin x0 x4 x5 n t (ch g d) := by
  rw [val_main_v15_apply, val_main_v14_apply, split_v15, v13_at]

/-- The third linear layer (the values) at (n, t, c): the row of activations against the row of scaled weights, plus the bias. -/
theorem v21_at (x0 : TAct) (x6 : TWt) (x7 : TBs) (n : Fin 16) (t : Fin 1024) (c : Fin 512) :
    val_main_v21 (F := Ideal) x0 x6 x7 (ix3 n t c) = lin x0 x6 x7 n t c := by
  rw [val_main_v21_apply, val_main_v18_apply, val_main_v20_apply, val_main_v19_apply]
  unfold lin
  rw [Ideal.addf_def]
  congr 1
  · refine Finset.sum_congr rfl fun k _ => ?_
    rw [val_main_v17_apply, val_main_v16_apply, val_main_cst_1_apply, Ideal.mulf_def, Ideal.ofBits_def]
    have e1 : lidx_main_v18 (ix3 n t c) k = ix3 n t k :=
      funext fun a => Fin.ext (by match a with | ⟨0, _⟩ => rfl | ⟨1, _⟩ => rfl | ⟨2, _⟩ => rfl)
    have e2 : ridx_main_v18 (ix3 n t c) k = ix2 c k :=
      funext fun a => Fin.ext (by match a with | ⟨0, _⟩ => rfl | ⟨1, _⟩ => rfl)
    rw [e1, e2]
  · exact congrArg x7 (funext fun a => Fin.ext (by match a with | ⟨0, _⟩ => rfl))

/-- Entry (n, g, d, t) of the array split into groups and transposed comes from entry (n, t, 128·g + d). -/
theorem split_v23 (n : Fin 16) (g : Fin 4) (d : Fin 128) (t : Fin 1024) :
    idx_main_v22 (idx_main_v23 (ix4 n g d t)) = ix3 n t (ch g d) := by
  have hn := n.isLt; have hg := g.isLt; have hd := d.isLt; have ht := t.isLt
  refine funext fun a => Fin.ext ?_
  match a with
  | ⟨0, _⟩ =>
    show (((n.val * 1024 + t.val) * 4 + g.val) * 128 + d.val) / 524288 = n.val
    omega
  | ⟨1, _⟩ =>
    show (((n.val * 1024 + t.val) * 4 + g.val) * 128 + d.val) / 512 % 1024 = t.val
    omega
  | ⟨2, _⟩ =>
    show (((n.val * 1024 + t.val) * 4 + g.val) * 128 + d.val) % 512 = 128 * g.val + d.val
    omega

/-- The third linear layer (the values), split into groups and transposed, at (n, g, d, t). -/
theorem v23_at (x0 : TAct) (x6 : TWt) (x7 : TBs) (n : Fin 16) (g : Fin 4) (d : Fin 128) (t : Fin 1024) :
    val_main_v23 (F := Ideal) x0 x6 x7 (ix4 n g d t) = lin x0 x6 x7 n t (ch g d) := by
  rw [val_main_v23_apply, val_main_v22_apply, split_v23, v21_at]

/-! ## The scores -/

/-- The scaled scores at (n, g, m, l). -/
theorem v26_at (x0 x1 : TAct) (x2 : TWt) (x3 : TBs) (x4 : TWt) (x5 : TBs) (n : Fin 16) (g : Fin 4) (m l : Fin 1024) :
    val_main_v26 (F := Ideal) x0 x1 x2 x3 x4 x5 (ix4 n g m l) = score (lin x1 x2 x3) (lin x0 x4 x5) n g m l := by
  rw [val_main_v26_apply, val_main_v24_apply, val_main_v25_apply, val_main_cst_2_apply, Ideal.mulf_def, Ideal.ofBits_def]
  unfold score
  congr 1
  refine Finset.sum_congr rfl fun k _ => ?_
  have e1 : lidx_main_v24 (ix4 n g m l) k = ix4 n g k m :=
    funext fun a => Fin.ext (by match a with | ⟨0, _⟩ => rfl | ⟨1, _⟩ => rfl | ⟨2, _⟩ => rfl | ⟨3, _⟩ => rfl)
  have e2 : ridx_main_v24 (ix4 n g m l) k = ix4 n g k l :=
    funext fun a => Fin.ext (by match a with | ⟨0, _⟩ => rfl | ⟨1, _⟩ => rfl | ⟨2, _⟩ => rfl | ⟨3, _⟩ => rfl)
  rw [e1, e2, v7_at, v15_at]

/-! ## The row maximum -/

/-- A rank-3 index with a coordinate put back on the last of four axes is the rank-4 index. -/
theorem lift_last_ix4 {n0 n1 n2 n3 : Nat}
    (h : (⟨4, ![n0, n1, n2, n3]⟩ : Shape).Reduces [3] (⟨3, ![n0, n1, n2]⟩ : Shape)) (a : Fin n0) (b : Fin n1) (c : Fin n2)
    (k : Fin ((⟨4, ![n0, n1, n2, n3]⟩ : Shape).size 3)) :
    h.lift (ix3 a b c) k = ix4 a b c (⟨k.val, k.isLt⟩ : Fin n3) := by
  funext e; apply Fin.ext
  fin_cases e <;> rfl

/-- A reduction with a maximum body over the last of four axes, at (a, b, c), is the fold of the maximum, from the
    initial value, over the entries (a, b, c, k). -/
theorem reduce_max_last {n0 n1 n2 n3 : Nat} (x : FVec Ideal ⟨4, ![n0, n1, n2, n3]⟩ .f32)
    (init : (⟨0, ![]⟩ : Shape).Idx → Ideal .f32)
    (h' : (⟨4, ![n0, n1, n2, n3]⟩ : Shape).ReducesTo [3] (⟨3, ![n0, n1, n2]⟩ : Shape))
    (h : (⟨4, ![n0, n1, n2, n3]⟩ : Shape).Reduces [3] (⟨3, ![n0, n1, n2]⟩ : Shape))
    (hu : 0 < (⟨0, ![]⟩ : Shape).numel) (a : Fin n0) (b : Fin n1) (c : Fin n2) :
    Host.reduce FloatOps.maximumf x init h' hu (ix3 a b c)
      = (Finset.univ : Finset (Fin n3)).fold max (init (Shape.Idx.first hu)) (fun k => x (ix4 a b c k)) := by
  rw [Host.reduce_eq_fold_single FloatOps.maximumf x init h' h hu]
  have hf : (x ∘ h.lift (ix3 a b c)) = fun k : Fin n3 => x (ix4 a b c k) :=
    funext fun k => congrArg x (lift_last_ix4 h a b c k)
  exact congrArg (fun f => Finset.fold max (init (Shape.Idx.first hu)) f (Finset.univ : Finset (Fin n3))) hf

/-- The array the reference reduces over is reduced on its last axis. -/
theorem reduces_scores : S16x4x1024x1024.Reduces [3] S16x4x1024 := by decide

/-- The reduction of the scores at (n, g, m) is the maximum of row m of the scores, from −∞. -/
theorem v27_at (x0 x1 : TAct) (x2 : TWt) (x3 : TBs) (x4 : TWt) (x5 : TBs) (n : Fin 16) (g : Fin 4) (m : Fin 1024) :
    val_main_v27 (F := Ideal) x0 x1 x2 x3 x4 x5 (ix3 n g m) = rowMax (score (lin x1 x2 x3) (lin x0 x4 x5) n g m) := by
  unfold val_main_v27 rowMax
  rw [reduce_max_last _ _ _ reduces_scores]
  have hf : (fun k : Fin 1024 => val_main_v26 (F := Ideal) x0 x1 x2 x3 x4 x5 (ix4 n g m k)) = (score (lin x1 x2 x3) (lin x0 x4 x5) n g m) :=
    funext fun k => v26_at x0 x1 x2 x3 x4 x5 n g m k
  rw [hf]
  rfl

/-- The maximum of −∞ and the row maximum is the row maximum: −∞ is where the fold starts, so it is below it. -/
theorem v29_at (x0 x1 : TAct) (x2 : TWt) (x3 : TBs) (x4 : TWt) (x5 : TBs) (n : Fin 16) (g : Fin 4) (m : Fin 1024) :
    val_main_v29 (F := Ideal) x0 x1 x2 x3 x4 x5 (ix3 n g m) = rowMax (score (lin x1 x2 x3) (lin x0 x4 x5) n g m) := by
  rw [val_main_v29_apply, val_main_v28_apply, val_main_cst_4_apply, Ideal.maximumf_def, Ideal.ofBits_def, v27_at]
  exact max_eq_right ((Finset.le_fold_max lowest).mpr (Or.inl le_rfl))

/-! ## The shifted exponentials, their row sums, and the weights -/

/-- The exponential of the shifted score at (n, g, m, l). -/
theorem v33_at (x0 x1 : TAct) (x2 : TWt) (x3 : TBs) (x4 : TWt) (x5 : TBs) (n : Fin 16) (g : Fin 4) (m l : Fin 1024) :
    val_main_v33 (F := Ideal) x0 x1 x2 x3 x4 x5 (ix4 n g m l) = expShift (score (lin x1 x2 x3) (lin x0 x4 x5) n g m) l := by
  rw [val_main_v33_apply, Ideal.hostUnary_exp_def, val_main_v32_apply, Ideal.subf_def, v26_at, val_main_v31_apply,
    val_main_v30_apply]
  have e : idx_main_v30 (idx_main_v31 (ix4 n g m l)) = ix3 n g m :=
    funext fun a => Fin.ext (by match a with | ⟨0, _⟩ => rfl | ⟨1, _⟩ => rfl | ⟨2, _⟩ => rfl)
  rw [e, v29_at]
  rfl

/-- The sum of row m of the exponentials: the reference's sum starts from the zero word. -/
theorem v34_at (x0 x1 : TAct) (x2 : TWt) (x3 : TBs) (x4 : TWt) (x5 : TBs) (n : Fin 16) (g : Fin 4) (m : Fin 1024) :
    val_main_v34 (F := Ideal) x0 x1 x2 x3 x4 x5 (ix3 n g m) = ∑ j : Fin 1024, expShift (score (lin x1 x2 x3) (lin x0 x4 x5) n g m) j := by
  rw [val_main_v34_apply, val_main_cst_5_apply, Ideal.ofBits_def, Ideal.ofBits_zero_f32, zero_add]
  refine Finset.sum_congr rfl fun k _ => ?_
  have e : idx_main_v34 (ix3 n g m) k = ix4 n g m k :=
    funext fun a => Fin.ext (by match a with | ⟨0, _⟩ => rfl | ⟨1, _⟩ => rfl | ⟨2, _⟩ => rfl | ⟨3, _⟩ => rfl)
  rw [e, v33_at]

/-- The attention weight at (n, g, m, l). -/
theorem v37_at (x0 x1 : TAct) (x2 : TWt) (x3 : TBs) (x4 : TWt) (x5 : TBs) (n : Fin 16) (g : Fin 4) (m l : Fin 1024) :
    val_main_v37 (F := Ideal) x0 x1 x2 x3 x4 x5 (ix4 n g m l) = weight (score (lin x1 x2 x3) (lin x0 x4 x5) n g m) l := by
  rw [val_main_v37_apply, Ideal.hostDivf_def, v33_at, val_main_v36_apply, val_main_v35_apply]
  have e : idx_main_v35 (idx_main_v36 (ix4 n g m l)) = ix3 n g m :=
    funext fun a => Fin.ext (by match a with | ⟨0, _⟩ => rfl | ⟨1, _⟩ => rfl | ⟨2, _⟩ => rfl)
  rw [e, v34_at]
  rfl

/-! ## The attended values -/

/-- The weighted sum of the value rows at (n, g, d, m): the reference multiplies value by weight. -/
theorem v38_at (x0 x1 : TAct) (x2 : TWt) (x3 : TBs) (x4 : TWt) (x5 : TBs) (x6 : TWt) (x7 : TBs) (n : Fin 16) (g : Fin 4) (d : Fin 128) (m : Fin 1024) :
    val_main_v38 (F := Ideal) x0 x1 x2 x3 x4 x5 x6 x7 (ix4 n g d m)
      = attended (lin x1 x2 x3) (lin x0 x4 x5) (lin x0 x6 x7) n g m d := by
  rw [val_main_v38_apply]
  unfold attended
  refine Finset.sum_congr rfl fun k _ => ?_
  have e1 : lidx_main_v38 (ix4 n g d m) k = ix4 n g d k :=
    funext fun a => Fin.ext (by match a with | ⟨0, _⟩ => rfl | ⟨1, _⟩ => rfl | ⟨2, _⟩ => rfl | ⟨3, _⟩ => rfl)
  have e2 : ridx_main_v38 (ix4 n g d m) k = ix4 n g m k :=
    funext fun a => Fin.ext (by match a with | ⟨0, _⟩ => rfl | ⟨1, _⟩ => rfl | ⟨2, _⟩ => rfl | ⟨3, _⟩ => rfl)
  rw [e1, e2, v23_at, v37_at]
  exact mul_comm _ _

/-- Entry (n, m, 128·g + d) of the regrouped and transposed array comes from entry (n, g, d, m). -/
theorem merge_v40 (n : Fin 16) (m : Fin 1024) (g : Fin 4) (d : Fin 128) :
    idx_main_v39 (idx_main_v40 (ix3 n m (ch g d))) = ix4 n g d m := by
  have hn := n.isLt; have hg := g.isLt; have hd := d.isLt; have hm := m.isLt
  refine funext fun a => Fin.ext ?_
  match a with
  | ⟨0, _⟩ =>
    show ((n.val * 512 + (128 * g.val + d.val)) * 1024 + m.val) / 524288 = n.val
    omega
  | ⟨1, _⟩ =>
    show ((n.val * 512 + (128 * g.val + d.val)) * 1024 + m.val) / 131072 % 4 = g.val
    omega
  | ⟨2, _⟩ =>
    show ((n.val * 512 + (128 * g.val + d.val)) * 1024 + m.val) / 1024 % 128 = d.val
    omega
  | ⟨3, _⟩ =>
    show ((n.val * 512 + (128 * g.val + d.val)) * 1024 + m.val) % 1024 = m.val
    omega

/-- The attended values with the four groups' channels side by side, at (n, m, 128·g + d). -/
theorem v40_at (x0 x1 : TAct) (x2 : TWt) (x3 : TBs) (x4 : TWt) (x5 : TBs) (x6 : TWt) (x7 : TBs) (n : Fin 16) (m : Fin 1024) (g : Fin 4) (d : Fin 128) :
    val_main_v40 (F := Ideal) x0 x1 x2 x3 x4 x5 x6 x7 (ix3 n m (ch g d))
      = attended (lin x1 x2 x3) (lin x0 x4 x5) (lin x0 x6 x7) n g m d := by
  rw [val_main_v40_apply, val_main_v39_apply, merge_v40, v38_at]

/-! ## The output projection -/

/-- The reference computes the specification's result. -/
theorem ref_is_result (x0 x1 : (⟨S16x1024x512, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S2048x512, .f32⟩ : BufTy).Contents (Elt Ideal)) (x9 : (⟨S2048, .f32⟩ : BufTy).Contents (Elt Ideal)) :
    Cert.ReferenceIdeal.Read.val_main_v46 (F := Ideal) x0 x1 x2 x3 x4 x5 x6 x7 x8 x9 = Cert.GroupAttn.result x0 x1 x2 x3 x4 x5 x6 x7 x8 x9 := by
  funext i
  obtain ⟨n, m, o, rfl⟩ : ∃ n m o, i = ix3 n m o := ⟨i 0, i 1, i 2, eq_ix3 i⟩
  rw [val_main_v46_apply, Ideal.addf_def, val_main_v43_apply, val_main_v45_apply, val_main_v44_apply]
  show _ = (∑ g : Fin 4, groupTerm (lin x1 x2 x3) (lin x0 x4 x5) (lin x0 x6 x7) x8 n g m o) + x9 (ix1 o)
  congr 1
  · rw [Cert.LibBlockSumGen.sum_blocks (K := 4) (B := 128) rfl]
    refine Finset.sum_congr rfl fun g _ => ?_
    unfold groupTerm
    refine Finset.sum_congr rfl fun d _ => ?_
    have ec : (⟨128 * g.val + d.val, (rfl : 512 = 4 * 128) ▸ Cert.LibBlockSumGen.block_index_lt g d⟩ : Fin 512) = ch g d := Fin.ext rfl
    rw [ec, val_main_v42_apply, val_main_v41_apply, val_main_cst_6_apply, Ideal.mulf_def, Ideal.ofBits_def]
    have e1 : lidx_main_v43 (ix3 n m o) (ch g d) = ix3 n m (ch g d) :=
      funext fun a => Fin.ext (by match a with | ⟨0, _⟩ => rfl | ⟨1, _⟩ => rfl | ⟨2, _⟩ => rfl)
    have e2 : ridx_main_v43 (ix3 n m o) (ch g d) = ix2 o (ch g d) :=
      funext fun a => Fin.ext (by match a with | ⟨0, _⟩ => rfl | ⟨1, _⟩ => rfl)
    rw [e1, e2, v40_at]
  · exact congrArg x9 (funext fun a => Fin.ext (by match a with | ⟨0, _⟩ => rfl))

end Cert.ReferenceIdeal.RefValue

end
-- ==== Proof.LibRowDot.lean ====
/-
  A product of rows against rows, read at an index, generic in the three extents.

  For the dimension numbers "rows × contraction times columns × contraction" (`DotDims.transposedRhs M K N`: no batch
  axis, both operands contracted on their last axis), at the ideal values — floats extended reals, every operation
  exact — a matrix product into the zero accumulator, read at the output index (r, c), is the plain sum over k of
  lhs (r, k) · rhs (c, k): row r of the left operand against row c of the right one. The contraction index, a
  one-axis multi-index, is re-indexed by its one coordinate.
-/
import Idealize.ShloMosaic.Lib.ValueIdx
import Idealize.ShloMosaic.PureOps.Ideal.Laws

noncomputable section

namespace Cert.Lib.RowDot

open Idealize.ShloMosaic Idealize.ShloMosaic.ValueIdx

variable {M K N : Nat}

/-- The left operand's index at output index (r, c) and contraction position k is (r, k). -/
theorem lhsIdx_rows (r : Fin M) (c : Fin N) (k : Fin K) :
    (DotDims.transposedRhs M K N).lhsIdx (ix2 r c) ((contrEquiv1 (DotDims.transposedRhs M K N) K rfl rfl).symm k) = ix2 r k := by
  have hk := contrEquiv1_symm_val (DotDims.transposedRhs M K N) K rfl rfl k
  exact funext fun a => Fin.ext (by
    match a with
    | ⟨0, _⟩ => rfl
    | ⟨1, _⟩ => exact ((DotDims.transposedRhs M K N).lhsIdx_val_of_single rfl _ _).trans hk)

/-- The right operand's index at output index (r, c) and contraction position k is (c, k). -/
theorem rhsIdx_rows (r : Fin M) (c : Fin N) (k : Fin K) :
    (DotDims.transposedRhs M K N).rhsIdx (ix2 r c) ((contrEquiv1 (DotDims.transposedRhs M K N) K rfl rfl).symm k) = ix2 c k := by
  have hk := contrEquiv1_symm_val (DotDims.transposedRhs M K N) K rfl rfl k
  exact funext fun a => Fin.ext (by
    match a with
    | ⟨0, _⟩ => rfl
    | ⟨1, _⟩ => exact ((DotDims.transposedRhs M K N).rhsIdx_val_of_single rfl _ _).trans hk)

/-- A rows-against-rows matrix product into the zero accumulator, at the ideal values, read at (r, c):
    the sum over k of lhs (r, k) · rhs (c, k). -/
theorem matmul_rows_zero_apply {φ₁ φ₂ : FTy} (prec : Option ContractPrecision)
    (lhs : FVec Ideal ⟨2, ![M, K]⟩ φ₁) (rhs : FVec Ideal ⟨2, ![N, K]⟩ φ₂) (r : Fin M) (c : Fin N) :
    matmul (DotDims.transposedRhs M K N) prec lhs rhs (constant (F := Ideal) ⟨2, ![M, N]⟩ .f32 0x00000000#32) (ix2 r c)
      = ∑ k : Fin K, lhs (ix2 r k) * rhs (ix2 c k) := by
  show FloatOps.matmul (DotDims.transposedRhs M K N) prec lhs rhs (constant (F := Ideal) ⟨2, ![M, N]⟩ .f32 0x00000000#32) (ix2 r c) = _
  rw [Ideal.matmul_constant_zero_apply, ← Equiv.sum_comp (contrEquiv1 (DotDims.transposedRhs M K N) K rfl rfl).symm]
  refine Finset.sum_congr rfl fun k _ => ?_
  rw [lhsIdx_rows, rhsIdx_rows]

end Cert.Lib.RowDot

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.KernelChunk.lean ====
/-
  One block of 256 query rows of one group, as the kernel computes it, and what it is at an index.

  The kernel splits each 32-bit operand of the score product into the part a 16-bit format keeps and the remainder,
  x = hi + lo with hi = x and lo = x − x at the ideal values, and sums the three products hi·hi + hi·lo + lo·hi. The
  scores are scaled, each row is shifted by its maximum, exponentiated and divided by its sum; the resulting weights
  multiply the value rows, and that product multiplies the projection's columns of the group; the outcome is added
  to the rows the output block already holds.
-/
import proofs.«143225_j81793357185069_2_alg».proof.Proof.Gen.KernelIdeal.Skeleton
import proofs.«143225_j81793357185069_2_alg».proof.Proof.Spec
import proofs.«143225_j81793357185069_2_alg».proof.Proof.LibRowDot
import proofs.«143225_j81793357185069_2_alg».proof.Proof.LibPlainDot
import proofs.«143225_j81793357185069_2_alg».proof.Proof.LibColumns
import proofs.«143225_j81793357185069_2_alg».proof.Proof.LibReals
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Chunk

open Cert.KernelIdeal Cert.KernelIdeal.Gen Idealize.ShloMosaic Idealize.ShloMosaic.ValueIdx Cert.GroupAttn
open scoped BigOperators

variable {F : FTy → Type} [FloatOps F]

/-- The part of a 32-bit array that the 16-bit format keeps. -/
def hiPart {s : Shape} (x : FVec F s .f32) : FVec F s .bf16 := truncf .bf16 x bitsLt_bf16_f32

/-- What is left of it: the array minus its kept part read back at 32 bits, itself kept at 16 bits. -/
def loPart {s : Shape} (x : FVec F s .f32) : FVec F s .bf16 := truncf .bf16 (subf x x) bitsLt_bf16_f32

/-- The three products of the split operands, rows of q against rows of k: hi·hi + hi·lo + lo·hi. -/
def scoresOf (qh ql : FVec F S256x128 .bf16) (kh kl : FVec F S1024x128 .bf16) : FVec F S256x1024 .f32 :=
  addf (addf (matmul dot_S256x128_S1024x128_S256x1024_1_1_0_0_n_n none qh kh (constant S256x1024 .f32 0x00000000#32))
      (matmul dot_S256x128_S1024x128_S256x1024_1_1_0_0_n_n none qh kl (constant S256x1024 .f32 0x00000000#32)))
    (matmul dot_S256x128_S1024x128_S256x1024_1_1_0_0_n_n none ql kh (constant S256x1024 .f32 0x00000000#32))

/-- A block of scores shifted row by row by the row's maximum (taken from the word for −∞) and exponentiated. -/
def shiftExp (s : FVec F S256x1024 .f32) : FVec F S256x1024 .f32 :=
  exp (subf s (broadcastTo S256x1024 (shapeCast S256x1 (multiReduction .maximumf [1] S256 s 0xFF800000#32 reduces_S256x1024_S256 (.inl rfl) rfl) shapeCasts_S256_S256x1) broadcasts_S256x1_S256x1024))

/-- A block divided row by row by the row's sum. -/
def normalize (e : FVec F S256x1024 .f32) : FVec F S256x1024 .f32 :=
  divf e (broadcastTo S256x1024 (shapeCast S256x1 (multiReduction .add [1] S256 e 0x00000000#32 reduces_S256x1024_S256 (.inl rfl) rfl) shapeCasts_S256_S256x1) broadcasts_S256x1_S256x1024)

/-- From the raw scores of 256 query rows to the rows the output block holds afterwards: scale, turn each row into
    weights, multiply the value rows, multiply the projection's columns of the group, add to the rows held before. -/
def tailOf (sraw scv : FVec F S256x1024 .f32) (vb : FVec F S1024x128 .bf16) (pwb : FVec F S2048x128 .bf16)
    (old : Vec F S1x256x2048 .f32) : FVec F S1x256x2048 .f32 :=
  shapeCast S1x256x2048 (addf (shapeCast S256x2048 old shapeCasts_S1x256x2048_S256x2048)
    (matmul dot_S256x128_S2048x128_S256x2048_1_1_0_0_n_n none
      (truncf .bf16 (matmul dot_S256x1024_S1024x128_S256x128_1_0_0_1_n_n none
        (truncf .bf16 (normalize (shiftExp (mulf sraw scv))) bitsLt_bf16_f32) vb (constant S256x128 .f32 0x00000000#32)) bitsLt_bf16_f32)
      pwb (constant S256x2048 .f32 0x00000000#32))) shapeCasts_S256x2048_S1x256x2048

/-- The scale as the kernel splats it over a block of scores. -/
def scaleVec : FVec F S256x1024 .f32 := broadcast S256x1024 (Scalar.ofBits .f32 0x3D3504F3#32)

/-! ## The four stores' values are this one function -/

theorem pay14_eq (v10 : FVec F S1024x512 .bf16) (v19 : FVec F S128x512 .f32) (v25 : FVec F S128 .f32) (v28 : FVec F S128 .f32)
    (v31 : FVec F S2048x128 .f32) (v36 : FVec F S1024x128 .f32) (v38 : FVec F S1024x128 .f32) (v78 : Vec F S1x256x2048 .f32) :
    k0_pay14 v10 v19 v25 v28 v31 v36 v38 v78
      = tailOf (scoresOf (hiPart (extractStridedSlice S256x128 ![0, 0] v36 slices_S1024x128_o0_0_S256x128))
          (loPart (extractStridedSlice S256x128 ![0, 0] v36 slices_S1024x128_o0_0_S256x128))
          (hiPart (k0_pay11 v25 v38)) (loPart (k0_pay11 v25 v38))) scaleVec (k0_pay12 v10 v19 v28) (k0_pay13 v31) v78 := rfl

theorem pay15_eq (v36 v41 : FVec F S1024x128 .f32) (v47 : FVec F S1024x128 .bf16) (v48 : FVec F S2048x128 .bf16) (v113 : Vec F S1x256x2048 .f32) :
    k0_pay15 v36 v41 v47 v48 v113
      = tailOf (scoresOf (hiPart (extractStridedSlice S256x128 ![256, 0] v36 slices_S1024x128_o256_0_S256x128))
          (loPart (extractStridedSlice S256x128 ![256, 0] v36 slices_S1024x128_o256_0_S256x128))
          (hiPart v41) (loPart v41)) scaleVec v47 v48 v113 := rfl

theorem pay21_eq (v47 : FVec F S1024x128 .bf16) (v48 : FVec F S2048x128 .bf16) (v120 v123 : FVec F S256x128 .bf16) (v124 v127 : FVec F S1024x128 .bf16) (v148 : Vec F S1x256x2048 .f32) :
    k0_pay21 v47 v48 v120 v123 v124 v127 v148 = tailOf (scoresOf v120 v123 v124 v127) scaleVec v47 v48 v148 := rfl

theorem pay17_eq (v36 : FVec F S1024x128 .f32) : k0_pay17 v36 = hiPart (extractStridedSlice S256x128 ![512, 0] v36 slices_S1024x128_o512_0_S256x128) := rfl
theorem pay18_eq (v36 : FVec F S1024x128 .f32) : k0_pay18 v36 = loPart (extractStridedSlice S256x128 ![512, 0] v36 slices_S1024x128_o512_0_S256x128) := rfl
theorem pay19_eq (v41 : FVec F S1024x128 .f32) : k0_pay19 v41 = hiPart v41 := rfl
theorem pay20_eq (v41 : FVec F S1024x128 .f32) : k0_pay20 v41 = loPart v41 := rfl

theorem pay1_eq (v47 : FVec F S1024x128 .bf16) (v48 : FVec F S2048x128 .bf16) (v167 v168 : FVec F S256x1024 .f32) (v183 : Vec F S1x256x2048 .f32) :
    k0_pay1 v47 v48 v167 v168 v183 = tailOf v167 v168 v47 v48 v183 := rfl

theorem pay22_eq (v36 v41 : FVec F S1024x128 .f32) :
    k0_pay22 v36 v41 = scoresOf (hiPart (extractStridedSlice S256x128 ![768, 0] v36 slices_S1024x128_o768_0_S256x128))
      (loPart (extractStridedSlice S256x128 ![768, 0] v36 slices_S1024x128_o768_0_S256x128)) (hiPart v41) (loPart v41) := rfl

theorem pay23_eq : (k0_pay23 : FVec F S256x1024 .f32) = scaleVec := rfl

/-! ## Read at an index, at the ideal values -/

theorem dotQ_eq : dot_S1024x512_S128x512_S1024x128_1_1_0_0_n_n = DotDims.transposedRhs 1024 512 128 := rfl
theorem dotS_eq : dot_S256x128_S1024x128_S256x1024_1_1_0_0_n_n = DotDims.transposedRhs 256 128 1024 := rfl
theorem dotV_eq : dot_S256x1024_S1024x128_S256x128_1_0_0_1_n_n = DotDims.plain 256 1024 128 := rfl
theorem dotP_eq : dot_S256x128_S2048x128_S256x2048_1_1_0_0_n_n = DotDims.transposedRhs 256 128 2048 := rfl

theorem hiPart_apply {s : Shape} (x : FVec Ideal s .f32) (i : s.Idx) : hiPart x i = x i := rfl
theorem loPart_apply {s : Shape} (x : FVec Ideal s .f32) (i : s.Idx) : loPart x i = x i - x i := rfl

/-- A slice of 256 rows of a [1024, 128] array starting at row `off 0`, all 128 columns, reads the array at the row
    shifted by the offset. -/
theorem rows_apply (q : FVec Ideal S1024x128 .f32) (off : Fin 2 → Nat) (hs : S1024x128.Slices off S256x128) (h1 : off 1 = 0)
    (r : Fin 256) (d : Fin 128) (p : Fin 1024) (hp : p.val = off 0 + r.val) :
    extractStridedSlice S256x128 off q hs (ix2 r d) = q (ix2 p d) := by
  unfold extractStridedSlice
  refine congrArg q (funext fun a => Fin.ext ?_)
  match a with
  | ⟨0, _⟩ => show off 0 + r.val = p.val; omega
  | ⟨1, _⟩ => show off 1 + d.val = d.val; omega

/-- The three products at (r, l). -/
theorem scoresOf_apply (qh ql : FVec Ideal S256x128 .bf16) (kh kl : FVec Ideal S1024x128 .bf16) (r : Fin 256) (l : Fin 1024) :
    scoresOf qh ql kh kl (ix2 r l)
      = ((∑ d : Fin 128, qh (ix2 r d) * kh (ix2 l d)) + ∑ d : Fin 128, qh (ix2 r d) * kl (ix2 l d))
        + ∑ d : Fin 128, ql (ix2 r d) * kh (ix2 l d) := by
  unfold scoresOf
  rw [addf_apply, addf_apply, dotS_eq, Cert.Lib.RowDot.matmul_rows_zero_apply, Cert.Lib.RowDot.matmul_rows_zero_apply,
    Cert.Lib.RowDot.matmul_rows_zero_apply]

/-- When the entries of row r of q and of row l of k are real numbers the remainders vanish, x − x = 0, and the three
    products are the one product of the rows. -/
theorem scoresOf_split (q : FVec Ideal S256x128 .f32) (k : FVec Ideal S1024x128 .f32) (r : Fin 256) (l : Fin 1024)
    (hq : ∀ d : Fin 128, Cert.Reals.IsRealS (q (ix2 r d))) (hk : ∀ d : Fin 128, Cert.Reals.IsRealS (k (ix2 l d))) :
    scoresOf (hiPart q) (loPart q) (hiPart k) (loPart k) (ix2 r l) = ∑ d : Fin 128, q (ix2 r d) * k (ix2 l d) := by
  rw [scoresOf_apply]
  have z : ∀ x : EReal, Cert.Reals.IsRealS x → x - x = 0 := fun x ⟨a, ha⟩ => by
    rw [ha, ← EReal.coe_sub, sub_self, EReal.coe_zero]
  have h2 : (∑ d : Fin 128, hiPart q (ix2 r d) * loPart k (ix2 l d)) = 0 :=
    Finset.sum_eq_zero fun d _ => by rw [loPart_apply, z _ (hk d), mul_zero]
  have h3 : (∑ d : Fin 128, loPart q (ix2 r d) * hiPart k (ix2 l d)) = 0 :=
    Finset.sum_eq_zero fun d _ => by rw [loPart_apply, z _ (hq d), zero_mul]
  rw [h2, h3, add_zero, add_zero]
  rfl

/-- Shifted by the row maximum and exponentiated, at (r, l). -/
theorem shiftExp_apply (s : FVec Ideal S256x1024 .f32) (r : Fin 256) (l : Fin 1024) :
    shiftExp s (ix2 r l) = expShift (fun j => s (ix2 r j)) l := by
  unfold shiftExp expShift rowMax
  show Ideal.exp (s (ix2 r l) - broadcastTo S256x1024 _ broadcasts_S256x1_S256x1024 (ix2 r l)) = _
  rw [Cert.Columns.broadcastTo_a1_ab_apply _ _ r l 0, Cert.Columns.shapeCast_a_a1_apply]
  exact congrArg (fun z => Ideal.exp (s (ix2 r l) - z)) (Cert.Columns.laneMax_apply s _ _ _ _ r)

/-- Divided by the row sum, at (r, l). -/
theorem normalize_apply (e : FVec Ideal S256x1024 .f32) (r : Fin 256) (l : Fin 1024) :
    normalize e (ix2 r l) = Ideal.div (e (ix2 r l)) (∑ j : Fin 1024, e (ix2 r j)) := by
  unfold normalize
  rw [divf_apply, Cert.Columns.broadcastTo_a1_ab_apply _ _ r l 0, Cert.Columns.shapeCast_a_a1_apply]
  exact congrArg (Ideal.div (e (ix2 r l))) (Cert.Columns.laneSum_apply e _ _ _ _ r)

/-- The rows the output block holds after one block of query rows, at (r, o): what it held, plus the weights of row r
    against the value rows, against row o of the projection's columns. -/
theorem tailOf_apply (sraw scv : FVec Ideal S256x1024 .f32) (vb : FVec Ideal S1024x128 .bf16) (pwb : FVec Ideal S2048x128 .bf16)
    (old : Vec Ideal S1x256x2048 .f32) (r : Fin 256) (o : Fin 2048) :
    tailOf sraw scv vb pwb old (ix3 (0 : Fin 1) r o)
      = old (ix3 (0 : Fin 1) r o)
        + ∑ d : Fin 128, (∑ l : Fin 1024, weight (fun j => sraw (ix2 r j) * scv (ix2 r j)) l * vb (ix2 l d)) * pwb (ix2 o d) := by
  unfold tailOf
  rw [shapeCast_ab_1ab_apply, addf_apply, shapeCast_1ab_ab_apply, dotP_eq, Cert.Lib.RowDot.matmul_rows_zero_apply]
  refine congrArg (old (ix3 (0 : Fin 1) r o) + ·) (Finset.sum_congr rfl fun d _ => congrArg (· * pwb (ix2 o d)) ?_)
  rw [truncf_apply, dotV_eq, Cert.Lib.PlainDot.matmul_plain_zero_apply]
  refine Finset.sum_congr rfl fun l _ => congrArg (· * vb (ix2 l d)) ?_
  rw [truncf_apply, normalize_apply]
  unfold weight
  have e : ∀ j : Fin 1024, shiftExp (mulf sraw scv) (ix2 r j) = expShift (fun j => sraw (ix2 r j) * scv (ix2 r j)) j :=
    fun j => shiftExp_apply (mulf sraw scv) r j
  rw [e l, Finset.sum_congr rfl fun j _ => e j]

/-! ## The three linear layers and the projection's columns, at an index -/

/-- The query rows of the group: row t of the activation block against row d of the weight slice, plus the bias. -/
theorem pay9_apply (v5 : Vec Ideal S1x1024x512 .f32) (v12 : Vec Ideal S128x512 .f32) (v21 : Vec Ideal S1x128 .f32)
    (t : Fin 1024) (d : Fin 128) :
    k0_pay9 v5 v12 v21 (ix2 t d) = (∑ j : Fin 512, v5 (ix3 (0 : Fin 1) t j) * v12 (ix2 d j)) + v21 (ix2 (0 : Fin 1) d) := by
  unfold k0_pay9
  rw [addf_apply, dotQ_eq, Cert.Lib.RowDot.matmul_rows_zero_apply, broadcastTo_1b_ab_apply, shapeCast_a_1a_apply, shapeCast_1a_a_apply]
  refine congrArg (· + v21 (ix2 (0 : Fin 1) d)) (Finset.sum_congr rfl fun j _ => ?_)
  rw [truncf_apply, truncf_apply, shapeCast_1ab_ab_apply, shapeCast_self]

/-- The key rows of the group likewise. -/
theorem pay11_apply (v8 : Vec Ideal S1x1024x512 .f32) (v15 : Vec Ideal S128x512 .f32) (v24 : Vec Ideal S1x128 .f32)
    (t : Fin 1024) (d : Fin 128) :
    k0_pay11 (k0_pay6 v24) (k0_pay10 v8 v15) (ix2 t d)
      = (∑ j : Fin 512, v8 (ix3 (0 : Fin 1) t j) * v15 (ix2 d j)) + v24 (ix2 (0 : Fin 1) d) := by
  unfold k0_pay11 k0_pay10 k0_pay6 k0_pay4
  rw [addf_apply, dotQ_eq, Cert.Lib.RowDot.matmul_rows_zero_apply, broadcastTo_1b_ab_apply, shapeCast_a_1a_apply, shapeCast_1a_a_apply]
  refine congrArg (· + v24 (ix2 (0 : Fin 1) d)) (Finset.sum_congr rfl fun j _ => ?_)
  rw [truncf_apply, truncf_apply, shapeCast_1ab_ab_apply, shapeCast_self]

/-- The value rows of the group likewise. -/
theorem pay12_apply (v8 : Vec Ideal S1x1024x512 .f32) (v18 : Vec Ideal S128x512 .f32) (v27 : Vec Ideal S1x128 .f32)
    (t : Fin 1024) (d : Fin 128) :
    k0_pay12 (k0_pay4 v8) (k0_pay5 v18) (k0_pay7 v27) (ix2 t d)
      = (∑ j : Fin 512, v8 (ix3 (0 : Fin 1) t j) * v18 (ix2 d j)) + v27 (ix2 (0 : Fin 1) d) := by
  unfold k0_pay12 k0_pay7 k0_pay5 k0_pay4
  rw [truncf_apply, addf_apply, dotQ_eq, Cert.Lib.RowDot.matmul_rows_zero_apply, broadcastTo_1b_ab_apply, shapeCast_a_1a_apply, shapeCast_1a_a_apply]
  refine congrArg (· + v27 (ix2 (0 : Fin 1) d)) (Finset.sum_congr rfl fun j _ => ?_)
  rw [truncf_apply, truncf_apply, shapeCast_1ab_ab_apply, shapeCast_self]

/-- The projection's columns of the group are the loaded slice. -/
theorem pay13_apply (v30 : Vec Ideal S2048x128 .f32) (o : Fin 2048) (d : Fin 128) :
    k0_pay13 (k0_pay8 v30) (ix2 o d) = v30 (ix2 o d) := by
  unfold k0_pay13 k0_pay8
  rw [truncf_apply, shapeCast_self]

/-! ## One block of query rows, in closed form -/

/-- What a group adds to output entry (r, o), from its query, key and value rows and its columns of the projection:
    the weights of query row r over the key rows, against the value rows, against row o of the columns. -/
def termOf (q k v : Fin 1024 → Fin 128 → EReal) (pw : Fin 2048 → Fin 128 → EReal) (r : Fin 1024) (o : Fin 2048) : EReal :=
  ∑ d : Fin 128, (∑ l : Fin 1024, weight (fun j => (∑ d' : Fin 128, q r d' * k j d') * sc) l * v l d) * pw o d

/-- The block of 256 query rows that starts at row `off 0`: the rows the output block holds afterwards are what it held
    plus the group's term, provided the query row and the key rows are real numbers (so that the split products are
    the one product). -/
theorem chunk_apply (Qv Kv : FVec Ideal S1024x128 .f32) (Vb : FVec Ideal S1024x128 .bf16) (Pb : FVec Ideal S2048x128 .bf16)
    (off : Fin 2 → Nat) (hs : S1024x128.Slices off S256x128) (h1 : off 1 = 0) (old : Vec Ideal S1x256x2048 .f32)
    (r' : Fin 256) (o : Fin 2048) (r : Fin 1024) (hr : r.val = off 0 + r'.val)
    (hq : ∀ d : Fin 128, Cert.Reals.IsRealS (Qv (ix2 r d)))
    (hk : ∀ (j : Fin 1024) (d : Fin 128), Cert.Reals.IsRealS (Kv (ix2 j d))) :
    tailOf (scoresOf (hiPart (extractStridedSlice S256x128 off Qv hs)) (loPart (extractStridedSlice S256x128 off Qv hs))
        (hiPart Kv) (loPart Kv)) scaleVec Vb Pb old (ix3 (0 : Fin 1) r' o)
      = old (ix3 (0 : Fin 1) r' o)
        + termOf (fun t d => Qv (ix2 t d)) (fun t d => Kv (ix2 t d)) (fun t d => Vb (ix2 t d)) (fun o d => Pb (ix2 o d)) r o := by
  rw [tailOf_apply]
  unfold termOf
  refine congrArg (old (ix3 (0 : Fin 1) r' o) + ·) (Finset.sum_congr rfl fun d _ => congrArg (· * Pb (ix2 o d))
    (Finset.sum_congr rfl fun l _ => congrArg (· * Vb (ix2 l d)) ?_))
  refine congrArg (fun s => weight s l) (funext fun j => ?_)
  rw [scoresOf_split _ _ r' j (fun d => by rw [rows_apply Qv off hs h1 r' d r hr]; exact hq d) (hk j)]
  have hsc : scaleVec (F := Ideal) (ix2 r' j) = sc := rfl
  rw [hsc]
  exact congrArg (· * sc) (Finset.sum_congr rfl fun d' _ => by rw [rows_apply Qv off hs h1 r' d' r hr])

end Cert.KernelIdeal.Chunk

end
-- ==== Proof.LibUnitLoads.lean ====
/-
  A block of consecutive rows and columns cut out of a matrix, read at an index.

  A load through a unit-stride rectangle of a [d0, d1] array, at offsets (o0, o1) and of extents [s0, s1], reads at its
  local index (l, n) the array's entry at (o0 + l, o1 + n). General: any extents, offsets and entry type.
-/
import Idealize.ShloMosaic.Lib.Pipeline.Value
import Idealize.ShloMosaic.Lib.ValueIdx

noncomputable section

namespace Cert.Lib.UnitLoads

open Idealize.ShloMosaic Idealize.ShloMosaic.ValueIdx

/-- The load's entry at (l, n) is the array's entry at (p, q), where p = o0 + l and q = o1 + n. -/
theorem ld_unit_apply {Val : EltTy → Type} {e : EltTy} {d0 d1 s0 s1 o0 o1 : Nat}
    (X : (⟨2, ![d0, d1]⟩ : Shape).Idx → Val e)
    (inb : ∀ a, (![o0, o1] : Fin 2 → Nat) a + (![s0, s1] : Fin 2 → Nat) a ≤ (⟨2, ![d0, d1]⟩ : Shape).size a)
    (l : Fin s0) (n : Fin s1) (p : Fin d0) (q : Fin d1) (hp : p.val = o0 + l.val) (hq : q.val = o1 + n.val) :
    View.ld X (Rect.unit (s := ⟨2, ![d0, d1]⟩) ![o0, o1] ![s0, s1] inb) (ix2 l n) = X (ix2 p q) := by
  show X ((Rect.unit (s := ⟨2, ![d0, d1]⟩) ![o0, o1] ![s0, s1] inb).idx (ix2 l n)) = X (ix2 p q)
  refine congrArg X (funext fun a => Fin.ext ?_)
  match a with
  | ⟨0, _⟩ => show o0 + 1 * l.val = p.val; omega
  | ⟨1, _⟩ => show o1 + 1 * n.val = q.val; omega

end Cert.Lib.UnitLoads

end
-- ==== Proof.KernelPointDefs.lean ====
/-
  The group's term at a grid point, written from the blocks of the input windows.

  At a point of group g the 128 channels in play are 128·g, …, 128·g + 127 of the 512: the linear layers use those rows
  of their weight matrices and those entries of their bias rows, the projection those columns of its weights.
-/
import proofs.«143225_j81793357185069_2_alg».proof.Proof.Gen.KernelIdeal.Frame
import proofs.«143225_j81793357185069_2_alg».proof.Proof.KernelChunk
import proofs.«143225_j81793357185069_2_alg».proof.Proof.LibUnitLoads
import Idealize.ShloMosaic.Lib.Pipeline.Value
import Idealize.ShloMosaic.Lib.Pipeline.CanonAppend
import Idealize.ShloMosaic.Lib.ValueIdx
import Idealize.ShloMosaic.Lib.ValueLayout
import Idealize.ShloMosaic.PureOps.Ideal.Laws

set_option maxRecDepth 16384

noncomputable section

namespace Cert.KernelIdeal.Cases

open Cert.KernelIdeal Cert.KernelIdeal.Gen Idealize.ShloMosaic Idealize.ShloMosaic.TcCoe Idealize.ShloMosaic.Tactic
open Idealize.SL.Sem Idealize.ShloMosaic.ValueIdx Cert.GroupAttn Cert.KernelIdeal.Chunk Cert.Reals
open scoped BigOperators

theorem hz3 : (![0, 0, 0] : Fin 3 → Nat) = fun _ => 0 := funext fun a => by fin_cases a <;> rfl

/-- The offset word of group g: 128 · g, for the four groups. -/
theorem offw (g : ℕ) (hg : g < 4) : BitVec.toNat (Scalar.indexCast (Scalar.muli (BitVec.ofNat 32 g) 128#32)) = 128 * g := by
  interval_cases g <;> rfl

/-- Channel d of the point's group among the 512. -/
def gch (i : grid0.Coords) (d : Fin 128) : Fin 512 :=
  ⟨128 * (i 1).val + d.val, by have h : (i 1).val < 4 := (i 1).isLt; have := d.isLt; omega⟩

/-- A linear layer's rows for the point's group, from an activation block, a weight matrix and a bias row. -/
def linB (i : grid0.Coords) (x : Vec Ideal S1x1024x512 .f32) (w : Vec Ideal S512x512 .f32) (b : Vec Ideal S1x512 .f32)
    (t : Fin 1024) (d : Fin 128) : EReal :=
  (∑ j : Fin 512, x (ix3 (0 : Fin 1) t j) * w (ix2 (gch i d) j)) + b (ix2 (0 : Fin 1) (gch i d))

/-- The group's columns of the projection weights. -/
def projB (i : grid0.Coords) (x8 : Vec Ideal S2048x512 .f32) (o : Fin 2048) (d : Fin 128) : EReal := x8 (ix2 o (gch i d))

/-- The group's term at output entry (r, o), from the blocks of the input windows. -/
def pointTerm (i : grid0.Coords) (x0 x1 : Vec Ideal S1x1024x512 .f32) (x2 : Vec Ideal S512x512 .f32) (x3 : Vec Ideal S1x512 .f32)
    (x4 : Vec Ideal S512x512 .f32) (x5 : Vec Ideal S1x512 .f32) (x6 : Vec Ideal S512x512 .f32) (x7 : Vec Ideal S1x512 .f32)
    (x8 : Vec Ideal S2048x512 .f32) (r : Fin 1024) (o : Fin 2048) : EReal :=
  termOf (linB i x0 x2 x3) (linB i x1 x4 x5) (linB i x1 x6 x7) (projB i x8) r o

/-- A linear layer's rows are real numbers when its three operands are. -/
theorem linB_real (i : grid0.Coords) (x : Vec Ideal S1x1024x512 .f32) (w : Vec Ideal S512x512 .f32) (b : Vec Ideal S1x512 .f32)
    (hx : IsReal x) (hw : IsReal w) (hb : IsReal b) (t : Fin 1024) (d : Fin 128) : IsRealS (linB i x w b t d) :=
  IsRealS.add (isRealS_sum _ _ fun j _ => IsRealS.mul (hx _) (hw _)) (hb _)

/-- The query-type payload read at an index: the linear layer of the point's group. -/
theorem lin_of_loads (i : grid0.Coords) (x : Vec Ideal S1x1024x512 .f32) (w : Vec Ideal S512x512 .f32) (b : Vec Ideal S1x512 .f32)
    (ow : ℕ) (how : ow = 128 * (i 1).val) (inbw : ∀ a, (![ow, 0] : Fin 2 → Nat) a + (![128, 512] : Fin 2 → Nat) a ≤ S512x512.size a)
    (inbb : ∀ a, (![0, ow] : Fin 2 → Nat) a + (![1, 128] : Fin 2 → Nat) a ≤ S1x512.size a) (t : Fin 1024) (d : Fin 128) :
    (∑ j : Fin 512, x (ix3 (0 : Fin 1) t j) * View.ld w (Rect.unit (s := S512x512) ![ow, 0] ![128, 512] inbw) (ix2 d j))
        + View.ld b (Rect.unit (s := S1x512) ![0, ow] ![1, 128] inbb) (ix2 (0 : Fin 1) d)
      = linB i x w b t d := by
  unfold linB
  refine congrArg₂ (· + ·) (Finset.sum_congr rfl fun j _ => congrArg (x (ix3 (0 : Fin 1) t j) * ·)
    (Cert.Lib.UnitLoads.ld_unit_apply w inbw d j (gch i d) j (by show 128 * (i 1).val + d.val = ow + d.val; rw [how]) (by omega)))
    (Cert.Lib.UnitLoads.ld_unit_apply b inbb (0 : Fin 1) d (0 : Fin 1) (gch i d) (by show (0 : ℕ) = 0 + 0; rfl)
      (by show 128 * (i 1).val + d.val = ow + d.val; rw [how]))

end Cert.KernelIdeal.Cases

end
-- ==== Proof.KernelFour.lean ====
/-
  The four row-blocks of a group's output block, put together.

  The body stores the [1, 1024, 2048] output block as four blocks of 256 rows, the block of rows 768… first made last.
  Each block's value, at a row r' of the block and a column o, is what the output block held at row (first row + r')
  and column o plus the group's term there, when the query and key rows are real numbers. So every one of the four
  stores is the restriction to its rows of ONE function of the block's index, "what was held plus the group's term";
  the four blocks of rows cover all 1024 rows; hence the canonical contents of the four stores, whatever older stores
  follow them in the list, is that function at every index.
-/
import proofs.«143225_j81793357185069_2_alg».proof.Proof.KernelChunk
import Idealize.ShloMosaic.Lib.Pipeline.CanonAppend
import Idealize.ShloMosaic.Lib.Pipeline.Value

noncomputable section

namespace Cert.KernelIdeal.Chunk

open Cert.KernelIdeal Cert.KernelIdeal.Gen Idealize.ShloMosaic Idealize.ShloMosaic.ValueIdx Cert.GroupAttn
open scoped BigOperators

/-- Row and column of an index of the output block [1, 1024, 2048]. -/
def rowOf (y : S1x1024x2048.Idx) : Fin 1024 := ⟨(y 1).val, (y 1).isLt⟩
def colOf (y : S1x1024x2048.Idx) : Fin 2048 := ⟨(y 2).val, (y 2).isLt⟩

/-- The output block after a group: what it held plus the group's term, entry by entry. -/
def afterGroup (old : Vec Ideal S1x1024x2048 .f32) (Qv Kv : FVec Ideal S1024x128 .f32) (Vb : FVec Ideal S1024x128 .bf16)
    (Pb : FVec Ideal S2048x128 .bf16) : S1x1024x2048.Idx → EReal :=
  fun y => old y + termOf (fun t d => Qv (ix2 t d)) (fun t d => Kv (ix2 t d)) (fun t d => Vb (ix2 t d)) (fun o d => Pb (ix2 o d)) (rowOf y) (colOf y)

/-- A block of 256 rows placed at row `rowoff` of the output block: its index (0, r', o') is the output block's index
    (0, rowoff + r', o'). -/
theorem emb_rows (rowoff : ℕ) (inb : ∀ a, (![0, rowoff, 0] : Fin 3 → Nat) a + (![1, 256, 2048] : Fin 3 → Nat) a ≤ S1x1024x2048.size a)
    (r' : Fin 256) (o' : Fin 2048) (p : Fin 1024) (hp : p.val = rowoff + r'.val) :
    (Rect.unit (s := S1x1024x2048) ![0, rowoff, 0] ![1, 256, 2048] inb).emb (ix3 (0 : Fin 1) r' o')
      = (ix3 (0 : Fin 1) p o' : S1x1024x2048.Idx) :=
  funext fun a => Fin.ext (by
    match a with
    | ⟨0, _⟩ => show 0 + 1 * 0 = 0; omega
    | ⟨1, _⟩ => show rowoff + 1 * r'.val = p.val; omega
    | ⟨2, _⟩ => show 0 + 1 * o'.val = o'.val; omega)

/-- ONE ROW-BLOCK: the value stored for the 256 rows from `rowoff` is, at each of its indices, what the output block held
    plus the group's term at the place in the output block that the index names. -/
theorem piece_ok (rowoff : ℕ) (inb : ∀ a, (![0, rowoff, 0] : Fin 3 → Nat) a + (![1, 256, 2048] : Fin 3 → Nat) a ≤ S1x1024x2048.size a)
    (hs : S1024x128.Slices ![rowoff, 0] S256x128) (Qv Kv : FVec Ideal S1024x128 .f32) (Vb : FVec Ideal S1024x128 .bf16)
    (Pb : FVec Ideal S2048x128 .bf16) (old : Vec Ideal S1x1024x2048 .f32) (oldk : Vec Ideal S1x256x2048 .f32)
    (hold : ∀ (r' : Fin 256) (o' : Fin 2048) (p : Fin 1024), p.val = rowoff + r'.val → oldk (ix3 (0 : Fin 1) r' o') = old (ix3 (0 : Fin 1) p o'))
    (hq : ∀ (t : Fin 1024) (d : Fin 128), Cert.Reals.IsRealS (Qv (ix2 t d)))
    (hk : ∀ (j : Fin 1024) (d : Fin 128), Cert.Reals.IsRealS (Kv (ix2 j d)))
    (x : (Rect.unit (s := S1x1024x2048) ![0, rowoff, 0] ![1, 256, 2048] inb).shape.Idx) :
    tailOf (scoresOf (hiPart (extractStridedSlice S256x128 ![rowoff, 0] Qv hs)) (loPart (extractStridedSlice S256x128 ![rowoff, 0] Qv hs))
        (hiPart Kv) (loPart Kv)) scaleVec Vb Pb oldk x
      = afterGroup old Qv Kv Vb Pb ((Rect.unit (s := S1x1024x2048) ![0, rowoff, 0] ![1, 256, 2048] inb).emb x) := by
  obtain ⟨u, r', o', rfl⟩ : ∃ (u : Fin 1) (r' : Fin 256) (o' : Fin 2048), x = ix3 u r' o' := ⟨x 0, x 1, x 2, eq_ix3 x⟩
  obtain rfl : u = 0 := Subsingleton.elim _ _
  have hb : rowoff + 256 ≤ 1024 := inb 1
  have hp : rowoff + r'.val < 1024 := by have := r'.isLt; omega
  rw [emb_rows rowoff inb r' o' ⟨rowoff + r'.val, hp⟩ rfl]
  refine (chunk_apply Qv Kv Vb Pb ![rowoff, 0] hs rfl oldk r' o' ⟨rowoff + r'.val, hp⟩ rfl (hq ⟨rowoff + r'.val, hp⟩) hk).trans ?_
  rw [hold r' o' ⟨rowoff + r'.val, hp⟩ rfl]
  rfl

/-- THE FOUR ROW-BLOCKS TOGETHER: the canonical contents of the four stores (rows 768…, 512…, 256…, 0…), followed by any
    older stores, is at every index of the output block what the block held plus the group's term. -/
theorem four_chunks (Qv Kv : FVec Ideal S1024x128 .f32) (Vb : FVec Ideal S1024x128 .bf16) (Pb : FVec Ideal S2048x128 .bf16)
    (old : Vec Ideal S1x1024x2048 .f32) (o0 o1 o2 o3 : Vec Ideal S1x256x2048 .f32)
    (h0 : ∀ (r' : Fin 256) (o' : Fin 2048) (p : Fin 1024), p.val = 0 + r'.val → o0 (ix3 (0 : Fin 1) r' o') = old (ix3 (0 : Fin 1) p o'))
    (h1 : ∀ (r' : Fin 256) (o' : Fin 2048) (p : Fin 1024), p.val = 256 + r'.val → o1 (ix3 (0 : Fin 1) r' o') = old (ix3 (0 : Fin 1) p o'))
    (h2 : ∀ (r' : Fin 256) (o' : Fin 2048) (p : Fin 1024), p.val = 512 + r'.val → o2 (ix3 (0 : Fin 1) r' o') = old (ix3 (0 : Fin 1) p o'))
    (h3 : ∀ (r' : Fin 256) (o' : Fin 2048) (p : Fin 1024), p.val = 768 + r'.val → o3 (ix3 (0 : Fin 1) r' o') = old (ix3 (0 : Fin 1) p o'))
    (hq : ∀ (t : Fin 1024) (d : Fin 128), Cert.Reals.IsRealS (Qv (ix2 t d)))
    (hk : ∀ (j : Fin 1024) (d : Fin 128), Cert.Reals.IsRealS (Kv (ix2 j d)))
    (L' : List (View.Piece (Elt Ideal) S1x1024x2048 .f32)) (y : S1x1024x2048.Idx) :
    View.canon ([⟨Rect.unit ![0, 768, 0] ![1, 256, 2048] inb_S1x1024x2048_S1x256x2048_0_768_0,
          tailOf (scoresOf (hiPart (extractStridedSlice S256x128 ![768, 0] Qv slices_S1024x128_o768_0_S256x128))
            (loPart (extractStridedSlice S256x128 ![768, 0] Qv slices_S1024x128_o768_0_S256x128)) (hiPart Kv) (loPart Kv)) scaleVec Vb Pb o3⟩,
        ⟨Rect.unit ![0, 512, 0] ![1, 256, 2048] inb_S1x1024x2048_S1x256x2048_0_512_0,
          tailOf (scoresOf (hiPart (extractStridedSlice S256x128 ![512, 0] Qv slices_S1024x128_o512_0_S256x128))
            (loPart (extractStridedSlice S256x128 ![512, 0] Qv slices_S1024x128_o512_0_S256x128)) (hiPart Kv) (loPart Kv)) scaleVec Vb Pb o2⟩,
        ⟨Rect.unit ![0, 256, 0] ![1, 256, 2048] inb_S1x1024x2048_S1x256x2048_0_256_0,
          tailOf (scoresOf (hiPart (extractStridedSlice S256x128 ![256, 0] Qv slices_S1024x128_o256_0_S256x128))
            (loPart (extractStridedSlice S256x128 ![256, 0] Qv slices_S1024x128_o256_0_S256x128)) (hiPart Kv) (loPart Kv)) scaleVec Vb Pb o1⟩,
        ⟨Rect.unit ![0, 0, 0] ![1, 256, 2048] inb_S1x1024x2048_S1x256x2048_0_0_0,
          tailOf (scoresOf (hiPart (extractStridedSlice S256x128 ![0, 0] Qv slices_S1024x128_o0_0_S256x128))
            (loPart (extractStridedSlice S256x128 ![0, 0] Qv slices_S1024x128_o0_0_S256x128)) (hiPart Kv) (loPart Kv)) scaleVec Vb Pb o0⟩] ++ L') y
      = afterGroup old Qv Kv Vb Pb y := by
  have hy0 : (y 0).val < 1 := (y 0).isLt
  have hy1 : (y 1).val < 1024 := (y 1).isLt
  have hy2 : (y 2).val < 2048 := (y 2).isLt
  refine View.canon_append_of_pieces (afterGroup old Qv Kv Vb Pb) L' _ ?_ y ?_
  · intro p hp x
    simp only [List.mem_cons, List.not_mem_nil, or_false] at hp
    rcases hp with rfl | rfl | rfl | rfl
    · exact piece_ok 768 inb_S1x1024x2048_S1x256x2048_0_768_0 slices_S1024x128_o768_0_S256x128 Qv Kv Vb Pb old o3 h3 hq hk x
    · exact piece_ok 512 inb_S1x1024x2048_S1x256x2048_0_512_0 slices_S1024x128_o512_0_S256x128 Qv Kv Vb Pb old o2 h2 hq hk x
    · exact piece_ok 256 inb_S1x1024x2048_S1x256x2048_0_256_0 slices_S1024x128_o256_0_S256x128 Qv Kv Vb Pb old o1 h1 hq hk x
    · exact piece_ok 0 inb_S1x1024x2048_S1x256x2048_0_0_0 slices_S1024x128_o0_0_S256x128 Qv Kv Vb Pb old o0 h0 hq hk x
  · by_cases c3 : 768 ≤ (y 1).val
    · refine ⟨_, List.mem_cons_self .., (Rect.mem_set_unit (inb := inb_S1x1024x2048_S1x256x2048_0_768_0)).mpr fun a => ?_⟩
      match a with
      | ⟨0, _⟩ => show 0 ≤ (y 0).val ∧ (y 0).val < 0 + 1; omega
      | ⟨1, _⟩ => show 768 ≤ (y 1).val ∧ (y 1).val < 768 + 256; omega
      | ⟨2, _⟩ => show 0 ≤ (y 2).val ∧ (y 2).val < 0 + 2048; omega
    · by_cases c2 : 512 ≤ (y 1).val
      · refine ⟨_, List.mem_cons_of_mem _ (List.mem_cons_self ..), (Rect.mem_set_unit (inb := inb_S1x1024x2048_S1x256x2048_0_512_0)).mpr fun a => ?_⟩
        match a with
        | ⟨0, _⟩ => show 0 ≤ (y 0).val ∧ (y 0).val < 0 + 1; omega
        | ⟨1, _⟩ => show 512 ≤ (y 1).val ∧ (y 1).val < 512 + 256; omega
        | ⟨2, _⟩ => show 0 ≤ (y 2).val ∧ (y 2).val < 0 + 2048; omega
      · by_cases c1 : 256 ≤ (y 1).val
        · refine ⟨_, List.mem_cons_of_mem _ (List.mem_cons_of_mem _ (List.mem_cons_self ..)), (Rect.mem_set_unit (inb := inb_S1x1024x2048_S1x256x2048_0_256_0)).mpr fun a => ?_⟩
          match a with
          | ⟨0, _⟩ => show 0 ≤ (y 0).val ∧ (y 0).val < 0 + 1; omega
          | ⟨1, _⟩ => show 256 ≤ (y 1).val ∧ (y 1).val < 256 + 256; omega
          | ⟨2, _⟩ => show 0 ≤ (y 2).val ∧ (y 2).val < 0 + 2048; omega
        · refine ⟨_, List.mem_cons_of_mem _ (List.mem_cons_of_mem _ (List.mem_cons_of_mem _ (List.mem_cons_self ..))),
            (Rect.mem_set_unit (inb := inb_S1x1024x2048_S1x256x2048_0_0_0)).mpr fun a => ?_⟩
          match a with
          | ⟨0, _⟩ => show 0 ≤ (y 0).val ∧ (y 0).val < 0 + 1; omega
          | ⟨1, _⟩ => show 0 ≤ (y 1).val ∧ (y 1).val < 0 + 256; omega
          | ⟨2, _⟩ => show 0 ≤ (y 2).val ∧ (y 2).val < 0 + 2048; omega

end Cert.KernelIdeal.Chunk

end
-- ==== Proof.KernelCases.lean ====
/-
  What the kernel's body leaves in the output block at one grid point, in each of its three cases, entry by entry.

  At a point of group g the body computes the group's query, key and value rows from the two activation blocks and
  the 128 rows of each weight matrix that belong to the group, and the group's 128 columns of the projection weights;
  it then adds the group's term to the output block, 256 rows at a time. At the first group of a batch the block is
  zeroed first; at the last one the projection bias is added at the end.
-/
import proofs.«143225_j81793357185069_2_alg».proof.Proof.Gen.KernelIdeal.Frame
import proofs.«143225_j81793357185069_2_alg».proof.Proof.KernelPointDefs
import proofs.«143225_j81793357185069_2_alg».proof.Proof.KernelFour
import proofs.«143225_j81793357185069_2_alg».proof.Proof.LibUnitLoads
import Idealize.ShloMosaic.Lib.Pipeline.Value
import Idealize.ShloMosaic.Lib.Pipeline.CanonAppend
import Idealize.ShloMosaic.Lib.ValueIdx
import Idealize.ShloMosaic.Lib.ValueLayout
import Idealize.ShloMosaic.PureOps.Ideal.Laws

set_option maxRecDepth 16384

noncomputable section

namespace Cert.KernelIdeal.Cases

open Cert.KernelIdeal Cert.KernelIdeal.Gen Idealize.ShloMosaic Idealize.ShloMosaic.TcCoe Idealize.ShloMosaic.Tactic
open Idealize.SL.Sem Idealize.ShloMosaic.ValueIdx Cert.GroupAttn Cert.KernelIdeal.Chunk Cert.Reals
open scoped BigOperators

/-- A load of 256 rows of the output block starting at row `rowoff`, all columns, reads the block at the shifted row. -/
theorem ld_block (X : Vec Ideal S1x1024x2048 .f32) (rowoff : ℕ)
    (inb : ∀ a, (![0, rowoff, 0] : Fin 3 → Nat) a + (![1, 256, 2048] : Fin 3 → Nat) a ≤ S1x1024x2048.size a)
    (r' : Fin 256) (o' : Fin 2048) (p : Fin 1024) (hp : p.val = rowoff + r'.val) :
    View.ld X (Rect.unit (s := S1x1024x2048) ![0, rowoff, 0] ![1, 256, 2048] inb) (ix3 (0 : Fin 1) r' o') = X (ix3 (0 : Fin 1) p o') := by
  show X ((Rect.unit (s := S1x1024x2048) ![0, rowoff, 0] ![1, 256, 2048] inb).idx (ix3 (0 : Fin 1) r' o')) = _
  refine congrArg X (funext fun a => Fin.ext ?_)
  match a with
  | ⟨0, _⟩ => show 0 + 1 * 0 = 0; rfl
  | ⟨1, _⟩ => show rowoff + 1 * r'.val = p.val; omega
  | ⟨2, _⟩ => show 0 + 1 * o'.val = o'.val; omega

theorem hz2 : (![0, 0] : Fin 2 → Nat) = fun _ => 0 := funext fun a => by fin_cases a <;> rfl

/-- The box of 256 rows starting at row `rowoff`, read at its local index (0, r', o'), is entry (0, rowoff + r', o'). -/
theorem idx_block (rowoff : ℕ)
    (inb : ∀ a, (![0, rowoff, 0] : Fin 3 → Nat) a + (![1, 256, 2048] : Fin 3 → Nat) a ≤ S1x1024x2048.size a)
    (r' : Fin 256) (o' : Fin 2048) (p : Fin 1024) (hp : p.val = rowoff + r'.val) :
    (Rect.unit (s := S1x1024x2048) ![0, rowoff, 0] ![1, 256, 2048] inb).toLoadRect.idx (ix3 (0 : Fin 1) r' o') = ix3 (0 : Fin 1) p o' := by
  refine funext fun a => Fin.ext ?_
  match a with
  | ⟨0, _⟩ => show 0 + 1 * 0 = 0; rfl
  | ⟨1, _⟩ => show rowoff + 1 * r'.val = p.val; omega
  | ⟨2, _⟩ => show 0 + 1 * o'.val = o'.val; omega

/-- A store of 256 rows starting at row `rowoff` does not touch an entry whose row lies outside them. -/
theorem canon_skip (rowoff : ℕ)
    (inb : ∀ a, (![0, rowoff, 0] : Fin 3 → Nat) a + (![1, 256, 2048] : Fin 3 → Nat) a ≤ S1x1024x2048.size a)
    (w : (Rect.unit (s := S1x1024x2048) ![0, rowoff, 0] ![1, 256, 2048] inb).shape.Idx → Elt Ideal .f32)
    (L : List (View.Piece (Elt Ideal) S1x1024x2048 .f32)) (p : Fin 1024) (o' : Fin 2048)
    (hp : p.val < rowoff ∨ rowoff + 256 ≤ p.val) :
    View.canon ((⟨Rect.unit (s := S1x1024x2048) ![0, rowoff, 0] ![1, 256, 2048] inb, w⟩ : View.Piece (Elt Ideal) S1x1024x2048 .f32) :: L)
        (ix3 (0 : Fin 1) p o') = View.canon L (ix3 (0 : Fin 1) p o') :=
  View.canon_cons_of_not_mem _ _ fun h => by
    have h1 := ((Rect.mem_set_unit (inb := inb)).mp h) 1
    have h2 : rowoff ≤ p.val ∧ p.val < rowoff + 256 := h1
    omega

/-- The last store of the last group: the block plus the bias row, entry by entry. -/
theorem pay2_apply (v192 : Vec Ideal S1x1024x2048 .f32) (v194 : Vec Ideal S1x2048 .f32) (r : Fin 1024) (o : Fin 2048) :
    k0_pay2 v192 v194 (ix3 (0 : Fin 1) r o) = v192 (ix3 (0 : Fin 1) r o) + v194 (ix2 (0 : Fin 1) o) := by
  unfold k0_pay2
  rw [shapeCast_ab_1ab_apply, addf_apply, shapeCast_1ab_ab_apply, broadcastTo_1b_ab_apply, shapeCast_a_1a_apply, shapeCast_1a_a_apply]

/-- The first store of the first group: zeros. -/
theorem pay3_apply (r : Fin 1024) (o : Fin 2048) : (k0_pay3 (F := Ideal)) (ix3 (0 : Fin 1) r o) = 0 := by
  unfold k0_pay3
  rw [shapeCast_ab_1ab_apply]
  exact Ideal.ofBits_zero_f32

/-- The whole block's box read at an index is that index. -/
theorem idx_whole (inb : ∀ a, (![0, 0, 0] : Fin 3 → Nat) a + (![1, 1024, 2048] : Fin 3 → Nat) a ≤ S1x1024x2048.size a) (r : Fin 1024) (o : Fin 2048) :
    (Rect.unit (s := S1x1024x2048) ![0, 0, 0] ![1, 1024, 2048] inb).toLoadRect.idx (ix3 (0 : Fin 1) r o) = ix3 (0 : Fin 1) r o := by
  refine funext fun a => Fin.ext ?_
  match a with
  | ⟨0, _⟩ => show 0 + 1 * 0 = 0; rfl
  | ⟨1, _⟩ => show 0 + 1 * r.val = r.val; omega
  | ⟨2, _⟩ => show 0 + 1 * o.val = o.val; omega

/-- Reading 256 rows back after only the zero store: a load of the zeros. -/
theorem readCov_zero {κ : Kind} {sp : Space} (v : View sig κ sp S1x1024x2048 .f32) (rowoff : ℕ)
    (inb : ∀ a, (![0, rowoff, 0] : Fin 3 → Nat) a + (![1, 256, 2048] : Fin 3 → Nat) a ≤ S1x1024x2048.size a)
    (inbz : ∀ a, (![0, 0, 0] : Fin 3 → Nat) a + (![1, 1024, 2048] : Fin 3 → Nat) a ≤ S1x1024x2048.size a) :
    v.readCov [(⟨Rect.unit (s := S1x1024x2048) ![0, 0, 0] ![1, 1024, 2048] inbz, (k0_pay3 (F := Ideal))⟩ : View.Piece (Elt Ideal) S1x1024x2048 .f32)]
        (Rect.unit (s := S1x1024x2048) ![0, rowoff, 0] ![1, 256, 2048] inb).toLoadRect
      = View.ld (k0_pay3 (F := Ideal)) (Rect.unit (s := S1x1024x2048) ![0, rowoff, 0] ![1, 256, 2048] inb) := by
  rw [View.readCov_eq_canon', View.canon_unit_zero hz3]

/-- Reading 256 rows back skips a newer store of 256 other rows. -/
theorem readCov_skip {κ : Kind} {sp : Space} (v : View sig κ sp S1x1024x2048 .f32) (rowoff rowoff' : ℕ)
    (inb : ∀ a, (![0, rowoff, 0] : Fin 3 → Nat) a + (![1, 256, 2048] : Fin 3 → Nat) a ≤ S1x1024x2048.size a)
    (inb' : ∀ a, (![0, rowoff', 0] : Fin 3 → Nat) a + (![1, 256, 2048] : Fin 3 → Nat) a ≤ S1x1024x2048.size a)
    (w : (Rect.unit (s := S1x1024x2048) ![0, rowoff, 0] ![1, 256, 2048] inb).shape.Idx → Elt Ideal .f32)
    (L : List (View.Piece (Elt Ideal) S1x1024x2048 .f32)) (h : rowoff + 256 ≤ rowoff' ∨ rowoff' + 256 ≤ rowoff) :
    v.readCov ((⟨Rect.unit (s := S1x1024x2048) ![0, rowoff, 0] ![1, 256, 2048] inb, w⟩ : View.Piece (Elt Ideal) S1x1024x2048 .f32) :: L)
        (Rect.unit (s := S1x1024x2048) ![0, rowoff', 0] ![1, 256, 2048] inb').toLoadRect
      = v.readCov L (Rect.unit (s := S1x1024x2048) ![0, rowoff', 0] ![1, 256, 2048] inb').toLoadRect :=
  View.readCov_cons_of_disjoint v _ L _ (Rect.unit_disjoint (inb := inb) (inb' := inb') 1 h)

/-- CASE B (a group that is neither the first nor the last of its batch): the output block holds what it held plus
    the group's term. -/
theorem out_B_apply (c : Dev nD) (i : grid0.Coords) (arg2 : Memref sig .tc .vmem S1x1024x512 .f32) (harg2 : arg2.IsWhole) (arg3 : Memref sig .tc .vmem S1x1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S2048x512 .f32) (harg10 : arg10.IsWhole) (arg11 : Memref sig .tc .vmem S1x2048 .f32) (harg11 : arg11.IsWhole) (arg12 : Memref sig .tc .vmem S1x1024x2048 .f32) (harg12 : arg12.IsWhole) (hc0 : ¬cond0_0 i) (hc1 : ¬cond0_1 i)
    (x0 x1 : Vec Ideal S1x1024x512 .f32) (x2 : Vec Ideal S512x512 .f32) (x3 : Vec Ideal S1x512 .f32) (x4 : Vec Ideal S512x512 .f32)
    (x5 : Vec Ideal S1x512 .f32) (x6 : Vec Ideal S512x512 .f32) (x7 : Vec Ideal S1x512 .f32) (x8 : Vec Ideal S2048x512 .f32)
    (x9 : Vec Ideal S1x2048 .f32) (xo10 : Vec Ideal S1x1024x2048 .f32)
    (hx0 : IsReal x0) (hx1 : IsReal x1) (hx2 : IsReal x2) (hx3 : IsReal x3) (hx4 : IsReal x4) (hx5 : IsReal x5) (r : Fin 1024) (o : Fin 2048) :
    out0_B_10 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xo10 (ix3 (0 : Fin 1) r o)
      = xo10 (ix3 (0 : Fin 1) r o) + pointTerm i x0 x1 x2 x3 x4 x5 x6 x7 x8 r o := by
  have hg : (i 1).val < 4 := (i 1).isLt
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xo10)]
  unfold kernelRun0_B
  dsimp only
  sl_unfold_words
  rw [pay14_eq, pay15_eq, pay21_eq, pay17_eq, pay18_eq, pay19_eq, pay20_eq, pay1_eq, pay22_eq, pay23_eq]
  generalize hQ : k0_pay9 (F := Ideal) _ _ _ = Qv
  generalize hK : k0_pay11 (F := Ideal) (k0_pay6 _) (k0_pay10 _ _) = Kv
  generalize hV : k0_pay12 (F := Ideal) (k0_pay4 _) (k0_pay5 _) (k0_pay7 _) = Vb
  generalize hP : k0_pay13 (F := Ideal) (k0_pay8 _) = Pb
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S1x1024x512) hz3] at hQ hK hV hP ⊢
  have eQ : (fun t d => Qv (ix2 t d)) = linB i x0 x2 x3 := funext fun t => funext fun d => by
    rw [← hQ, pay9_apply]; exact lin_of_loads i x0 x2 x3 _ (offw _ hg) _ _ t d
  have eK : (fun t d => Kv (ix2 t d)) = linB i x1 x4 x5 := funext fun t => funext fun d => by
    rw [← hK, pay11_apply]; exact lin_of_loads i x1 x4 x5 _ (offw _ hg) _ _ t d
  have eV : (fun t d => Vb (ix2 t d)) = linB i x1 x6 x7 := funext fun t => funext fun d => by
    rw [← hV, pay12_apply]; exact lin_of_loads i x1 x6 x7 _ (offw _ hg) _ _ t d
  have eP : (fun o d => Pb (ix2 o d)) = projB i x8 := funext fun o => funext fun d => by
    rw [← hP, pay13_apply]
    exact Cert.Lib.UnitLoads.ld_unit_apply x8 _ o d o (gch i d) (by omega)
      (by show 128 * (i 1).val + d.val = _ + d.val; rw [offw _ hg])
  have hq : ∀ (t : Fin 1024) (d : Fin 128), IsRealS (Qv (ix2 t d)) := fun t d => by
    rw [show Qv (ix2 t d) = linB i x0 x2 x3 t d from congrFun (congrFun eQ t) d]; exact linB_real i x0 x2 x3 hx0 hx2 hx3 t d
  have hk : ∀ (j : Fin 1024) (d : Fin 128), IsRealS (Kv (ix2 j d)) := fun j d => by
    rw [show Kv (ix2 j d) = linB i x1 x4 x5 j d from congrFun (congrFun eK j) d]; exact linB_real i x1 x4 x5 hx1 hx4 hx5 j d
  refine (four_chunks Qv Kv Vb Pb xo10 _ _ _ _ (fun r' o' p hp => ld_block xo10 0 _ r' o' p hp)
    (fun r' o' p hp => ld_block xo10 256 _ r' o' p hp) (fun r' o' p hp => ld_block xo10 512 _ r' o' p hp)
    (fun r' o' p hp => ld_block xo10 768 _ r' o' p hp) hq hk [] (ix3 (0 : Fin 1) r o)).trans ?_
  unfold afterGroup pointTerm
  rw [eQ, eK, eV, eP]
  rfl

/-- CASE C (the last group of a batch): what the block held plus the group's term, plus the projection bias. -/
theorem out_C_apply (c : Dev nD) (i : grid0.Coords) (arg2 : Memref sig .tc .vmem S1x1024x512 .f32) (harg2 : arg2.IsWhole) (arg3 : Memref sig .tc .vmem S1x1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S2048x512 .f32) (harg10 : arg10.IsWhole) (arg11 : Memref sig .tc .vmem S1x2048 .f32) (harg11 : arg11.IsWhole) (arg12 : Memref sig .tc .vmem S1x1024x2048 .f32) (harg12 : arg12.IsWhole) (hc0 : ¬cond0_0 i) (hc1 : cond0_1 i)
    (x0 x1 : Vec Ideal S1x1024x512 .f32) (x2 : Vec Ideal S512x512 .f32) (x3 : Vec Ideal S1x512 .f32) (x4 : Vec Ideal S512x512 .f32)
    (x5 : Vec Ideal S1x512 .f32) (x6 : Vec Ideal S512x512 .f32) (x7 : Vec Ideal S1x512 .f32) (x8 : Vec Ideal S2048x512 .f32)
    (x9 : Vec Ideal S1x2048 .f32) (xo10 : Vec Ideal S1x1024x2048 .f32)
    (hx0 : IsReal x0) (hx1 : IsReal x1) (hx2 : IsReal x2) (hx3 : IsReal x3) (hx4 : IsReal x4) (hx5 : IsReal x5) (r : Fin 1024) (o : Fin 2048) :
    out0_C_10 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xo10 (ix3 (0 : Fin 1) r o)
      = (xo10 (ix3 (0 : Fin 1) r o) + pointTerm i x0 x1 x2 x3 x4 x5 x6 x7 x8 r o) + x9 (ix2 (0 : Fin 1) o) := by
  have hg : (i 1).val < 4 := (i 1).isLt
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xo10)]
  unfold kernelRun0_C
  dsimp only
  sl_unfold_words
  rw [pay14_eq, pay15_eq, pay21_eq, pay17_eq, pay18_eq, pay19_eq, pay20_eq, pay1_eq, pay22_eq, pay23_eq]
  generalize hQ : k0_pay9 (F := Ideal) _ _ _ = Qv
  generalize hK : k0_pay11 (F := Ideal) (k0_pay6 _) (k0_pay10 _ _) = Kv
  generalize hV : k0_pay12 (F := Ideal) (k0_pay4 _) (k0_pay5 _) (k0_pay7 _) = Vb
  generalize hP : k0_pay13 (F := Ideal) (k0_pay8 _) = Pb
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S1x1024x512) hz3, View.ld_unit_zero (S := S1x2048) hz2] at hQ hK hV hP ⊢
  have eQ : (fun t d => Qv (ix2 t d)) = linB i x0 x2 x3 := funext fun t => funext fun d => by
    rw [← hQ, pay9_apply]; exact lin_of_loads i x0 x2 x3 _ (offw _ hg) _ _ t d
  have eK : (fun t d => Kv (ix2 t d)) = linB i x1 x4 x5 := funext fun t => funext fun d => by
    rw [← hK, pay11_apply]; exact lin_of_loads i x1 x4 x5 _ (offw _ hg) _ _ t d
  have eV : (fun t d => Vb (ix2 t d)) = linB i x1 x6 x7 := funext fun t => funext fun d => by
    rw [← hV, pay12_apply]; exact lin_of_loads i x1 x6 x7 _ (offw _ hg) _ _ t d
  have eP : (fun o d => Pb (ix2 o d)) = projB i x8 := funext fun o => funext fun d => by
    rw [← hP, pay13_apply]
    exact Cert.Lib.UnitLoads.ld_unit_apply x8 _ o d o (gch i d) (by omega)
      (by show 128 * (i 1).val + d.val = _ + d.val; rw [offw _ hg])
  have hq : ∀ (t : Fin 1024) (d : Fin 128), IsRealS (Qv (ix2 t d)) := fun t d => by
    rw [show Qv (ix2 t d) = linB i x0 x2 x3 t d from congrFun (congrFun eQ t) d]; exact linB_real i x0 x2 x3 hx0 hx2 hx3 t d
  have hk : ∀ (j : Fin 1024) (d : Fin 128), IsRealS (Kv (ix2 j d)) := fun j d => by
    rw [show Kv (ix2 j d) = linB i x1 x4 x5 j d from congrFun (congrFun eK j) d]; exact linB_real i x1 x4 x5 hx1 hx4 hx5 j d
  rw [View.canon_cons_unit_zero hz3, pay2_apply, View.readCov_eq_canon']
  show View.canon _ ((Rect.unit (s := S1x1024x2048) ![0, 0, 0] ![1, 1024, 2048] _).toLoadRect.idx (ix3 (0 : Fin 1) r o)) + _ = _
  rw [idx_whole]
  refine congrArg (· + x9 (ix2 (0 : Fin 1) o)) ?_
  refine (four_chunks Qv Kv Vb Pb xo10 _ _ _ _ (fun r' o' p hp => ld_block xo10 0 _ r' o' p hp)
    (fun r' o' p hp => ld_block xo10 256 _ r' o' p hp) (fun r' o' p hp => ld_block xo10 512 _ r' o' p hp)
    (fun r' o' p hp => ld_block xo10 768 _ r' o' p hp) hq hk [] (ix3 (0 : Fin 1) r o)).trans ?_
  unfold afterGroup pointTerm
  rw [eQ, eK, eV, eP]
  rfl

/-- CASE A (the first group of a batch): the block is zeroed, then holds the group's term. Each block of rows reads back
    what the zero store left in its rows, the stores made in between touching other rows. -/
theorem out_A_apply (c : Dev nD) (i : grid0.Coords) (arg2 : Memref sig .tc .vmem S1x1024x512 .f32) (harg2 : arg2.IsWhole) (arg3 : Memref sig .tc .vmem S1x1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S2048x512 .f32) (harg10 : arg10.IsWhole) (arg11 : Memref sig .tc .vmem S1x2048 .f32) (harg11 : arg11.IsWhole) (arg12 : Memref sig .tc .vmem S1x1024x2048 .f32) (harg12 : arg12.IsWhole) (hc0 : cond0_0 i) (hc1 : ¬cond0_1 i)
    (x0 x1 : Vec Ideal S1x1024x512 .f32) (x2 : Vec Ideal S512x512 .f32) (x3 : Vec Ideal S1x512 .f32) (x4 : Vec Ideal S512x512 .f32)
    (x5 : Vec Ideal S1x512 .f32) (x6 : Vec Ideal S512x512 .f32) (x7 : Vec Ideal S1x512 .f32) (x8 : Vec Ideal S2048x512 .f32)
    (x9 : Vec Ideal S1x2048 .f32)
    (hx0 : IsReal x0) (hx1 : IsReal x1) (hx2 : IsReal x2) (hx3 : IsReal x3) (hx4 : IsReal x4) (hx5 : IsReal x5) (r : Fin 1024) (o : Fin 2048) :
    out0_A_10 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 (ix3 (0 : Fin 1) r o)
      = pointTerm i x0 x1 x2 x3 x4 x5 x6 x7 x8 r o := by
  have hg : (i 1).val < 4 := (i 1).isLt
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9)]
  unfold kernelRun0_A
  dsimp only
  sl_unfold_words
  rw [pay14_eq, pay15_eq, pay21_eq, pay17_eq, pay18_eq, pay19_eq, pay20_eq, pay1_eq, pay22_eq, pay23_eq]
  generalize hQ : k0_pay9 (F := Ideal) _ _ _ = Qv
  generalize hK : k0_pay11 (F := Ideal) (k0_pay6 _) (k0_pay10 _ _) = Kv
  generalize hV : k0_pay12 (F := Ideal) (k0_pay4 _) (k0_pay5 _) (k0_pay7 _) = Vb
  generalize hP : k0_pay13 (F := Ideal) (k0_pay8 _) = Pb
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S1x1024x512) hz3] at hQ hK hV hP ⊢
  have eQ : (fun t d => Qv (ix2 t d)) = linB i x0 x2 x3 := funext fun t => funext fun d => by
    rw [← hQ, pay9_apply]; exact lin_of_loads i x0 x2 x3 _ (offw _ hg) _ _ t d
  have eK : (fun t d => Kv (ix2 t d)) = linB i x1 x4 x5 := funext fun t => funext fun d => by
    rw [← hK, pay11_apply]; exact lin_of_loads i x1 x4 x5 _ (offw _ hg) _ _ t d
  have eV : (fun t d => Vb (ix2 t d)) = linB i x1 x6 x7 := funext fun t => funext fun d => by
    rw [← hV, pay12_apply]; exact lin_of_loads i x1 x6 x7 _ (offw _ hg) _ _ t d
  have eP : (fun o d => Pb (ix2 o d)) = projB i x8 := funext fun o => funext fun d => by
    rw [← hP, pay13_apply]
    exact Cert.Lib.UnitLoads.ld_unit_apply x8 _ o d o (gch i d) (by omega)
      (by show 128 * (i 1).val + d.val = _ + d.val; rw [offw _ hg])
  have hq : ∀ (t : Fin 1024) (d : Fin 128), IsRealS (Qv (ix2 t d)) := fun t d => by
    rw [show Qv (ix2 t d) = linB i x0 x2 x3 t d from congrFun (congrFun eQ t) d]; exact linB_real i x0 x2 x3 hx0 hx2 hx3 t d
  have hk : ∀ (j : Fin 1024) (d : Fin 128), IsRealS (Kv (ix2 j d)) := fun j d => by
    rw [show Kv (ix2 j d) = linB i x1 x4 x5 j d from congrFun (congrFun eK j) d]; exact linB_real i x1 x4 x5 hx1 hx4 hx5 j d
  simp only [readCov_zero, readCov_skip _ 0 256 _ _ _ _ (Or.inl (Nat.le_refl _)), readCov_skip _ 0 512 _ _ _ _ (Or.inl (by omega)),
    readCov_skip _ 0 768 _ _ _ _ (Or.inl (by omega)), readCov_skip _ 256 512 _ _ _ _ (Or.inl (Nat.le_refl _)),
    readCov_skip _ 256 768 _ _ _ _ (Or.inl (by omega)), readCov_skip _ 512 768 _ _ _ _ (Or.inl (Nat.le_refl _))]
  refine (four_chunks Qv Kv Vb Pb (k0_pay3 (F := Ideal)) _ _ _ _ (fun r' o' p hp => ld_block (k0_pay3 (F := Ideal)) 0 _ r' o' p hp)
    (fun r' o' p hp => ld_block (k0_pay3 (F := Ideal)) 256 _ r' o' p hp) (fun r' o' p hp => ld_block (k0_pay3 (F := Ideal)) 512 _ r' o' p hp)
    (fun r' o' p hp => ld_block (k0_pay3 (F := Ideal)) 768 _ r' o' p hp) hq hk
    [(⟨Rect.unit (s := S1x1024x2048) ![0, 0, 0] ![1, 1024, 2048] inb_S1x1024x2048_S1x1024x2048_0_0_0, (k0_pay3 (F := Ideal))⟩ : View.Piece (Elt Ideal) S1x1024x2048 .f32)]
    (ix3 (0 : Fin 1) r o)).trans ?_
  unfold afterGroup pointTerm
  rw [eQ, eK, eV, eP, pay3_apply, zero_add]
  rfl

end Cert.KernelIdeal.Cases

end
-- ==== Proof.KernelBlocks.lean ====
/-
  The blocks the kernel's windows read, as entries of the argument arrays.

  The grid has 16 × 4 points; point t works on batch t / 4. The two activation windows read the batch's rows; the
  weight windows read whole arrays that were scaled by the word for 1/√512 before the region; the bias windows read
  whole arrays that are the biases laid out as one row.
-/
import proofs.«143225_j81793357185069_2_alg».proof.Proof.Gen.KernelIdeal.Frame
import proofs.«143225_j81793357185069_2_alg».proof.Proof.Spec
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## Two host operations read at an index -/

/-- A square array times the scalar word broadcast to its shape, at an index. -/
theorem scaled512_at (x : FVec Ideal S512x512 .f32) (i : S512x512.Idx) :
    mulf x (broadcastInDim S512x512 ![] bcast_S_S512x512 (constant (F := Ideal) S_ .f32 0x3D3504F3#32)) i
      = x i * Cert.GroupAttn.sc := by
  rw [mulf_apply]
  refine congrArg (x i * ·) ?_
  exact broadcastInDim_apply _ bcast_S_S512x512 _ i ix0 (fun a => a.elim0)

/-- The projection weights times the scalar word broadcast to their shape, at an index. -/
theorem scaled2048_at (x : FVec Ideal S2048x512 .f32) (i : S2048x512.Idx) :
    mulf x (broadcastInDim S2048x512 ![] bcast_S_S2048x512 (constant (F := Ideal) S_ .f32 0x3D3504F3#32)) i
      = x i * Cert.GroupAttn.sc := by
  rw [mulf_apply]
  refine congrArg (x i * ·) ?_
  exact broadcastInDim_apply _ bcast_S_S2048x512 _ i ix0 (fun a => a.elim0)

/-- A vector of 512 entries laid out as one row, at an index whose column is a. -/
theorem row512_at (x : FVec Ideal S512 .f32) (i : S1x512.Idx) (a : Fin 512) (ha : (i 1).val = a.val) :
    broadcastInDim S1x512 ![1] bcast_S512_S1x512_1 x i = x (ix1 a) :=
  broadcastInDim_apply _ bcast_S512_S1x512_1 x i (ix1 a) (fun e => match e with
    | ⟨0, _⟩ => by show a.val = if (512 : Nat) = 1 then 0 else (i 1).val; rw [if_neg (by decide), ha])

/-- A vector of 2048 entries laid out as one row, at an index whose column is a. -/
theorem row2048_at (x : FVec Ideal S2048 .f32) (i : S1x2048.Idx) (a : Fin 2048) (ha : (i 1).val = a.val) :
    broadcastInDim S1x2048 ![1] bcast_S2048_S1x2048_1 x i = x (ix1 a) :=
  broadcastInDim_apply _ bcast_S2048_S1x2048_1 x i (ix1 a) (fun e => match e with
    | ⟨0, _⟩ => by show a.val = if (2048 : Nat) = 1 then 0 else (i 1).val; rw [if_neg (by decide), ha])

/-! ## The activation windows -/

/-- Window 0's block index at point t: the batch t / 4, and the whole of the other two axes. -/
theorem idx0 : ∀ t : Fin cfg0.N, win0_0.index t 0 = t.val / 4 ∧ win0_0.index t 1 = 0 ∧ win0_0.index t 2 = 0 :=
  (by decide +kernel : ∀ t : Fin grid0.N, _)

/-- Window 0's block at point t is batch t / 4 of the second activation array. -/
theorem blk0 (c : Dev nD) (t : Fin cfg0.N) (hn : t.val / 4 < 16) (r : Fin 1024) (j : Fin 512) :
    (iblk m c 0 t : Vec Ideal S1x1024x512 .f32) (ix3 (0 : Fin 1) r j)
      = m ((c : Thread nD τ).loc main_arg1) (ix3 ⟨t.val / 4, hn⟩ r j) := by
  have hi := idx0 t
  unfold iblk
  rw [View.read_apply]
  show V m c main_arg1 _ = m (c.tc.loc main_arg1) _
  refine (congrFun (V_main_arg1 m c) _).trans ?_
  refine congrArg (m (c.tc.loc main_arg1)) (funext fun a => Fin.ext ?_)
  match a with
  | ⟨0, _⟩ => show win0_0.index t 0 * 1 + 1 * 0 = t.val / 4; rw [hi.1]; omega
  | ⟨1, _⟩ => show win0_0.index t 1 * 1024 + 1 * r.val = r.val; rw [hi.2.1]; omega
  | ⟨2, _⟩ => show win0_0.index t 2 * 512 + 1 * j.val = j.val; rw [hi.2.2]; omega

/-- Window 1's block index at point t: the batch t / 4, and the whole of the other two axes. -/
theorem idx1 : ∀ t : Fin cfg0.N, win0_1.index t 0 = t.val / 4 ∧ win0_1.index t 1 = 0 ∧ win0_1.index t 2 = 0 :=
  (by decide +kernel : ∀ t : Fin grid0.N, _)

/-- Window 1's block at point t is batch t / 4 of the first activation array. -/
theorem blk1 (c : Dev nD) (t : Fin cfg0.N) (hn : t.val / 4 < 16) (r : Fin 1024) (j : Fin 512) :
    (iblk m c 1 t : Vec Ideal S1x1024x512 .f32) (ix3 (0 : Fin 1) r j)
      = m ((c : Thread nD τ).loc main_arg0) (ix3 ⟨t.val / 4, hn⟩ r j) := by
  have hi := idx1 t
  unfold iblk
  rw [View.read_apply]
  show V m c main_arg0 _ = m (c.tc.loc main_arg0) _
  refine (congrFun (V_main_arg0 m c) _).trans ?_
  refine congrArg (m (c.tc.loc main_arg0)) (funext fun a => Fin.ext ?_)
  match a with
  | ⟨0, _⟩ => show win0_1.index t 0 * 1 + 1 * 0 = t.val / 4; rw [hi.1]; omega
  | ⟨1, _⟩ => show win0_1.index t 1 * 1024 + 1 * r.val = r.val; rw [hi.2.1]; omega
  | ⟨2, _⟩ => show win0_1.index t 2 * 512 + 1 * j.val = j.val; rw [hi.2.2]; omega

/-! ## The weight windows -/

/-- Window 2 reads its whole array at every point. -/
theorem idx2 : ∀ t : Fin cfg0.N, win0_2.index t 0 = 0 ∧ win0_2.index t 1 = 0 :=
  (by decide +kernel : ∀ t : Fin grid0.N, _)

/-- The array behind window 2: the first layer's weights, every entry scaled by the word for 1/√512. -/
theorem V_main_v1 (c : Dev nD) : (V m c main_v1 : S512x512.Idx → EReal)
    = mulf (m ((c : Thread nD τ).loc main_arg2)) (broadcastInDim S512x512 ![] bcast_S_S512x512 (constant (F := Ideal) S_ .f32 0x3D3504F3#32)) := by
  dsimp only [Gen.V, Gen.hostOps0]; after_results

/-- Window 2's block at any point is the first layer's weights, scaled. -/
theorem blk2 (c : Dev nD) (t : Fin cfg0.N) (a : Fin 512) (b : Fin 512) :
    (iblk m c 2 t : Vec Ideal S512x512 .f32) (ix2 a b)
      = HMul.hMul (α := EReal) (m ((c : Thread nD τ).loc main_arg2) (ix2 a b)) Cert.GroupAttn.sc := by
  have hi := idx2 t
  unfold iblk
  rw [View.read_apply]
  show (V m c main_v1 : S512x512.Idx → EReal) _ = _
  rw [V_main_v1]
  refine (scaled512_at _ _).trans ?_
  refine congrArg (fun i : S512x512.Idx => HMul.hMul (α := EReal) (m (c.tc.loc main_arg2) i) Cert.GroupAttn.sc) (funext fun e => Fin.ext ?_)
  match e with
  | ⟨0, _⟩ => show win0_2.index t 0 * 512 + 1 * a.val = a.val; rw [hi.1]; omega
  | ⟨1, _⟩ => show win0_2.index t 1 * 512 + 1 * b.val = b.val; rw [hi.2]; omega

/-- Window 4 reads its whole array at every point. -/
theorem idx4 : ∀ t : Fin cfg0.N, win0_4.index t 0 = 0 ∧ win0_4.index t 1 = 0 :=
  (by decide +kernel : ∀ t : Fin grid0.N, _)

/-- The array behind window 4: the second layer's weights, every entry scaled by the word for 1/√512. -/
theorem V_main_v3 (c : Dev nD) : (V m c main_v3 : S512x512.Idx → EReal)
    = mulf (m ((c : Thread nD τ).loc main_arg4)) (broadcastInDim S512x512 ![] bcast_S_S512x512 (constant (F := Ideal) S_ .f32 0x3D3504F3#32)) := by
  dsimp only [Gen.V, Gen.hostOps0]; after_results

/-- Window 4's block at any point is the second layer's weights, scaled. -/
theorem blk4 (c : Dev nD) (t : Fin cfg0.N) (a : Fin 512) (b : Fin 512) :
    (iblk m c 4 t : Vec Ideal S512x512 .f32) (ix2 a b)
      = HMul.hMul (α := EReal) (m ((c : Thread nD τ).loc main_arg4) (ix2 a b)) Cert.GroupAttn.sc := by
  have hi := idx4 t
  unfold iblk
  rw [View.read_apply]
  show (V m c main_v3 : S512x512.Idx → EReal) _ = _
  rw [V_main_v3]
  refine (scaled512_at _ _).trans ?_
  refine congrArg (fun i : S512x512.Idx => HMul.hMul (α := EReal) (m (c.tc.loc main_arg4) i) Cert.GroupAttn.sc) (funext fun e => Fin.ext ?_)
  match e with
  | ⟨0, _⟩ => show win0_4.index t 0 * 512 + 1 * a.val = a.val; rw [hi.1]; omega
  | ⟨1, _⟩ => show win0_4.index t 1 * 512 + 1 * b.val = b.val; rw [hi.2]; omega

/-- Window 6 reads its whole array at every point. -/
theorem idx6 : ∀ t : Fin cfg0.N, win0_6.index t 0 = 0 ∧ win0_6.index t 1 = 0 :=
  (by decide +kernel : ∀ t : Fin grid0.N, _)

/-- The array behind window 6: the third layer's weights, every entry scaled by the word for 1/√512. -/
theorem V_main_v5 (c : Dev nD) : (V m c main_v5 : S512x512.Idx → EReal)
    = mulf (m ((c : Thread nD τ).loc main_arg6)) (broadcastInDim S512x512 ![] bcast_S_S512x512 (constant (F := Ideal) S_ .f32 0x3D3504F3#32)) := by
  dsimp only [Gen.V, Gen.hostOps0]; after_results

/-- Window 6's block at any point is the third layer's weights, scaled. -/
theorem blk6 (c : Dev nD) (t : Fin cfg0.N) (a : Fin 512) (b : Fin 512) :
    (iblk m c 6 t : Vec Ideal S512x512 .f32) (ix2 a b)
      = HMul.hMul (α := EReal) (m ((c : Thread nD τ).loc main_arg6) (ix2 a b)) Cert.GroupAttn.sc := by
  have hi := idx6 t
  unfold iblk
  rw [View.read_apply]
  show (V m c main_v5 : S512x512.Idx → EReal) _ = _
  rw [V_main_v5]
  refine (scaled512_at _ _).trans ?_
  refine congrArg (fun i : S512x512.Idx => HMul.hMul (α := EReal) (m (c.tc.loc main_arg6) i) Cert.GroupAttn.sc) (funext fun e => Fin.ext ?_)
  match e with
  | ⟨0, _⟩ => show win0_6.index t 0 * 512 + 1 * a.val = a.val; rw [hi.1]; omega
  | ⟨1, _⟩ => show win0_6.index t 1 * 512 + 1 * b.val = b.val; rw [hi.2]; omega

/-- Window 8 reads its whole array at every point. -/
theorem idx8 : ∀ t : Fin cfg0.N, win0_8.index t 0 = 0 ∧ win0_8.index t 1 = 0 :=
  (by decide +kernel : ∀ t : Fin grid0.N, _)

/-- The array behind window 8: the projection weights, every entry scaled by the word for 1/√512. -/
theorem V_main_v7 (c : Dev nD) : (V m c main_v7 : S2048x512.Idx → EReal)
    = mulf (m ((c : Thread nD τ).loc main_arg8)) (broadcastInDim S2048x512 ![] bcast_S_S2048x512 (constant (F := Ideal) S_ .f32 0x3D3504F3#32)) := by
  dsimp only [Gen.V, Gen.hostOps0]; after_results

/-- Window 8's block at any point is the projection weights, scaled. -/
theorem blk8 (c : Dev nD) (t : Fin cfg0.N) (a : Fin 2048) (b : Fin 512) :
    (iblk m c 8 t : Vec Ideal S2048x512 .f32) (ix2 a b)
      = HMul.hMul (α := EReal) (m ((c : Thread nD τ).loc main_arg8) (ix2 a b)) Cert.GroupAttn.sc := by
  have hi := idx8 t
  unfold iblk
  rw [View.read_apply]
  show (V m c main_v7 : S2048x512.Idx → EReal) _ = _
  rw [V_main_v7]
  refine (scaled2048_at _ _).trans ?_
  refine congrArg (fun i : S2048x512.Idx => HMul.hMul (α := EReal) (m (c.tc.loc main_arg8) i) Cert.GroupAttn.sc) (funext fun e => Fin.ext ?_)
  match e with
  | ⟨0, _⟩ => show win0_8.index t 0 * 2048 + 1 * a.val = a.val; rw [hi.1]; omega
  | ⟨1, _⟩ => show win0_8.index t 1 * 512 + 1 * b.val = b.val; rw [hi.2]; omega

/-! ## The bias windows -/

/-- Window 3 reads its whole array at every point. -/
theorem idx3 : ∀ t : Fin cfg0.N, win0_3.index t 0 = 0 ∧ win0_3.index t 1 = 0 :=
  (by decide +kernel : ∀ t : Fin grid0.N, _)

/-- The array behind window 3: the first layer's bias laid out as one row. -/
theorem V_main_v8 (c : Dev nD) : (V m c main_v8 : S1x512.Idx → EReal)
    = broadcastInDim S1x512 ![1] bcast_S512_S1x512_1 (m ((c : Thread nD τ).loc main_arg3)) := by
  dsimp only [Gen.V, Gen.hostOps0]; after_results

/-- Window 3's block at any point is the first layer's bias. -/
theorem blk3 (c : Dev nD) (t : Fin cfg0.N) (a : Fin 512) :
    (iblk m c 3 t : Vec Ideal S1x512 .f32) (ix2 (0 : Fin 1) a)
      = m ((c : Thread nD τ).loc main_arg3) (ix1 a) := by
  have hi := idx3 t
  unfold iblk
  rw [View.read_apply]
  show (V m c main_v8 : S1x512.Idx → EReal) _ = _
  rw [V_main_v8]
  refine row512_at _ _ a ?_
  show win0_3.index t 1 * 512 + 1 * a.val = a.val
  rw [hi.2]; omega

/-- Window 5 reads its whole array at every point. -/
theorem idx5 : ∀ t : Fin cfg0.N, win0_5.index t 0 = 0 ∧ win0_5.index t 1 = 0 :=
  (by decide +kernel : ∀ t : Fin grid0.N, _)

/-- The array behind window 5: the second layer's bias laid out as one row. -/
theorem V_main_v9 (c : Dev nD) : (V m c main_v9 : S1x512.Idx → EReal)
    = broadcastInDim S1x512 ![1] bcast_S512_S1x512_1 (m ((c : Thread nD τ).loc main_arg5)) := by
  dsimp only [Gen.V, Gen.hostOps0]; after_results

/-- Window 5's block at any point is the second layer's bias. -/
theorem blk5 (c : Dev nD) (t : Fin cfg0.N) (a : Fin 512) :
    (iblk m c 5 t : Vec Ideal S1x512 .f32) (ix2 (0 : Fin 1) a)
      = m ((c : Thread nD τ).loc main_arg5) (ix1 a) := by
  have hi := idx5 t
  unfold iblk
  rw [View.read_apply]
  show (V m c main_v9 : S1x512.Idx → EReal) _ = _
  rw [V_main_v9]
  refine row512_at _ _ a ?_
  show win0_5.index t 1 * 512 + 1 * a.val = a.val
  rw [hi.2]; omega

/-- Window 7 reads its whole array at every point. -/
theorem idx7 : ∀ t : Fin cfg0.N, win0_7.index t 0 = 0 ∧ win0_7.index t 1 = 0 :=
  (by decide +kernel : ∀ t : Fin grid0.N, _)

/-- The array behind window 7: the third layer's bias laid out as one row. -/
theorem V_main_v10 (c : Dev nD) : (V m c main_v10 : S1x512.Idx → EReal)
    = broadcastInDim S1x512 ![1] bcast_S512_S1x512_1 (m ((c : Thread nD τ).loc main_arg7)) := by
  dsimp only [Gen.V, Gen.hostOps0]; after_results

/-- Window 7's block at any point is the third layer's bias. -/
theorem blk7 (c : Dev nD) (t : Fin cfg0.N) (a : Fin 512) :
    (iblk m c 7 t : Vec Ideal S1x512 .f32) (ix2 (0 : Fin 1) a)
      = m ((c : Thread nD τ).loc main_arg7) (ix1 a) := by
  have hi := idx7 t
  unfold iblk
  rw [View.read_apply]
  show (V m c main_v10 : S1x512.Idx → EReal) _ = _
  rw [V_main_v10]
  refine row512_at _ _ a ?_
  show win0_7.index t 1 * 512 + 1 * a.val = a.val
  rw [hi.2]; omega

/-- Window 9 reads its whole array at every point. -/
theorem idx9 : ∀ t : Fin cfg0.N, win0_9.index t 0 = 0 ∧ win0_9.index t 1 = 0 :=
  (by decide +kernel : ∀ t : Fin grid0.N, _)

/-- The array behind window 9: the projection bias laid out as one row. -/
theorem V_main_v11 (c : Dev nD) : (V m c main_v11 : S1x2048.Idx → EReal)
    = broadcastInDim S1x2048 ![1] bcast_S2048_S1x2048_1 (m ((c : Thread nD τ).loc main_arg9)) := by
  dsimp only [Gen.V, Gen.hostOps0]; after_results

/-- Window 9's block at any point is the projection bias. -/
theorem blk9 (c : Dev nD) (t : Fin cfg0.N) (a : Fin 2048) :
    (iblk m c 9 t : Vec Ideal S1x2048 .f32) (ix2 (0 : Fin 1) a)
      = m ((c : Thread nD τ).loc main_arg9) (ix1 a) := by
  have hi := idx9 t
  unfold iblk
  rw [View.read_apply]
  show (V m c main_v11 : S1x2048.Idx → EReal) _ = _
  rw [V_main_v11]
  refine row2048_at _ _ a ?_
  show win0_9.index t 1 * 2048 + 1 * a.val = a.val
  rw [hi.2]; omega

end Cert.KernelIdeal.Blocks

end
-- ==== Proof.KernelPoints.lean ====
/-
  The arithmetic of the 16 × 4 grid. Point t of the 64 is batch t / 4 and channel group t % 4, the last axis moving
  fastest. The three offset maps the body loads its weight and bias slices at are 128 · (t % 4) on the sliced axis and
  0 on the other; the result window's block index is (t / 4, 0, 0), so its block at point t is batch t / 4 of the
  result, whole on the two other axes; that block is written back at the last point of each batch, t % 4 = 3, and
  those sixteen blocks cover the result.
-/
import proofs.«143225_j81793357185069_2_alg».proof.Proof.Gen.KernelIdeal.Frame
import Idealize.ShloMosaic.Lib.Pipeline.Value
import Idealize.ShloMosaic.Lib.ValueIdx

set_option maxRecDepth 16384

noncomputable section

namespace Cert.KernelIdeal.Points2

open Cert.KernelIdeal Cert.KernelIdeal.Gen Idealize.ShloMosaic Idealize.ShloMosaic.ValueIdx

/-! ## The coordinates of a point -/

/-- The grid has 64 points. -/
theorem N64 : cfg0.N = 64 := N_0

/-- Point t has batch coordinate t / 4 and group coordinate t % 4 (decided over the 64 points). -/
theorem coords_all : ∀ t : Fin cfg0.N,
    ((grid0.coords t) (0 : Fin 2)).val = t.val / 4 ∧ ((grid0.coords t) (1 : Fin 2)).val = t.val % 4 :=
  (by decide +kernel : ∀ t : Fin grid0.N,
    ((grid0.coords t) (0 : Fin 2)).val = t.val / 4 ∧ ((grid0.coords t) (1 : Fin 2)).val = t.val % 4)

theorem coords0 (t : Fin cfg0.N) : ((grid0.coords t) (0 : Fin 2)).val = t.val / 4 := (coords_all t).1

theorem coords1 (t : Fin cfg0.N) : ((grid0.coords t) (1 : Fin 2)).val = t.val % 4 := (coords_all t).2

/-! ## The offsets of the body's sliced loads -/

/-- The offset word: the group coordinate times 128 as a 32-bit product, read as a natural number, is 128 · (t % 4)
    (decided over the 64 points; the product stays far below 2³²). -/
theorem off_word : ∀ t : Fin cfg0.N,
    (Scalar.indexCast (Scalar.muli (BitVec.ofNat 32 ((grid0.coords t) (1 : Fin 2)).val) 128#32)).toNat
      = 128 * (t.val % 4) :=
  (by decide +kernel : ∀ t : Fin grid0.N,
    (Scalar.indexCast (Scalar.muli (BitVec.ofNat 32 ((grid0.coords t) (1 : Fin 2)).val) 128#32)).toNat
      = 128 * (t.val % 4))

/-- The square weights are sliced on their rows at 128 · (t % 4). -/
theorem off1 (t : Fin cfg0.N) : k0_off1 (grid0.coords t) = ![128 * (t.val % 4), 0] :=
  congrArg (fun x : Nat => (![x, 0] : Fin 2 → Nat)) (off_word t)

/-- The biases are sliced on their columns at 128 · (t % 4). -/
theorem off2 (t : Fin cfg0.N) : k0_off2 (grid0.coords t) = ![0, 128 * (t.val % 4)] :=
  congrArg (fun x : Nat => (![0, x] : Fin 2 → Nat)) (off_word t)

/-- The projection weights are sliced on their columns at 128 · (t % 4). -/
theorem off3 (t : Fin cfg0.N) : k0_off3 (grid0.coords t) = ![0, 128 * (t.val % 4)] :=
  congrArg (fun x : Nat => (![0, x] : Fin 2 → Nat)) (off_word t)

/-! ## The result window's block -/

/-- The result window's block index at point t is (t / 4, 0, 0) (decided over the 64 points). -/
theorem idx10 : ∀ t : Fin cfg0.N,
    win0_10.index t (0 : Fin 3) = t.val / 4 ∧ win0_10.index t (1 : Fin 3) = 0 ∧ win0_10.index t (2 : Fin 3) = 0 :=
  (by decide +kernel : ∀ t : Fin grid0.N,
    win0_10.index t (0 : Fin 3) = t.val / 4 ∧ win0_10.index t (1 : Fin 3) = 0 ∧ win0_10.index t (2 : Fin 3) = 0)

/-- The batch of a point is below 16. -/
theorem batch_lt (t : Fin cfg0.N) : t.val / 4 < 16 := by
  have := t.isLt; have h : cfg0.N = 64 := N_0; omega

/-- An index of the result window's block at point t sits in the result at batch t / 4, at the same row and column. -/
theorem emb10 (t : Fin cfg0.N) (y : S1x1024x2048.Idx) :
    ((cfg0.win 10).blk t).view.emb y
      = (ix3 (⟨t.val / 4, batch_lt t⟩ : Fin 16) (⟨(y 1).val, (y 1).isLt⟩ : Fin 1024) (⟨(y 2).val, (y 2).isLt⟩ : Fin 2048)
          : S16x1024x2048.Idx) := by
  obtain ⟨e0, e1, e2⟩ := idx10 t
  funext a; apply Fin.ext
  match a with
  | ⟨0, _⟩ =>
    show win0_10.index t (0 : Fin 3) * 1 + 1 * (y 0).val = t.val / 4
    have hy : (y 0).val < 1 := (y 0).isLt
    omega
  | ⟨1, _⟩ =>
    show win0_10.index t (1 : Fin 3) * 1024 + 1 * (y 1).val = (y 1).val
    omega
  | ⟨2, _⟩ =>
    show win0_10.index t (2 : Fin 3) * 2048 + 1 * (y 2).val = (y 2).val
    omega

/-- An index of the result is in point t's block iff each coordinate is in the block's range on its axis. -/
theorem mem_blk10 (t : Fin cfg0.N) (i : S16x1024x2048.Idx) :
    i ∈ ((cfg0.win 10).blk t).view.set ↔ ∀ a : Fin 3, win0_10.index t a * S1x1024x2048.size a ≤ (i a).val
      ∧ (i a).val < win0_10.index t a * S1x1024x2048.size a + S1x1024x2048.size a := by
  show i ∈ ((View.whole main_v12).slice (win0_10.rect t)).set ↔ _
  rw [View.set_slice_whole, Rect.mem_set_unit]
  exact Iff.rfl

/-- An index of the result is in point t's block exactly when its batch is t / 4. -/
theorem mem10 (t : Fin cfg0.N) (i : S16x1024x2048.Idx) :
    i ∈ ((cfg0.win 10).blk t).view.set ↔ (i 0).val = t.val / 4 := by
  obtain ⟨e0, e1, e2⟩ := idx10 t
  have h1 : (i 1).val < 1024 := (i 1).isLt
  have h2 : (i 2).val < 2048 := (i 2).isLt
  rw [mem_blk10]
  constructor
  · intro h
    have b0 : win0_10.index t (0 : Fin 3) * 1 ≤ (i 0).val ∧ (i 0).val < win0_10.index t (0 : Fin 3) * 1 + 1 := h 0
    omega
  · intro h a
    match a with
    | ⟨0, _⟩ =>
      show win0_10.index t (0 : Fin 3) * 1 ≤ (i 0).val ∧ (i 0).val < win0_10.index t (0 : Fin 3) * 1 + 1
      omega
    | ⟨1, _⟩ =>
      show win0_10.index t (1 : Fin 3) * 1024 ≤ (i 1).val ∧ (i 1).val < win0_10.index t (1 : Fin 3) * 1024 + 1024
      omega
    | ⟨2, _⟩ =>
      show win0_10.index t (2 : Fin 3) * 2048 ≤ (i 2).val ∧ (i 2).val < win0_10.index t (2 : Fin 3) * 2048 + 2048
      omega

/-- The last point of batch n: t = 4 n + 3. -/
def lastPt (n : Fin 16) : Fin cfg0.N := ⟨4 * n.val + 3, by have := n.isLt; have h : cfg0.N = 64 := N_0; omega⟩

theorem lastPt_val (n : Fin 16) : (lastPt n).val = 4 * n.val + 3 := rfl

/-- Every index of the result is in the block of a point that writes back: the last point of its batch. -/
theorem cover10 (i : S16x1024x2048.Idx) :
    ∃ t : Fin cfg0.N, (cfg0.win 10).flush t = true ∧ i ∈ ((cfg0.win 10).blk t).view.set := by
  have h0 : (i 0).val < 16 := (i 0).isLt
  refine ⟨lastPt ⟨(i 0).val, h0⟩, (flush0_10 _).mpr ?_, (mem10 _ i).mpr ?_⟩
  · show (4 * (i 0).val + 3) % 4 = 3
    omega
  · show (i 0).val = (4 * (i 0).val + 3) / 4
    omega

/-! ## A batch's four points, counted back from its last -/

/-- When t is the last point of its batch, the three points before it are the batch's groups 2, 1 and 0. -/
theorem unroll (n : ℕ) (h : n % 4 = 3) :
    (n - 1) % 4 = 2 ∧ (n - 2) % 4 = 1 ∧ (n - 3) % 4 = 0
      ∧ (n - 1) / 4 = n / 4 ∧ (n - 2) / 4 = n / 4 ∧ (n - 3) / 4 = n / 4 := by
  omega

/-- The same at a point of the grid. -/
theorem unroll_pt (t : Fin cfg0.N) (h : t.val % 4 = 3) :
    (t.val - 1) % 4 = 2 ∧ (t.val - 2) % 4 = 1 ∧ (t.val - 3) % 4 = 0
      ∧ (t.val - 1) / 4 = t.val / 4 ∧ (t.val - 2) / 4 = t.val / 4 ∧ (t.val - 3) / 4 = t.val / 4 :=
  unroll t.val h

/-- A point is its batch times four plus its group. -/
theorem pt_eq (t : Fin cfg0.N) : t.val = 4 * (t.val / 4) + t.val % 4 := by omega

end Cert.KernelIdeal.Points2

end
-- ==== Proof.KernelBridge.lean ====
/-
  The group's term the kernel computes at a grid point is the specification's.

  At point t of the 16 × 4 grid the kernel works on batch t / 4 and channel group t % 4. Its windows' blocks are the
  batch's rows of the two activation arrays, the square weights and the projection weights scaled by the word for
  1/√512, and the biases as rows. The linear layers the kernel builds from those blocks, restricted to the group's 128
  channels, are the specification's linear layers at those channels; so the term it adds to an output entry is the
  specification's term of that group. The blocks hold real numbers when the arrays do.
-/
import proofs.«143225_j81793357185069_2_alg».proof.Proof.KernelBlocks
import proofs.«143225_j81793357185069_2_alg».proof.Proof.KernelPoints
import proofs.«143225_j81793357185069_2_alg».proof.Proof.KernelPointDefs
import proofs.«143225_j81793357185069_2_alg».proof.Proof.Spec
import proofs.«143225_j81793357185069_2_alg».proof.Proof.LibReals
import proofs.«143225_j81793357185069_2_alg».proof.Proof.Finite
import Idealize.ShloMosaic.Lib.ValueIdx

noncomputable section

namespace Cert.KernelIdeal.Bridge

open Cert.KernelIdeal Cert.KernelIdeal.Gen Idealize.ShloMosaic Idealize.ShloMosaic.TcCoe Idealize.SL.Sem Idealize.ShloMosaic.ValueIdx
open Cert.GroupAttn Cert.KernelIdeal.Cases Cert.KernelIdeal.Chunk Cert.Reals
open scoped BigOperators

/-! ## From blocks to arrays, over any blocks that read the arrays as the windows' do -/

/-- A linear layer built from an activation block that is batch n, a weight block that is the scaled weights and a bias
    row that is the bias, at the channels of group g, is the specification's layer at those channels. -/
theorem linB_eq (i : grid0.Coords) (n : Fin 16) (g : Fin 4) (hg : (i 1).val = g.val)
    (x : Vec Ideal S1x1024x512 .f32) (w : Vec Ideal S512x512 .f32) (b : Vec Ideal S1x512 .f32)
    (ax : Act) (aw : Wt) (ab : Bs)
    (hx : ∀ (r : Fin 1024) (j : Fin 512), x (ix3 (0 : Fin 1) r j) = ax (ix3 n r j))
    (hw : ∀ p q : Fin 512, w (ix2 p q) = aw (ix2 p q) * sc)
    (hb : ∀ p : Fin 512, b (ix2 (0 : Fin 1) p) = ab (ix1 p)) :
    linB i x w b = fun t' d => lin ax aw ab n t' (ch g d) := by
  funext t' d
  have hc : gch i d = ch g d := Fin.ext (by show 128 * (i 1).val + d.val = 128 * g.val + d.val; rw [hg])
  unfold linB lin
  rw [hc, hb]
  refine congrArg (· + ab (ix1 (ch g d))) (Finset.sum_congr rfl fun j _ => ?_)
  rw [hx, hw]

/-- The group's columns of a block that is the scaled projection weights. -/
theorem projB_eq (i : grid0.Coords) (g : Fin 4) (hg : (i 1).val = g.val) (x8 : Vec Ideal S2048x512 .f32) (a8 : PWt)
    (h8 : ∀ (o : Fin 2048) (q : Fin 512), x8 (ix2 o q) = a8 (ix2 o q) * sc) :
    projB i x8 = fun o d => a8 (ix2 o (ch g d)) * sc := by
  funext o d
  have hc : gch i d = ch g d := Fin.ext (by show 128 * (i 1).val + d.val = 128 * g.val + d.val; rw [hg])
  unfold projB
  rw [hc, h8]

/-- The term of group g at batch n, from blocks that read the arrays as the windows' blocks do, is the specification's. -/
theorem term_core (i : grid0.Coords) (n : Fin 16) (g : Fin 4) (hg : (i 1).val = g.val)
    (b0 b1 : Vec Ideal S1x1024x512 .f32) (b2 : Vec Ideal S512x512 .f32) (b3 : Vec Ideal S1x512 .f32)
    (b4 : Vec Ideal S512x512 .f32) (b5 : Vec Ideal S1x512 .f32) (b6 : Vec Ideal S512x512 .f32) (b7 : Vec Ideal S1x512 .f32)
    (b8 : Vec Ideal S2048x512 .f32)
    (a0 a1 : Act) (a2 : Wt) (a3 : Bs) (a4 : Wt) (a5 : Bs) (a6 : Wt) (a7 : Bs) (a8 : PWt)
    (h0 : ∀ (r : Fin 1024) (j : Fin 512), b0 (ix3 (0 : Fin 1) r j) = a1 (ix3 n r j))
    (h1 : ∀ (r : Fin 1024) (j : Fin 512), b1 (ix3 (0 : Fin 1) r j) = a0 (ix3 n r j))
    (h2 : ∀ p q : Fin 512, b2 (ix2 p q) = a2 (ix2 p q) * sc) (h3 : ∀ p : Fin 512, b3 (ix2 (0 : Fin 1) p) = a3 (ix1 p))
    (h4 : ∀ p q : Fin 512, b4 (ix2 p q) = a4 (ix2 p q) * sc) (h5 : ∀ p : Fin 512, b5 (ix2 (0 : Fin 1) p) = a5 (ix1 p))
    (h6 : ∀ p q : Fin 512, b6 (ix2 p q) = a6 (ix2 p q) * sc) (h7 : ∀ p : Fin 512, b7 (ix2 (0 : Fin 1) p) = a7 (ix1 p))
    (h8 : ∀ (o : Fin 2048) (q : Fin 512), b8 (ix2 o q) = a8 (ix2 o q) * sc) (r : Fin 1024) (o : Fin 2048) :
    pointTerm i b0 b1 b2 b3 b4 b5 b6 b7 b8 r o
      = groupTerm (lin a1 a2 a3) (lin a0 a4 a5) (lin a0 a6 a7) a8 n g r o := by
  unfold pointTerm
  rw [linB_eq i n g hg b0 b2 b3 a1 a2 a3 h0 h2 h3, linB_eq i n g hg b1 b4 b5 a0 a4 a5 h1 h4 h5,
    linB_eq i n g hg b1 b6 b7 a0 a6 a7 h1 h6 h7, projB_eq i g hg b8 a8 h8]
  rfl

/-! ## Blocks of real numbers -/

/-- A block that is one batch of an array of real numbers holds real numbers. -/
theorem isReal_batch (x : Vec Ideal S1x1024x512 .f32) (n : Fin 16) (a : Act)
    (h : ∀ (r : Fin 1024) (j : Fin 512), x (ix3 (0 : Fin 1) r j) = a (ix3 n r j)) (ha : IsReal a) : IsReal x := by
  intro y
  have hy : y = ix3 (0 : Fin 1) (⟨(y 1).val, (y 1).isLt⟩ : Fin 1024) (⟨(y 2).val, (y 2).isLt⟩ : Fin 512) := by
    funext e; apply Fin.ext
    match e with
    | ⟨0, _⟩ => have h0 : (y 0).val < 1 := (y 0).isLt; show (y 0).val = 0; omega
    | ⟨1, _⟩ => rfl
    | ⟨2, _⟩ => rfl
  obtain ⟨v, hv⟩ := ha (ix3 n (⟨(y 1).val, (y 1).isLt⟩ : Fin 1024) (⟨(y 2).val, (y 2).isLt⟩ : Fin 512))
  exact ⟨v, (congrArg x hy).trans ((h _ _).trans hv)⟩

/-- A block that is an array of real numbers scaled by a real number holds real numbers. -/
theorem isReal_scaled (x : Vec Ideal S512x512 .f32) (a : Wt) (s : EReal) (hs : IsRealS s)
    (h : ∀ p q : Fin 512, x (ix2 p q) = a (ix2 p q) * s) (ha : IsReal a) : IsReal x := by
  intro y
  have hy : y = ix2 (⟨(y 0).val, (y 0).isLt⟩ : Fin 512) (⟨(y 1).val, (y 1).isLt⟩ : Fin 512) := by
    funext e; apply Fin.ext
    match e with
    | ⟨0, _⟩ => rfl
    | ⟨1, _⟩ => rfl
  obtain ⟨v, hv⟩ := IsRealS.mul (ha.apply (ix2 (⟨(y 0).val, (y 0).isLt⟩ : Fin 512) (⟨(y 1).val, (y 1).isLt⟩ : Fin 512))) hs
  exact ⟨v, (congrArg x hy).trans ((h _ _).trans hv)⟩

/-- A row that is a vector of real numbers holds real numbers. -/
theorem isReal_row (x : Vec Ideal S1x512 .f32) (a : Bs) (h : ∀ p : Fin 512, x (ix2 (0 : Fin 1) p) = a (ix1 p))
    (ha : IsReal a) : IsReal x := by
  intro y
  have hy : y = ix2 (0 : Fin 1) (⟨(y 1).val, (y 1).isLt⟩ : Fin 512) := by
    funext e; apply Fin.ext
    match e with
    | ⟨0, _⟩ => have h0 : (y 0).val < 1 := (y 0).isLt; show (y 0).val = 0; omega
    | ⟨1, _⟩ => rfl
  obtain ⟨v, hv⟩ := ha (ix1 (⟨(y 1).val, (y 1).isLt⟩ : Fin 512))
  exact ⟨v, (congrArg x hy).trans ((h _).trans hv)⟩

/-! ## At the kernel's own blocks -/

variable (m : (ℓ : Loc nD τ sig) → Buf (Elt Ideal) ℓ)

/-- The term the kernel computes at point t from its windows' blocks is the specification's term of group t % 4 at
    batch t / 4, over the argument arrays. -/
theorem term_eq (c : Dev nD) (t : Fin cfg0.N) (r : Fin 1024) (o : Fin 2048) :
    pointTerm (grid0.coords t) (iblk m c 0 t) (iblk m c 1 t) (iblk m c 2 t) (iblk m c 3 t) (iblk m c 4 t) (iblk m c 5 t)
        (iblk m c 6 t) (iblk m c 7 t) (iblk m c 8 t) r o
      = groupTerm (lin (m ((c : Thread nD τ).loc main_arg1)) (m ((c : Thread nD τ).loc main_arg2)) (m ((c : Thread nD τ).loc main_arg3)))
          (lin (m ((c : Thread nD τ).loc main_arg0)) (m ((c : Thread nD τ).loc main_arg4)) (m ((c : Thread nD τ).loc main_arg5)))
          (lin (m ((c : Thread nD τ).loc main_arg0)) (m ((c : Thread nD τ).loc main_arg6)) (m ((c : Thread nD τ).loc main_arg7)))
          (m ((c : Thread nD τ).loc main_arg8)) ⟨t.val / 4, Points2.batch_lt t⟩ ⟨t.val % 4, Nat.mod_lt _ (by decide)⟩ r o :=
  term_core (grid0.coords t) ⟨t.val / 4, Points2.batch_lt t⟩ ⟨t.val % 4, Nat.mod_lt _ (by decide)⟩ (Points2.coords1 t)
    (iblk m c 0 t) (iblk m c 1 t) (iblk m c 2 t) (iblk m c 3 t) (iblk m c 4 t) (iblk m c 5 t) (iblk m c 6 t) (iblk m c 7 t)
    (iblk m c 8 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (fun r j => Blocks.blk0 m c t (Points2.batch_lt t) r j) (fun r j => Blocks.blk1 m c t (Points2.batch_lt t) r j)
    (fun p q => Blocks.blk2 m c t p q) (fun p => Blocks.blk3 m c t p)
    (fun p q => Blocks.blk4 m c t p q) (fun p => Blocks.blk5 m c t p)
    (fun p q => Blocks.blk6 m c t p q) (fun p => Blocks.blk7 m c t p)
    (fun o q => Blocks.blk8 m c t o q) r o

/-- Window 0's block holds real numbers when the second activation array does. -/
theorem real0 (c : Dev nD) (t : Fin cfg0.N) (h : IsReal ((m ((c : Thread nD τ).loc main_arg1)) : Act)) :
    IsReal (iblk m c 0 t : Vec Ideal S1x1024x512 .f32) :=
  isReal_batch (iblk m c 0 t) ⟨t.val / 4, Points2.batch_lt t⟩ (m ((c : Thread nD τ).loc main_arg1))
    (fun r j => Blocks.blk0 m c t (Points2.batch_lt t) r j) h

/-- Window 1's block holds real numbers when the first activation array does. -/
theorem real1 (c : Dev nD) (t : Fin cfg0.N) (h : IsReal ((m ((c : Thread nD τ).loc main_arg0)) : Act)) :
    IsReal (iblk m c 1 t : Vec Ideal S1x1024x512 .f32) :=
  isReal_batch (iblk m c 1 t) ⟨t.val / 4, Points2.batch_lt t⟩ (m ((c : Thread nD τ).loc main_arg0))
    (fun r j => Blocks.blk1 m c t (Points2.batch_lt t) r j) h

/-- Window 2's block holds real numbers when the first layer's weights do: the scaling word is a real number. -/
theorem real2 (c : Dev nD) (t : Fin cfg0.N) (h : IsReal ((m ((c : Thread nD τ).loc main_arg2)) : Wt)) :
    IsReal (iblk m c 2 t : Vec Ideal S512x512 .f32) :=
  isReal_scaled (iblk m c 2 t) (m ((c : Thread nD τ).loc main_arg2)) sc Cert.GroupAttn.Finite.sc_real (fun p q => Blocks.blk2 m c t p q) h

/-- Window 4's block holds real numbers when the second layer's weights do. -/
theorem real4 (c : Dev nD) (t : Fin cfg0.N) (h : IsReal ((m ((c : Thread nD τ).loc main_arg4)) : Wt)) :
    IsReal (iblk m c 4 t : Vec Ideal S512x512 .f32) :=
  isReal_scaled (iblk m c 4 t) (m ((c : Thread nD τ).loc main_arg4)) sc Cert.GroupAttn.Finite.sc_real (fun p q => Blocks.blk4 m c t p q) h

/-- Window 3's block holds real numbers when the first layer's bias does. -/
theorem real3 (c : Dev nD) (t : Fin cfg0.N) (h : IsReal ((m ((c : Thread nD τ).loc main_arg3)) : Bs)) :
    IsReal (iblk m c 3 t : Vec Ideal S1x512 .f32) :=
  isReal_row (iblk m c 3 t) (m ((c : Thread nD τ).loc main_arg3)) (fun p => Blocks.blk3 m c t p) h

/-- Window 5's block holds real numbers when the second layer's bias does. -/
theorem real5 (c : Dev nD) (t : Fin cfg0.N) (h : IsReal ((m ((c : Thread nD τ).loc main_arg5)) : Bs)) :
    IsReal (iblk m c 5 t : Vec Ideal S1x512 .f32) :=
  isReal_row (iblk m c 5 t) (m ((c : Thread nD τ).loc main_arg5)) (fun p => Blocks.blk5 m c t p) h

/-- Window 9's block is the projection bias as a row. -/
theorem bias_eq (c : Dev nD) (t : Fin cfg0.N) (o : Fin 2048) :
    (iblk m c 9 t : Vec Ideal S1x2048 .f32) (ix2 (0 : Fin 1) o) = (m ((c : Thread nD τ).loc main_arg9)) (ix1 o) :=
  Blocks.blk9 m c t o

end Cert.KernelIdeal.Bridge

end
-- ==== Proof.KernelResult.lean ====
/-
  The kernel's result array is the specification's function of the argument arrays.

  A batch's four grid points run in order: the first zeroes the output block and adds its group's term, the next two
  add theirs, the last adds its own and then the projection bias, and only then is the block written back. So what is
  written back for batch n is, entry by entry, the sum of the four groups' terms plus the bias: the specification's
  result at batch n. The sixteen blocks written back cover the result array, so the array ends holding the
  specification's result everywhere.
-/
import proofs.«143225_j81793357185069_2_alg».proof.Proof.Gen.KernelIdeal.Value
import proofs.«143225_j81793357185069_2_alg».proof.Proof.KernelCases
import proofs.«143225_j81793357185069_2_alg».proof.Proof.KernelBridge
import proofs.«143225_j81793357185069_2_alg».proof.Proof.KernelPoints
import proofs.«143225_j81793357185069_2_alg».proof.Proof.Spec
import proofs.«143225_j81793357185069_2_alg».proof.Proof.LibReals
import Idealize.ShloMosaic.Lib.Pipeline.Value

set_option maxRecDepth 16384

noncomputable section

namespace Cert.KernelIdeal.Result

open Cert.KernelIdeal Cert.KernelIdeal.Gen Idealize.ShloMosaic Idealize.ShloMosaic.TcCoe Idealize.SL.Sem Idealize.ShloMosaic.ValueIdx
open Cert.GroupAttn Cert.KernelIdeal.Cases Cert.Reals Cert.KernelIdeal.Points2
open scoped BigOperators

variable (m : (ℓ : Loc nD τ sig) → Buf (Elt Ideal) ℓ) (ρ : Dev nD → PrngReg)

/-! ## One point at a time -/

/-- The group's term the kernel adds at point t, from its windows' blocks there. -/
def pt (c : Dev nD) (t : Fin cfg0.N) (r : Fin 1024) (o : Fin 2048) : EReal :=
  pointTerm (grid0.coords t) (iblk m c 0 t) (iblk m c 1 t) (iblk m c 2 t) (iblk m c 3 t) (iblk m c 4 t) (iblk m c 5 t) (iblk m c 6 t) (iblk m c 7 t) (iblk m c 8 t) r o

/-- The contents after a position do not depend on how the position is written. -/
theorem outsAt0_congr (c : Dev nD) {n n' : ℕ} (e : n = n') (h : n < cfg0.N) (h' : n' < cfg0.N) :
    outsAt0 m c n h = outsAt0 m c n' h' := by
  subst e; rfl

/-- The specification's term of a group depends on the batch and the group through their values only. -/
theorem gt_congr (q k v : Fin 16 → Fin 1024 → Fin 512 → EReal) (pw : PWt) {n n' : Fin 16} {g g' : Fin 4}
    (hn : n.val = n'.val) (hg : g.val = g'.val) (r : Fin 1024) (o : Fin 2048) :
    groupTerm q k v pw n g r o = groupTerm q k v pw n' g' r o := by
  obtain rfl : n = n' := Fin.ext hn
  obtain rfl : g = g' := Fin.ext hg
  rfl

/-- The term added at a point s of batch t / 4 and group g is the specification's term of that batch and group. -/
theorem pt_spec (c : Dev nD) (t s : Fin cfg0.N) (g : Fin 4) (hn : s.val / 4 = t.val / 4) (hg : s.val % 4 = g.val)
    (r : Fin 1024) (o : Fin 2048) :
    pt m c s r o = groupTerm (lin (m ((c : Thread nD τ).loc main_arg1)) (m ((c : Thread nD τ).loc main_arg2)) (m ((c : Thread nD τ).loc main_arg3))) (lin (m ((c : Thread nD τ).loc main_arg0)) (m ((c : Thread nD τ).loc main_arg4)) (m ((c : Thread nD τ).loc main_arg5))) (lin (m ((c : Thread nD τ).loc main_arg0)) (m ((c : Thread nD τ).loc main_arg6)) (m ((c : Thread nD τ).loc main_arg7))) (m ((c : Thread nD τ).loc main_arg8)) ⟨t.val / 4, batch_lt t⟩ g r o :=
  (Bridge.term_eq m c s r o).trans (gt_congr _ _ _ _ hn hg r o)

/-- The first point of a batch leaves its group's term. -/
theorem step_A (c : Dev nD) (t : Fin cfg0.N) (h0 : t.val % 4 = 0)
    (hreal : IsReal ((m ((c : Thread nD τ).loc main_arg0)) : Act) ∧ IsReal ((m ((c : Thread nD τ).loc main_arg1)) : Act) ∧ IsReal ((m ((c : Thread nD τ).loc main_arg2)) : Wt) ∧ IsReal ((m ((c : Thread nD τ).loc main_arg3)) : Bs) ∧ IsReal ((m ((c : Thread nD τ).loc main_arg4)) : Wt) ∧ IsReal ((m ((c : Thread nD τ).loc main_arg5)) : Bs))
    (r : Fin 1024) (o : Fin 2048) :
    outsAt0 m c t.val t.isLt (ix3 (0 : Fin 1) r o) = pt m c t r o := by
  have h1 : ¬t.val % 4 = 3 := by omega
  exact (congrFun (outsAt0_A m c t h0 h1) (ix3 (0 : Fin 1) r o)).trans
    (out_A_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      ((hcond0_0 t).mpr h0) (fun h => h1 ((hcond0_1 t).mp h))
      (iblk m c 0 t) (iblk m c 1 t) (iblk m c 2 t) (iblk m c 3 t) (iblk m c 4 t) (iblk m c 5 t) (iblk m c 6 t) (iblk m c 7 t) (iblk m c 8 t) (iblk m c 9 t)
      (Bridge.real0 m c t hreal.2.1) (Bridge.real1 m c t hreal.1) (Bridge.real2 m c t hreal.2.2.1) (Bridge.real3 m c t hreal.2.2.2.1) (Bridge.real4 m c t hreal.2.2.2.2.1) (Bridge.real5 m c t hreal.2.2.2.2.2) r o)

/-- A middle point of a batch adds its group's term to what the point before left. -/
theorem step_B (c : Dev nD) (t s : Fin cfg0.N) (hs : s.val + 1 = t.val) (h0 : ¬t.val % 4 = 0) (h1 : ¬t.val % 4 = 3)
    (hreal : IsReal ((m ((c : Thread nD τ).loc main_arg0)) : Act) ∧ IsReal ((m ((c : Thread nD τ).loc main_arg1)) : Act) ∧ IsReal ((m ((c : Thread nD τ).loc main_arg2)) : Wt) ∧ IsReal ((m ((c : Thread nD τ).loc main_arg3)) : Bs) ∧ IsReal ((m ((c : Thread nD τ).loc main_arg4)) : Wt) ∧ IsReal ((m ((c : Thread nD τ).loc main_arg5)) : Bs))
    (r : Fin 1024) (o : Fin 2048) :
    outsAt0 m c t.val t.isLt (ix3 (0 : Fin 1) r o) = outsAt0 m c s.val s.isLt (ix3 (0 : Fin 1) r o) + pt m c t r o := by
  have e : outsAt0 m c (t.val - 1) (Nat.lt_of_le_of_lt (Nat.sub_le _ _) t.isLt) = outsAt0 m c s.val s.isLt :=
    outsAt0_congr m c (by omega) _ _
  exact (congrFun (outsAt0_B m c t h0 h1) (ix3 (0 : Fin 1) r o)).trans
    ((out_B_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      (fun h => h0 ((hcond0_0 t).mp h)) (fun h => h1 ((hcond0_1 t).mp h))
      (iblk m c 0 t) (iblk m c 1 t) (iblk m c 2 t) (iblk m c 3 t) (iblk m c 4 t) (iblk m c 5 t) (iblk m c 6 t) (iblk m c 7 t) (iblk m c 8 t) (iblk m c 9 t)
      (outsAt0 m c (t.val - 1) (Nat.lt_of_le_of_lt (Nat.sub_le _ _) t.isLt))
      (Bridge.real0 m c t hreal.2.1) (Bridge.real1 m c t hreal.1) (Bridge.real2 m c t hreal.2.2.1) (Bridge.real3 m c t hreal.2.2.2.1) (Bridge.real4 m c t hreal.2.2.2.2.1) (Bridge.real5 m c t hreal.2.2.2.2.2) r o).trans
      (congrArg (fun X : Vec Ideal S1x1024x2048 .f32 => X (ix3 (0 : Fin 1) r o) + pt m c t r o) e))

/-- The last point of a batch adds its group's term and then the projection bias. -/
theorem step_C (c : Dev nD) (t s : Fin cfg0.N) (hs : s.val + 1 = t.val) (h1 : t.val % 4 = 3)
    (hreal : IsReal ((m ((c : Thread nD τ).loc main_arg0)) : Act) ∧ IsReal ((m ((c : Thread nD τ).loc main_arg1)) : Act) ∧ IsReal ((m ((c : Thread nD τ).loc main_arg2)) : Wt) ∧ IsReal ((m ((c : Thread nD τ).loc main_arg3)) : Bs) ∧ IsReal ((m ((c : Thread nD τ).loc main_arg4)) : Wt) ∧ IsReal ((m ((c : Thread nD τ).loc main_arg5)) : Bs))
    (r : Fin 1024) (o : Fin 2048) :
    outsAt0 m c t.val t.isLt (ix3 (0 : Fin 1) r o)
      = (outsAt0 m c s.val s.isLt (ix3 (0 : Fin 1) r o) + pt m c t r o) + (m ((c : Thread nD τ).loc main_arg9)) (ix1 o) := by
  have h0 : ¬t.val % 4 = 0 := by omega
  have e : outsAt0 m c (t.val - 1) (Nat.lt_of_le_of_lt (Nat.sub_le _ _) t.isLt) = outsAt0 m c s.val s.isLt :=
    outsAt0_congr m c (by omega) _ _
  exact (congrFun (outsAt0_C m c t h0 h1) (ix3 (0 : Fin 1) r o)).trans
    ((out_C_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      (fun h => h0 ((hcond0_0 t).mp h)) ((hcond0_1 t).mpr h1)
      (iblk m c 0 t) (iblk m c 1 t) (iblk m c 2 t) (iblk m c 3 t) (iblk m c 4 t) (iblk m c 5 t) (iblk m c 6 t) (iblk m c 7 t) (iblk m c 8 t) (iblk m c 9 t)
      (outsAt0 m c (t.val - 1) (Nat.lt_of_le_of_lt (Nat.sub_le _ _) t.isLt))
      (Bridge.real0 m c t hreal.2.1) (Bridge.real1 m c t hreal.1) (Bridge.real2 m c t hreal.2.2.1) (Bridge.real3 m c t hreal.2.2.2.1) (Bridge.real4 m c t hreal.2.2.2.2.1) (Bridge.real5 m c t hreal.2.2.2.2.2) r o).trans
      (congrArg₂ (fun (X : Vec Ideal S1x1024x2048 .f32) (z : EReal) => (X (ix3 (0 : Fin 1) r o) + pt m c t r o) + z) e
        (Bridge.bias_eq m c t o)))

/-! ## A batch's four points -/

/-- AFTER THE LAST POINT OF A BATCH the output block holds the specification's result at that batch. -/
theorem outs_last (c : Dev nD) (t : Fin cfg0.N) (h3 : t.val % 4 = 3)
    (hreal : IsReal ((m ((c : Thread nD τ).loc main_arg0)) : Act) ∧ IsReal ((m ((c : Thread nD τ).loc main_arg1)) : Act) ∧ IsReal ((m ((c : Thread nD τ).loc main_arg2)) : Wt) ∧ IsReal ((m ((c : Thread nD τ).loc main_arg3)) : Bs) ∧ IsReal ((m ((c : Thread nD τ).loc main_arg4)) : Wt) ∧ IsReal ((m ((c : Thread nD τ).loc main_arg5)) : Bs))
    (r : Fin 1024) (o : Fin 2048) :
    outsAt0 m c t.val t.isLt (ix3 (0 : Fin 1) r o)
      = Cert.GroupAttn.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix3 ⟨t.val / 4, batch_lt t⟩ r o) := by
  have hN : cfg0.N = 64 := N_0
  have ht := t.isLt
  obtain ⟨t1, e1⟩ : ∃ s : Fin cfg0.N, s.val + 1 = t.val := ⟨⟨t.val - 1, by omega⟩, by show t.val - 1 + 1 = t.val; omega⟩
  obtain ⟨t2, e2⟩ : ∃ s : Fin cfg0.N, s.val + 1 = t1.val := ⟨⟨t1.val - 1, by omega⟩, by show t1.val - 1 + 1 = t1.val; omega⟩
  obtain ⟨t3, e3⟩ : ∃ s : Fin cfg0.N, s.val + 1 = t2.val := ⟨⟨t2.val - 1, by omega⟩, by show t2.val - 1 + 1 = t2.val; omega⟩
  rw [step_C m c t t1 e1 h3 hreal r o, step_B m c t1 t2 e2 (by omega) (by omega) hreal r o,
    step_B m c t2 t3 e3 (by omega) (by omega) hreal r o, step_A m c t3 (by omega) hreal r o,
    pt_spec m c t t3 (0 : Fin 4) (by omega) (by show t3.val % 4 = 0; omega) r o,
    pt_spec m c t t2 (1 : Fin 4) (by omega) (by show t2.val % 4 = 1; omega) r o,
    pt_spec m c t t1 (2 : Fin 4) (by omega) (by show t1.val % 4 = 2; omega) r o,
    pt_spec m c t t (3 : Fin 4) rfl (by show t.val % 4 = 3; omega) r o]
  show _ = (∑ g : Fin 4, groupTerm (lin (m ((c : Thread nD τ).loc main_arg1)) (m ((c : Thread nD τ).loc main_arg2)) (m ((c : Thread nD τ).loc main_arg3))) (lin (m ((c : Thread nD τ).loc main_arg0)) (m ((c : Thread nD τ).loc main_arg4)) (m ((c : Thread nD τ).loc main_arg5))) (lin (m ((c : Thread nD τ).loc main_arg0)) (m ((c : Thread nD τ).loc main_arg6)) (m ((c : Thread nD τ).loc main_arg7))) (m ((c : Thread nD τ).loc main_arg8)) ⟨t.val / 4, batch_lt t⟩ g r o) + (m ((c : Thread nD τ).loc main_arg9)) (ix1 o)
  rw [Fin.sum_univ_four]

/-! ## The result array -/

/-- What a point that writes back writes is its block of the specification's result. -/
theorem flushed_eq (c : Dev nD)
    (hreal : IsReal ((m ((c : Thread nD τ).loc main_arg0)) : Act) ∧ IsReal ((m ((c : Thread nD τ).loc main_arg1)) : Act) ∧ IsReal ((m ((c : Thread nD τ).loc main_arg2)) : Wt) ∧ IsReal ((m ((c : Thread nD τ).loc main_arg3)) : Bs) ∧ IsReal ((m ((c : Thread nD τ).loc main_arg4)) : Wt) ∧ IsReal ((m ((c : Thread nD τ).loc main_arg5)) : Bs))
    (t : Fin cfg0.N) (hf : (cfg0.win 10).flush t = true) :
    (dats m 0 c).flushed 10 t = ((cfg0.win 10).blk t).view.read (Elt Ideal) (Cert.GroupAttn.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  have h3 : t.val % 4 = 3 := (flush0_10 t).mp hf
  rw [Cert.KernelIdeal.Value.flushed10]
  funext y
  show outsAt0 m c t.val t.isLt y = Cert.GroupAttn.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 10).blk t).view.emb y)
  rw [emb10 t y]
  obtain ⟨u, r, o, rfl⟩ : ∃ (u : Fin 1) (r : Fin 1024) (o : Fin 2048), y = ix3 u r o := ⟨y 0, y 1, y 2, eq_ix3 y⟩
  obtain rfl : u = 0 := Subsingleton.elim _ _
  exact outs_last m c t h3 hreal r o

/-- THE RESULT ARRAY after the run is the specification's result of the argument arrays. -/
theorem final (c : Dev nD)
    (hreal : IsReal ((m ((c : Thread nD τ).loc main_arg0)) : Act) ∧ IsReal ((m ((c : Thread nD τ).loc main_arg1)) : Act) ∧ IsReal ((m ((c : Thread nD τ).loc main_arg2)) : Wt) ∧ IsReal ((m ((c : Thread nD τ).loc main_arg3)) : Bs) ∧ IsReal ((m ((c : Thread nD τ).loc main_arg4)) : Wt) ∧ IsReal ((m ((c : Thread nD τ).loc main_arg5)) : Bs)) :
    (dats m 0 c).arrAt 10 cfg0.N = Cert.GroupAttn.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 10 (Cert.GroupAttn.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (fun t hf => flushed_eq m c hreal t hf) cover10

/-- THE RUN, READ: the result array at the specification's result, the arguments unchanged. -/
theorem run (hreal : ∀ c : Dev nD, IsReal ((m ((c : Thread nD τ).loc main_arg0)) : Act) ∧ IsReal ((m ((c : Thread nD τ).loc main_arg1)) : Act) ∧ IsReal ((m ((c : Thread nD τ).loc main_arg2)) : Wt) ∧ IsReal ((m ((c : Thread nD τ).loc main_arg3)) : Bs) ∧ IsReal ((m ((c : Thread nD τ).loc main_arg4)) : Wt) ∧ IsReal ((m ((c : Thread nD τ).loc main_arg5)) : Bs)) :
    θ_run defs (onTc (τ := τ) (main (F := Ideal))) ⟨m, fun _ => 0, ρ⟩ fun r => ∀ c : Dev nD,
      r.2.mem ((c : Thread nD τ).loc main_v12) = Cert.GroupAttn.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c (hreal c)), (h c).2⟩) (Cert.KernelIdeal.Value.run_blocks m ρ)

end Cert.KernelIdeal.Result

end
-- ==== Proof.lean ====
/-
  A fused grouped-attention kernel against its reference, over the extended reals.

  Both programs compute, for each of 16 batches: three linear layers (weights scaled by the word for 1/√512) giving
  query, key and value rows of 512 channels; in each of four groups of 128 consecutive channels the scores of the
  query rows against the key rows, scaled by the same word; each row of scores turned into weights by a shift by the
  row maximum, the exponential and a division by the row sum; the weights against the value rows; and the 512
  channels so obtained against the scaled projection weights, plus a bias (Proof/Spec.lean states this function).

  The kernel differs from the reference in three ways, none of which changes the extended reals computed from finite
  inputs. It splits each operand of the score product into the part a 16-bit format keeps and a remainder and sums
  three products; at the ideal values the remainder of a real number is x − x = 0, so the three products are the one
  product, and the query and key rows are real numbers because the inputs are (Proof/Finite.lean, from the
  precondition). It handles one group per grid point and adds the group's 128 channels of the projection into the
  output block, which it zeroes at a batch's first group and completes with the bias at its last one; the reference
  contracts all 512 channels at once: the same sum, re-associated (Proof/KernelResult.lean; the reference side in
  Proof/RefIsSpec.lean). And it works through the query rows 256 at a time, which is invisible in the values
  (Proof/KernelFour.lean).

  The three frames are the generated ones (the reference's frame is its generated run with the result dropped); the
  eight conjuncts of `preserves` are the narrowing-then-widening rule's statement at the two shapes it was applied at.
-/
import proofs.«143225_j81793357185069_2_alg».proof.Defs
import proofs.«143225_j81793357185069_2_alg».proof.Proof.Gen.Kernel
import proofs.«143225_j81793357185069_2_alg».proof.Proof.Gen.Kernel.Frame
import proofs.«143225_j81793357185069_2_alg».proof.Proof.Gen.KernelIdeal
import proofs.«143225_j81793357185069_2_alg».proof.Proof.Gen.KernelIdeal.Frame
import proofs.«143225_j81793357185069_2_alg».proof.Proof.Gen.KernelIdeal.Value
import proofs.«143225_j81793357185069_2_alg».proof.Proof.Gen.ReferenceIdeal
import proofs.«143225_j81793357185069_2_alg».proof.Proof.Gen.ReferenceIdeal.Run
import proofs.«143225_j81793357185069_2_alg».proof.Proof.Gen.ReferenceIdeal.Read
import proofs.«143225_j81793357185069_2_alg».proof.Proof.Gen.Pre_finite_inputs
import proofs.«143225_j81793357185069_2_alg».proof.Proof.Spec
import proofs.«143225_j81793357185069_2_alg».proof.Proof.Finite
import proofs.«143225_j81793357185069_2_alg».proof.Proof.RefIsSpec
import proofs.«143225_j81793357185069_2_alg».proof.Proof.KernelResult
import Idealize.ShloMosaic.Adequacy
import Idealize.ShloMosaic.Init

noncomputable section

namespace Cert.Proof

open Idealize.ShloMosaic Idealize.SL.Sem

/-- The kernel as printed runs, and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Narrowing to 16 bits and widening back is the identity at the ideal values, and the rounding through the narrow
    format at the word level: once per rewritten site, four blocks of query rows and the key rows beside each. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16,
    IdealRules.truncf_extf.statement _ .f32 .bf16, IdealRules.truncf_extf.statement _ .f32 .bf16,
    IdealRules.truncf_extf.statement _ .f32 .bf16, IdealRules.truncf_extf.statement _ .f32 .bf16⟩

/-- From memories that agree on the ten arguments, with every input finite, the idealized kernel's result array and
    the idealized reference's both end at the specification's function of the arguments. -/
theorem algebraic : Cert.algebraic_KernelIdeal_ReferenceIdeal := by
  intro m ρ m' ρ' hpre hagree
  have hreal := fun c : Dev Cert.KernelIdeal.nD => Cert.GroupAttn.Finite.real_of_pre _ _ _ _ _ _ _ _ _ _ (hpre c)
  refine ⟨fun c => Cert.GroupAttn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Result.run m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.ReferenceIdeal.RefValue.ref_is_result]
  obtain ⟨e0, e1, e2, e3, e4, e5, e6, e7, e8, e9⟩ := hagree c
  rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
